-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  IdealRules.sign_bit.Statement Cert.KernelIdeal.S256x256 .f32
  ∧ IdealRules.sign_bit.Statement Cert.KernelIdeal.S256x256 .f32
  ∧ IdealRules.sign_bit.Statement Cert.KernelIdeal.S256x1024 .f32
  ∧ IdealRules.sign_bit.Statement Cert.KernelIdeal.S256x1024 .f32
  ∧ IdealRules.sign_bit.Statement Cert.KernelIdeal.S256x1024 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32
  ∧ IdealRules.sign_bit.Statement Cert.KernelIdeal.S256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v261) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x256x256 : Shape := ⟨3, ![48, 256, 256]⟩
abbrev S48x256x1024 : Shape := ⟨3, ![48, 256, 1024]⟩
abbrev S48x1x1024 : Shape := ⟨3, ![48, 1, 1024]⟩
abbrev S48 : Shape := ⟨1, ![48]⟩
abbrev S_ : Shape := ⟨0, ![]⟩

class Facts : Prop where
  bcast_S_S48x256x256 : S_.BroadcastsInDim S48x256x256 (![] : Fin 0 → Fin S48x256x256.rank)
  reducesTo_S48x256x256_S_d0_1_2 : S48x256x256.ReducesTo [0, 1, 2] S_
  h_S_ : 0 < S_.numel
  bcast_S_S48x256x1024 : S_.BroadcastsInDim S48x256x1024 (![] : Fin 0 → Fin S48x256x1024.rank)
  reducesTo_S48x256x1024_S_d0_1_2 : S48x256x1024.ReducesTo [0, 1, 2] S_
  bcast_S_S48x1x1024 : S_.BroadcastsInDim S48x1x1024 (![] : Fin 0 → Fin S48x1x1024.rank)
  reducesTo_S48x1x1024_S_d0_1_2 : S48x1x1024.ReducesTo [0, 1, 2] S_
  bcast_S_S48 : S_.BroadcastsInDim S48 (![] : Fin 0 → Fin S48.rank)
  reducesTo_S48_S_d0 : S48.ReducesTo [0] S_

variable [Facts]

def fn_part7 {F : FTy → Type} [FloatOps F] (main_v118 : IVec S_ 1) (main_v119 : FVec F S48 .f32) : IVec S_ 1 :=
  let main_cst_46 : FVec F S_ .f32 := constant S_ .f32 0x7F800000#32
  let main_v120 : FVec F S48 .f32 := broadcastInDim S48 ![] bcast_S_S48 main_cst_46
  let main_v121 : IVec S48 1 := cmpf .olt main_v119 main_v120
  let main_c_47 : IVec S_ 1 := constantI S_ 1 1#1
  let main_v122 : IVec S_ 1 := (fun x v => Host.reduce IntOp.andi x v reducesTo_S48_S_d0 h_S_) main_v121 main_c_47
  let main_v123 : IVec S_ 1 := andi main_v118 main_v122
  main_v123

def fn_part6 {F : FTy → Type} [FloatOps F] (main_arg21 : FVec F S48 .f32) (main_arg22 : FVec F S48 .f32) (main_arg23 : FVec F S48 .f32) (main_arg24 : FVec F S48 .f32) (main_v98 : IVec S_ 1) (main_v101 : IVec S48 1) (main_c_39 : IVec S_ 1) : IVec S_ 1 :=
  let main_v102 : IVec S_ 1 := (fun x v => Host.reduce IntOp.andi x v reducesTo_S48_S_d0 h_S_) main_v101 main_c_39
  let main_v103 : IVec S_ 1 := andi main_v98 main_v102
  let main_v104 : FVec F S48 .f32 := Host.absf main_arg21
  let main_cst_40 : FVec F S_ .f32 := constant S_ .f32 0x7F800000#32
  let main_v105 : FVec F S48 .f32 := broadcastInDim S48 ![] bcast_S_S48 main_cst_40
  let main_v106 : IVec S48 1 := cmpf .olt main_v104 main_v105
  let main_c_41 : IVec S_ 1 := constantI S_ 1 1#1
  let main_v107 : IVec S_ 1 := (fun x v => Host.reduce IntOp.andi x v reducesTo_S48_S_d0 h_S_) main_v106 main_c_41
  let main_v108 : IVec S_ 1 := andi main_v103 main_v107
  let main_v109 : FVec F S48 .f32 := Host.absf main_arg22
  let main_cst_42 : FVec F S_ .f32 := constant S_ .f32 0x7F800000#32
  let main_v110 : FVec F S48 .f32 := broadcastInDim S48 ![] bcast_S_S48 main_cst_42
  let main_v111 : IVec S48 1 := cmpf .olt main_v109 main_v110
  let main_c_43 : IVec S_ 1 := constantI S_ 1 1#1
  let main_v112 : IVec S_ 1 := (fun x v => Host.reduce IntOp.andi x v reducesTo_S48_S_d0 h_S_) main_v111 main_c_43
  let main_v113 : IVec S_ 1 := andi main_v108 main_v112
  let main_v114 : FVec F S48 .f32 := Host.absf main_arg23
  let main_cst_44 : FVec F S_ .f32 := constant S_ .f32 0x7F800000#32
  let main_v115 : FVec F S48 .f32 := broadcastInDim S48 ![] bcast_S_S48 main_cst_44
  let main_v116 : IVec S48 1 := cmpf .olt main_v114 main_v115
  let main_c_45 : IVec S_ 1 := constantI S_ 1 1#1
  let main_v117 : IVec S_ 1 := (fun x v => Host.reduce IntOp.andi x v reducesTo_S48_S_d0 h_S_) main_v116 main_c_45
  let main_v118 : IVec S_ 1 := andi main_v113 main_v117
  let main_v119 : FVec F S48 .f32 := Host.absf main_arg24
  fn_part7 (F := F) main_v118 main_v119

def fn_part5 {F : FTy → Type} [FloatOps F] (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) (main_v83 : IVec S_ 1) (main_v84 : FVec F S48 .f32) (main_cst_32 : FVec F S_ .f32) : IVec S_ 1 :=
  let main_v85 : FVec F S48 .f32 := broadcastInDim S48 ![] bcast_S_S48 main_cst_32
  let main_v86 : IVec S48 1 := cmpf .olt main_v84 main_v85
  let main_c_33 : IVec S_ 1 := constantI S_ 1 1#1
  let main_v87 : IVec S_ 1 := (fun x v => Host.reduce IntOp.andi x v reducesTo_S48_S_d0 h_S_) main_v86 main_c_33
  let main_v88 : IVec S_ 1 := andi main_v83 main_v87
  let main_v89 : FVec F S48 .f32 := Host.absf main_arg18
  let main_cst_34 : FVec F S_ .f32 := constant S_ .f32 0x7F800000#32
  let main_v90 : FVec F S48 .f32 := broadcastInDim S48 ![] bcast_S_S48 main_cst_34
  let main_v91 : IVec S48 1 := cmpf .olt main_v89 main_v90
  let main_c_35 : IVec S_ 1 := constantI S_ 1 1#1
  let main_v92 : IVec S_ 1 := (fun x v => Host.reduce IntOp.andi x v reducesTo_S48_S_d0 h_S_) main_v91 main_c_35
  let main_v93 : IVec S_ 1 := andi main_v88 main_v92
  let main_v94 : FVec F S48 .f32 := Host.absf main_arg19
  let main_cst_36 : FVec F S_ .f32 := constant S_ .f32 0x7F800000#32
  let main_v95 : FVec F S48 .f32 := broadcastInDim S48 ![] bcast_S_S48 main_cst_36
  let main_v96 : IVec S48 1 := cmpf .olt main_v94 main_v95
  let main_c_37 : IVec S_ 1 := constantI S_ 1 1#1
  let main_v97 : IVec S_ 1 := (fun x v => Host.reduce IntOp.andi x v reducesTo_S48_S_d0 h_S_) main_v96 main_c_37
  let main_v98 : IVec S_ 1 := andi main_v93 main_v97
  let main_v99 : FVec F S48 .f32 := Host.absf main_arg20
  let main_cst_38 : FVec F S_ .f32 := constant S_ .f32 0x7F800000#32
  let main_v100 : FVec F S48 .f32 := broadcastInDim S48 ![] bcast_S_S48 main_cst_38
  let main_v101 : IVec S48 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S48 .f32) (main_arg15 : FVec F S48 .f32) (main_arg16 : FVec F S48 .f32) (main_arg17 : FVec F S48 .f32) (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) (main_v63 : IVec S_ 1) (main_v67 : IVec S_ 1) : IVec S_ 1 :=
  let main_v68 : IVec S_ 1 := andi main_v63 main_v67
  let main_v69 : FVec F S48 .f32 := Host.absf main_arg14
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  let main_v74 : FVec F S48 .f32 := Host.absf main_arg15
  let main_cst_28 : FVec F S_ .f32 := constant S_ .f32 0x7F800000#32
  let main_v75 : FVec F S48 .f32 := broadcastInDim S48 ![] bcast_S_S48 main_cst_28
  let main_v76 : IVec S48 1 := cmpf .olt main_v74 main_v75
  let main_c_29 : IVec S_ 1 := constantI S_ 1 1#1
  let main_v77 : IVec S_ 1 := (fun x v => Host.reduce IntOp.andi x v reducesTo_S48_S_d0 h_S_) main_v76 main_c_29
  let main_v78 : IVec S_ 1 := andi main_v73 main_v77
  let main_v79 : FVec F S48 .f32 := Host.absf main_arg16
  let main_cst_30 : FVec F S_ .f32 := constant S_ .f32 0x7F800000#32
  let main_v80 : FVec F S48 .f32 := broadcastInDim S48 ![] bcast_S_S48 main_cst_30
  let main_v81 : IVec S48 1 := cmpf .olt main_v79 main_v80
  let main_c_31 : IVec S_ 1 := constantI S_ 1 1#1
  let main_v82 : IVec S_ 1 := (fun x v => Host.reduce IntOp.andi x v reducesTo_S48_S_d0 h_S_) main_v81 main_c_31
  let main_v83 : IVec S_ 1 := andi main_v78 main_v82
  let main_v84 : FVec F S48 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S48x1x1024 .f32) (main_arg12 : FVec F S48 .f32) (main_arg13 : FVec F S48 .f32) (main_arg14 : FVec F S48 .f32) (main_arg15 : FVec F S48 .f32) (main_arg16 : FVec F S48 .f32) (main_arg17 : FVec F S48 .f32) (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) (main_v48 : IVec S_ 1) (main_v49 : FVec F S48x256x1024 .f32) (main_v50 : FVec F S48x256x1024 .f32) : IVec S_ 1 :=
  let main_v51 : IVec S48x256x1024 1 := cmpf .olt main_v49 main_v50
  let main_c_19 : IVec S_ 1 := constantI S_ 1 1#1
  let main_v52 : IVec S_ 1 := (fun x v => Host.reduce IntOp.andi x v reducesTo_S48x256x1024_S_d0_1_2 h_S_) main_v51 main_c_19
  let main_v53 : IVec S_ 1 := andi main_v48 main_v52
  let main_v54 : FVec F S48x1x1024 .f32 := Host.absf main_arg11
  let main_cst_20 : FVec F S_ .f32 := constant S_ .f32 0x7F800000#32
  let main_v55 : FVec F S48x1x1024 .f32 := broadcastInDim S48x1x1024 ![] bcast_S_S48x1x1024 main_cst_20
  let main_v56 : IVec S48x1x1024 1 := cmpf .olt main_v54 main_v55
  let main_c_21 : IVec S_ 1 := constantI S_ 1 1#1
  let main_v57 : IVec S_ 1 := (fun x v => Host.reduce IntOp.andi x v reducesTo_S48x1x1024_S_d0_1_2 h_S_) main_v56 main_c_21
  let main_v58 : IVec S_ 1 := andi main_v53 main_v57
  let main_v59 : FVec F S48 .f32 := Host.absf main_arg12
  let main_cst_22 : FVec F S_ .f32 := constant S_ .f32 0x7F800000#32
  let main_v60 : FVec F S48 .f32 := broadcastInDim S48 ![] bcast_S_S48 main_cst_22
  let main_v61 : IVec S48 1 := cmpf .olt main_v59 main_v60
  let main_c_23 : IVec S_ 1 := constantI S_ 1 1#1
  let main_v62 : IVec S_ 1 := (fun x v => Host.reduce IntOp.andi x v reducesTo_S48_S_d0 h_S_) main_v61 main_c_23
  let main_v63 : IVec S_ 1 := andi main_v58 main_v62
  let main_v64 : FVec F S48 .f32 := Host.absf main_arg13
  let main_cst_24 : FVec F S_ .f32 := constant S_ .f32 0x7F800000#32
  let main_v65 : FVec F S48 .f32 := broadcastInDim S48 ![] bcast_S_S48 main_cst_24
  let main_v66 : IVec S48 1 := cmpf .olt main_v64 main_v65
  let main_c_25 : IVec S_ 1 := constantI S_ 1 1#1
  let main_v67 : IVec S_ 1 := (fun x v => Host.reduce IntOp.andi x v reducesTo_S48_S_d0 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S48x1x1024 .f32) (main_arg8 : FVec F S48x256x1024 .f32) (main_arg9 : FVec F S48x1x1024 .f32) (main_arg10 : FVec F S48x256x1024 .f32) (main_arg11 : FVec F S48x1x1024 .f32) (main_arg12 : FVec F S48 .f32) (main_arg13 : FVec F S48 .f32) (main_arg14 : FVec F S48 .f32) (main_arg15 : FVec F S48 .f32) (main_arg16 : FVec F S48 .f32) (main_arg17 : FVec F S48 .f32) (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) (main_v33 : IVec S_ 1) : IVec S_ 1 :=
  let main_v34 : FVec F S48x1x1024 .f32 := Host.absf main_arg7
  let main_cst_12 : FVec F S_ .f32 := constant S_ .f32 0x7F800000#32
  let main_v35 : FVec F S48x1x1024 .f32 := broadcastInDim S48x1x1024 ![] bcast_S_S48x1x1024 main_cst_12
  let main_v36 : IVec S48x1x1024 1 := cmpf .olt main_v34 main_v35
  let main_c_13 : IVec S_ 1 := constantI S_ 1 1#1
  let main_v37 : IVec S_ 1 := (fun x v => Host.reduce IntOp.andi x v reducesTo_S48x1x1024_S_d0_1_2 h_S_) main_v36 main_c_13
  let main_v38 : IVec S_ 1 := andi main_v33 main_v37
  let main_v39 : FVec F S48x256x1024 .f32 := Host.absf main_arg8
  let main_cst_14 : FVec F S_ .f32 := constant S_ .f32 0x7F800000#32
  let main_v40 : FVec F S48x256x1024 .f32 := broadcastInDim S48x256x1024 ![] bcast_S_S48x256x1024 main_cst_14
  let main_v41 : IVec S48x256x1024 1 := cmpf .olt main_v39 main_v40
  let main_c_15 : IVec S_ 1 := constantI S_ 1 1#1
  let main_v42 : IVec S_ 1 := (fun x v => Host.reduce IntOp.andi x v reducesTo_S48x256x1024_S_d0_1_2 h_S_) main_v41 main_c_15
  let main_v43 : IVec S_ 1 := andi main_v38 main_v42
  let main_v44 : FVec F S48x1x1024 .f32 := Host.absf main_arg9
  let main_cst_16 : FVec F S_ .f32 := constant S_ .f32 0x7F800000#32
  let main_v45 : FVec F S48x1x1024 .f32 := broadcastInDim S48x1x1024 ![] bcast_S_S48x1x1024 main_cst_16
  let main_v46 : IVec S48x1x1024 1 := cmpf .olt main_v44 main_v45
  let main_c_17 : IVec S_ 1 := constantI S_ 1 1#1
  let main_v47 : IVec S_ 1 := (fun x v => Host.reduce IntOp.andi x v reducesTo_S48x1x1024_S_d0_1_2 h_S_) main_v46 main_c_17
  let main_v48 : IVec S_ 1 := andi main_v43 main_v47
  let main_v49 : FVec F S48x256x1024 .f32 := Host.absf main_arg10
  let main_cst_18 : FVec F S_ .f32 := constant S_ .f32 0x7F800000#32
  let main_v50 : FVec F S48x256x1024 .f32 := broadcastInDim S48x256x1024 ![] bcast_S_S48x256x1024 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S48x256x1024 .f32) (main_arg5 : FVec F S48x256x1024 .f32) (main_arg6 : FVec F S48x1x1024 .f32) (main_arg7 : FVec F S48x1x1024 .f32) (main_arg8 : FVec F S48x256x1024 .f32) (main_arg9 : FVec F S48x1x1024 .f32) (main_arg10 : FVec F S48x256x1024 .f32) (main_arg11 : FVec F S48x1x1024 .f32) (main_arg12 : FVec F S48 .f32) (main_arg13 : FVec F S48 .f32) (main_arg14 : FVec F S48 .f32) (main_arg15 : FVec F S48 .f32) (main_arg16 : FVec F S48 .f32) (main_arg17 : FVec F S48 .f32) (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) (main_v13 : IVec S_ 1) (main_v16 : IVec S48x256x1024 1) : IVec S_ 1 :=
  let main_c_5 : IVec S_ 1 := constantI S_ 1 1#1
  let main_v17 : IVec S_ 1 := (fun x v => Host.reduce IntOp.andi x v reducesTo_S48x256x1024_S_d0_1_2 h_S_) main_v16 main_c_5
  let main_v18 : IVec S_ 1 := andi main_v13 main_v17
  let main_v19 : FVec F S48x256x1024 .f32 := Host.absf main_arg4
  let main_cst_6 : FVec F S_ .f32 := constant S_ .f32 0x7F800000#32
  let main_v20 : FVec F S48x256x1024 .f32 := broadcastInDim S48x256x1024 ![] bcast_S_S48x256x1024 main_cst_6
  let main_v21 : IVec S48x256x1024 1 := cmpf .olt main_v19 main_v20
  let main_c_7 : IVec S_ 1 := constantI S_ 1 1#1
  let main_v22 : IVec S_ 1 := (fun x v => Host.reduce IntOp.andi x v reducesTo_S48x256x1024_S_d0_1_2 h_S_) main_v21 main_c_7
  let main_v23 : IVec S_ 1 := andi main_v18 main_v22
  let main_v24 : FVec F S48x256x1024 .f32 := Host.absf main_arg5
  let main_cst_8 : FVec F S_ .f32 := constant S_ .f32 0x7F800000#32
  let main_v25 : FVec F S48x256x1024 .f32 := broadcastInDim S48x256x1024 ![] bcast_S_S48x256x1024 main_cst_8
  let main_v26 : IVec S48x256x1024 1 := cmpf .olt main_v24 main_v25
  let main_c_9 : IVec S_ 1 := constantI S_ 1 1#1
  let main_v27 : IVec S_ 1 := (fun x v => Host.reduce IntOp.andi x v reducesTo_S48x256x1024_S_d0_1_2 h_S_) main_v26 main_c_9
  let main_v28 : IVec S_ 1 := andi main_v23 main_v27
  let main_v29 : FVec F S48x1x1024 .f32 := Host.absf main_arg6
  let main_cst_10 : FVec F S_ .f32 := constant S_ .f32 0x7F800000#32
  let main_v30 : FVec F S48x1x1024 .f32 := broadcastInDim S48x1x1024 ![] bcast_S_S48x1x1024 main_cst_10
  let main_v31 : IVec S48x1x1024 1 := cmpf .olt main_v29 main_v30
  let main_c_11 : IVec S_ 1 := constantI S_ 1 1#1
  let main_v32 : IVec S_ 1 := (fun x v => Host.reduce IntOp.andi x v reducesTo_S48x1x1024_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S48x256x256 .f32) (main_arg1 : FVec F S48x256x256 .f32) (main_arg2 : FVec F S48x256x256 .f32) (main_arg3 : FVec F S48x256x1024 .f32) (main_arg4 : FVec F S48x256x1024 .f32) (main_arg5 : FVec F S48x256x1024 .f32) (main_arg6 : FVec F S48x1x1024 .f32) (main_arg7 : FVec F S48x1x1024 .f32) (main_arg8 : FVec F S48x256x1024 .f32) (main_arg9 : FVec F S48x1x1024 .f32) (main_arg10 : FVec F S48x256x1024 .f32) (main_arg11 : FVec F S48x1x1024 .f32) (main_arg12 : FVec F S48 .f32) (main_arg13 : FVec F S48 .f32) (main_arg14 : FVec F S48 .f32) (main_arg15 : FVec F S48 .f32) (main_arg16 : FVec F S48 .f32) (main_arg17 : FVec F S48 .f32) (main_arg18 : FVec F S48 .f32) (main_arg19 : FVec F S48 .f32) (main_arg20 : FVec F S48 .f32) (main_arg21 : FVec F S48 .f32) (main_arg22 : FVec F S48 .f32) (main_arg23 : FVec F S48 .f32) (main_arg24 : FVec F S48 .f32) : IVec S_ 1 :=
  let main_v0 : FVec F S48x256x256 .f32 := Host.absf main_arg0
  let main_cst : FVec F S_ .f32 := constant S_ .f32 0x7F800000#32
  let main_v1 : FVec F S48x256x256 .f32 := broadcastInDim S48x256x256 ![] bcast_S_S48x256x256 main_cst
  let main_v2 : IVec S48x256x256 1 := cmpf .olt main_v0 main_v1
  let main_c : IVec S_ 1 := constantI S_ 1 1#1
  let main_v3 : IVec S_ 1 := (fun x v => Host.reduce IntOp.andi x v reducesTo_S48x256x256_S_d0_1_2 h_S_) main_v2 main_c
  let main_v4 : FVec F S48x256x256 .f32 := Host.absf main_arg1
  let main_cst_0 : FVec F S_ .f32 := constant S_ .f32 0x7F800000#32
  let main_v5 : FVec F S48x256x256 .f32 := broadcastInDim S48x256x256 ![] bcast_S_S48x256x256 main_cst_0
  let main_v6 : IVec S48x256x256 1 := cmpf .olt main_v4 main_v5
  let main_c_1 : IVec S_ 1 := constantI S_ 1 1#1
  let main_v7 : IVec S_ 1 := (fun x v => Host.reduce IntOp.andi x v reducesTo_S48x256x256_S_d0_1_2 h_S_) main_v6 main_c_1
  let main_v8 : IVec S_ 1 := andi main_v3 main_v7
  let main_v9 : FVec F S48x256x256 .f32 := Host.absf main_arg2
  let main_cst_2 : FVec F S_ .f32 := constant S_ .f32 0x7F800000#32
  let main_v10 : FVec F S48x256x256 .f32 := broadcastInDim S48x256x256 ![] bcast_S_S48x256x256 main_cst_2
  let main_v11 : IVec S48x256x256 1 := cmpf .olt main_v9 main_v10
  let main_c_3 : IVec S_ 1 := constantI S_ 1 1#1
  let main_v12 : IVec S_ 1 := (fun x v => Host.reduce IntOp.andi x v reducesTo_S48x256x256_S_d0_1_2 h_S_) main_v11 main_c_3
  let main_v13 : IVec S_ 1 := andi main_v8 main_v12
  let main_v14 : FVec F S48x256x1024 .f32 := Host.absf main_arg3
  let main_cst_4 : FVec F S_ .f32 := constant S_ .f32 0x7F800000#32
  let main_v15 : FVec F S48x256x1024 .f32 := broadcastInDim S48x256x1024 ![] bcast_S_S48x256x1024 main_cst_4
  let main_v16 : IVec S48x256x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S48x256x256 : Shape := ⟨3, ![48, 256, 256]⟩
abbrev S48x256x1024 : Shape := ⟨3, ![48, 256, 1024]⟩
abbrev S48x1x1024 : Shape := ⟨3, ![48, 1, 1024]⟩
abbrev S48 : Shape := ⟨1, ![48]⟩
abbrev S48x1x1 : Shape := ⟨3, ![48, 1, 1]⟩
abbrev S1x256x256 : Shape := ⟨3, ![1, 256, 256]⟩
abbrev S1x256x1024 : Shape := ⟨3, ![1, 256, 1024]⟩
abbrev S1x1x1024 : Shape := ⟨3, ![1, 1, 1024]⟩
abbrev S1x1x1 : Shape := ⟨3, ![1, 1, 1]⟩
abbrev S256x256 : Shape := ⟨2, ![256, 256]⟩
abbrev S256x1024 : Shape := ⟨2, ![256, 1024]⟩
abbrev S1x1024 : Shape := ⟨2, ![1, 1024]⟩

abbrev nBuf : Space → Nat
  | .hbm => 40
  | .vmem => 54
  | .smem => 0
  | _ => 0

abbrev bufTy : (tb : Table) → Fin (tcTables nBuf tb) → BufTy
  | .hbm, ⟨0, _⟩ => ⟨S48x256x256, .f32⟩
  | .hbm, ⟨1, _⟩ => ⟨S48x256x256, .f32⟩
  | .hbm, ⟨2, _⟩ => ⟨S48x256x256, .f32⟩
  | .hbm, ⟨3, _⟩ => ⟨S48x256x1024, .f32⟩
  | .hbm, ⟨4, _⟩ => ⟨S48x256x1024, .f32⟩
  | .hbm, ⟨5, _⟩ => ⟨S48x256x1024, .f32⟩
  | .hbm, ⟨6, _⟩ => ⟨S48x1x1024, .f32⟩
  | .hbm, ⟨7, _⟩ => ⟨S48x1x1024, .f32⟩
  | .hbm, ⟨8, _⟩ => ⟨S48x256x1024, .f32⟩
  | .hbm, ⟨9, _⟩ => ⟨S48x1x1024, .f32⟩
  | .hbm, ⟨10, _⟩ => ⟨S48x256x1024, .f32⟩
  | .hbm, ⟨11, _⟩ => ⟨S48x1x1024, .f32⟩
  | .hbm, ⟨12, _⟩ => ⟨S48, .f32⟩
  | .hbm, ⟨13, _⟩ => ⟨S48, .f32⟩
  | .hbm, ⟨14, _⟩ => ⟨S48, .f32⟩
  | .hbm, ⟨15, _⟩ => ⟨S48, .f32⟩
  | .hbm, ⟨16, _⟩ => ⟨S48, .f32⟩
  | .hbm, ⟨17, _⟩ => ⟨S48, .f32⟩
  | .hbm, ⟨18, _⟩ => ⟨S48, .f32⟩
  | .hbm, ⟨19, _⟩ => ⟨S48, .f32⟩
  | .hbm, ⟨20, _⟩ => ⟨S48, .f32⟩
  | .hbm, ⟨21, _⟩ => ⟨S48, .f32⟩
  | .hbm, ⟨22, _⟩ => ⟨S48, .f32⟩
  | .hbm, ⟨23, _⟩ => ⟨S48, .f32⟩
  | .hbm, ⟨24, _⟩ => ⟨S48, .f32⟩
  | .hbm, ⟨25, _⟩ => ⟨S48x1x1, .f32⟩
  | .hbm, ⟨26, _⟩ => ⟨S48x1x1, .f32⟩
  | .hbm, ⟨27, _⟩ => ⟨S48x1x1, .f32⟩
  | .hbm, ⟨28, _⟩ => ⟨S48x1x1, .f32⟩
  | .hbm, ⟨29, _⟩ => ⟨S48x1x1, .f32⟩
  | .hbm, ⟨30, _⟩ => ⟨S48x1x1, .f32⟩
  | .hbm, ⟨31, _⟩ => ⟨S48x1x1, .f32⟩
  | .hbm, ⟨32, _⟩ => ⟨S48x1x1, .f32⟩
  | .hbm, ⟨33, _⟩ => ⟨S48x1x1, .f32⟩
  | .hbm, ⟨34, _⟩ => ⟨S48x1x1, .f32⟩
  | .hbm, ⟨35, _⟩ => ⟨S48x1x1, .f32⟩
  | .hbm, ⟨36, _⟩ => ⟨S48x1x1, .f32⟩
  | .hbm, ⟨37, _⟩ => ⟨S48x1x1, .f32⟩
  | .hbm, ⟨38, _⟩ => ⟨S48x256x256, .f32⟩
  | .hbm, ⟨39, _⟩ => ⟨S48x256x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1, .f32⟩
  | .local _ .vmem, ⟨25, _⟩ => ⟨S1x1x1, .f32⟩
  | .local _ .vmem, ⟨26, _⟩ => ⟨S1x1x1, .f32⟩
  | .local _ .vmem, ⟨27, _⟩ => ⟨S1x1x1, .f32⟩
  | .local _ .vmem, ⟨28, _⟩ => ⟨S1x1x1, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S1x1x1, .f32⟩
  | .local _ .vmem, ⟨33, _⟩ => ⟨S1x1x1, .f32⟩
  | .local _ .vmem, ⟨34, _⟩ => ⟨S1x1x1, .f32⟩
  | .local _ .vmem, ⟨35, _⟩ => ⟨S1x1x1, .f32⟩
  | .local _ .vmem, ⟨36, _⟩ => ⟨S1x1x1, .f32⟩
  | .local _ .vmem, ⟨37, _⟩ => ⟨S1x1x1, .f32⟩
  | .local _ .vmem, ⟨38, _⟩ => ⟨S1x1x1, .f32⟩
  | .local _ .vmem, ⟨39, _⟩ => ⟨S1x1x1, .f32⟩
  | .local _ .vmem, ⟨40, _⟩ => ⟨S1x1x1, .f32⟩
  | .local _ .vmem, ⟨41, _⟩ => ⟨S1x1x1, .f32⟩
  | .local _ .vmem, ⟨42, _⟩ => ⟨S1x1x1, .f32⟩
  | .local _ .vmem, ⟨43, _⟩ => ⟨S1x1x1, .f32⟩
  | .local _ .vmem, ⟨44, _⟩ => ⟨S1x1x1, .f32⟩
  | .local _ .vmem, ⟨45, _⟩ => ⟨S1x1x1, .f32⟩
  | .local _ .vmem, ⟨46, _⟩ => ⟨S1x1x1, .f32⟩
  | .local _ .vmem, ⟨47, _⟩ => ⟨S1x1x1, .f32⟩
  | .local _ .vmem, ⟨48, _⟩ => ⟨S1x1x1, .f32⟩
  | .local _ .vmem, ⟨49, _⟩ => ⟨S1x1x1, .f32⟩
  | .local _ .vmem, ⟨50, _⟩ => ⟨S1x256x256, .f32⟩
  | .local _ .vmem, ⟨51, _⟩ => ⟨S1x256x256, .f32⟩
  | .local _ .vmem, ⟨52, _⟩ => ⟨S1x256x256, .f32⟩
  | .local _ .vmem, ⟨53, _⟩ => ⟨S1x256x256, .f32⟩
  | _, _ => ⟨S48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53

abbrev nD : Nat := 1
abbrev τ : Topo := Topo.v7x

variable {F : FTy → Type} [BitOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x256x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  shapeCasts_S48_S48x1x1 : S48.ShapeCasts S48x1x1
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  bitsLt_bf16_f32 : FTy.bits .bf16 < FTy.bits .f32
  broadcasts_S1x1024_S256x1024 : S1x1024.Broadcasts S256x1024
  slices_S256x1024_o0_0_S256x256 : S256x1024.Slices ![0, 0] S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  shapeCasts_S256x256_S1x256x256 : S256x256.ShapeCasts S1x256x256
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S48x256x256.size a
  hwx0_0 : ∀ i : grid0.Coords, EltTy.bits .f32 = 32 ∨ (Rect.block (s := S48x256x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S48x256x256.size a
  hwx0_1 : ∀ i : grid0.Coords, EltTy.bits .f32 = 32 ∨ (Rect.block (s := S48x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S48x256x256.size a
  hwx0_2 : ∀ i : grid0.Coords, EltTy.bits .f32 = 32 ∨ (Rect.block (s := S48x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S48x256x1024.size a
  hwx0_3 : ∀ i : grid0.Coords, EltTy.bits .f32 = 32 ∨ (Rect.block (s := S48x256x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S48x256x1024.size a
  hwx0_4 : ∀ i : grid0.Coords, EltTy.bits .f32 = 32 ∨ (Rect.block (s := S48x256x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S48x256x1024.size a
  hwx0_5 : ∀ i : grid0.Coords, EltTy.bits .f32 = 32 ∨ (Rect.block (s := S48x256x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S48x1x1024.size a
  hwx0_6 : ∀ i : grid0.Coords, EltTy.bits .f32 = 32 ∨ (Rect.block (s := S48x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S48x1x1024.size a
  hwx0_7 : ∀ i : grid0.Coords, EltTy.bits .f32 = 32 ∨ (Rect.block (s := S48x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S48x256x1024.size a
  hwx0_8 : ∀ i : grid0.Coords, EltTy.bits .f32 = 32 ∨ (Rect.block (s := S48x256x1024) S1x256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1024.size a ≤ S48x1x1024.size a
  hwx0_9 : ∀ i : grid0.Coords, EltTy.bits .f32 = 32 ∨ (Rect.block (s := S48x1x1024) S1x1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S48x256x1024.size a
  hwx0_10 : ∀ i : grid0.Coords, EltTy.bits .f32 = 32 ∨ (Rect.block (s := S48x256x1024) S1x256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1024.size a ≤ S48x1x1024.size a
  hwx0_11 : ∀ i : grid0.Coords, EltTy.bits .f32 = 32 ∨ (Rect.block (s := S48x1x1024) S1x1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S48x1x1.size a
  hwx0_12 : ∀ i : grid0.Coords, EltTy.bits .f32 = 32 ∨ (Rect.block (s := S48x1x1) S1x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1.size a ≤ S48x1x1.size a
  hwx0_13 : ∀ i : grid0.Coords, EltTy.bits .f32 = 32 ∨ (Rect.block (s := S48x1x1) S1x1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1.size a ≤ S48x1x1.size a
  hwx0_14 : ∀ i : grid0.Coords, EltTy.bits .f32 = 32 ∨ (Rect.block (s := S48x1x1) S1x1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x1.size a ≤ S48x1x1.size a
  hwx0_15 : ∀ i : grid0.Coords, EltTy.bits .f32 = 32 ∨ (Rect.block (s := S48x1x1) S1x1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1.size a ≤ S48x1x1.size a
  hwx0_16 : ∀ i : grid0.Coords, EltTy.bits .f32 = 32 ∨ (Rect.block (s := S48x1x1) S1x1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1x1.size a ≤ S48x1x1.size a
  hwx0_17 : ∀ i : grid0.Coords, EltTy.bits .f32 = 32 ∨ (Rect.block (s := S48x1x1) S1x1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1x1.size a ≤ S48x1x1.size a
  hwx0_18 : ∀ i : grid0.Coords, EltTy.bits .f32 = 32 ∨ (Rect.block (s := S48x1x1) S1x1x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x1x1.size a ≤ S48x1x1.size a
  hwx0_19 : ∀ i : grid0.Coords, EltTy.bits .f32 = 32 ∨ (Rect.block (s := S48x1x1) S1x1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x1x1.size a ≤ S48x1x1.size a
  hwx0_20 : ∀ i : grid0.Coords, EltTy.bits .f32 = 32 ∨ (Rect.block (s := S48x1x1) S1x1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x1x1.size a ≤ S48x1x1.size a
  hwx0_21 : ∀ i : grid0.Coords, EltTy.bits .f32 = 32 ∨ (Rect.block (s := S48x1x1) S1x1x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x1x1.size a ≤ S48x1x1.size a
  hwx0_22 : ∀ i : grid0.Coords, EltTy.bits .f32 = 32 ∨ (Rect.block (s := S48x1x1) S1x1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x1x1.size a ≤ S48x1x1.size a
  hwx0_23 : ∀ i : grid0.Coords, EltTy.bits .f32 = 32 ∨ (Rect.block (s := S48x1x1) S1x1x1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1x1x1.size a ≤ S48x1x1.size a
  hwx0_24 : ∀ i : grid0.Coords, EltTy.bits .f32 = 32 ∨ (Rect.block (s := S48x1x1) S1x1x1.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x256x256.size a ≤ S48x256x256.size a
  hwx0_25 : ∀ i : grid0.Coords, EltTy.bits .f32 = 32 ∨ (Rect.block (s := S48x256x256) S1x256x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1x256x256.size a ≤ S48x256x256.size a
  hwx0_26 : ∀ i : grid0.Coords, EltTy.bits .f32 = 32 ∨ (Rect.block (s := S48x256x256) S1x256x256.size (cc0_transform_26 i) (hinb0_26 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x256x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x1x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x1x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1) S1x1x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x1x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v3) S1x1x1.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4) S1x1x1.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v5) S1x1x1.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v6) S1x1x1.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v7) S1x1x1.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8) S1x1x1.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_v9) S1x1x1.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_v10) S1x1x1.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_v11) S1x1x1.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_v12) S1x1x1.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_v13_0) S1x256x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v13_1) S1x256x256.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S48x256x256 : Shape := ⟨3, ![48, 256, 256]⟩
abbrev S48x256x1024 : Shape := ⟨3, ![48, 256, 1024]⟩
abbrev S48x1x1024 : Shape := ⟨3, ![48, 1, 1024]⟩
abbrev S48 : Shape := ⟨1, ![48]⟩
abbrev S48x1x1 : Shape := ⟨3, ![48, 1, 1]⟩
abbrev S_ : Shape := ⟨0, ![]⟩

abbrev nBuf : Space → Nat
  | .hbm => 425
  | .vmem => 0
  | .smem => 0
  | _ => 0

abbrev hbmTy0_0 (i : Nat) : BufTy := match i % 128 with
  | 0 => ⟨S48x256x256, .f32⟩
  | 1 => ⟨S48x256x256, .f32⟩
  | 2 => ⟨S48x256x256, .f32⟩
  | 3 => ⟨S48x256x1024, .f32⟩
  | 4 => ⟨S48x256x1024, .f32⟩
  | 5 => ⟨S48x256x1024, .f32⟩
  | 6 => ⟨S48x1x1024, .f32⟩
  | 7 => ⟨S48x1x1024, .f32⟩
  | 8 => ⟨S48x256x1024, .f32⟩
  | 9 => ⟨S48x1x1024, .f32⟩
  | 10 => ⟨S48x256x1024, .f32⟩
  | 11 => ⟨S48x1x1024, .f32⟩
  | 12 => ⟨S48, .f32⟩
  | 13 => ⟨S48, .f32⟩
  | 14 => ⟨S48, .f32⟩
  | 15 => ⟨S48, .f32⟩
  | 16 => ⟨S48, .f32⟩
  | 17 => ⟨S48, .f32⟩
  | 18 => ⟨S48, .f32⟩
  | 19 => ⟨S48, .f32⟩
  | 20 => ⟨S48, .f32⟩
  | 21 => ⟨S48, .f32⟩
  | 22 => ⟨S48, .f32⟩
  | 23 => ⟨S48, .f32⟩
  | 24 => ⟨S48, .f32⟩
  | 25 => ⟨S48x1x1, .f32⟩
  | 26 => ⟨S48x256x256, .f32⟩
  | 27 => ⟨S_, .f32⟩
  | 28 => ⟨S48x256x256, .f32⟩
  | 29 => ⟨S48x256x256, .f32⟩
  | 30 => ⟨S48x256x256, .f32⟩
  | 31 => ⟨S48x256x256, .f32⟩
  | 32 => ⟨S48x256x256, .f32⟩
  | 33 => ⟨S48x256x256, .f32⟩
  | 34 => ⟨S48x256x256, .f32⟩
  | 35 => ⟨S48x256x256, .f32⟩
  | 36 => ⟨S48x256x256, .f32⟩
  | 37 => ⟨S48x256x256, .f32⟩
  | 38 => ⟨S48x256x256, .f32⟩
  | 39 => ⟨S48x1x1, .f32⟩
  | 40 => ⟨S48x256x256, .f32⟩
  | 41 => ⟨S48x256x256, .f32⟩
  | 42 => ⟨S_, .f32⟩
  | 43 => ⟨S_, .f32⟩
  | 44 => ⟨S_, .f32⟩
  | 45 => ⟨S48x256x256, .f32⟩
  | 46 => ⟨S48x256x256, .f32⟩
  | 47 => ⟨S_, .f32⟩
  | 48 => ⟨S48x256x256, .f32⟩
  | 49 => ⟨S48x256x256, .f32⟩
  | 50 => ⟨S_, .f32⟩
  | 51 => ⟨S48x256x256, .f32⟩
  | 52 => ⟨S48x256x256, .f32⟩
  | 53 => ⟨S48x256x256, .f32⟩
  | 54 => ⟨S_, .f32⟩
  | 55 => ⟨S48x256x256, .f32⟩
  | 56 => ⟨S48x256x256, .f32⟩
  | 57 => ⟨S48x256x256, .f32⟩
  | 58 => ⟨S48x256x256, .f32⟩
  | 59 => ⟨S_, .f32⟩
  | 60 => ⟨S_, .f32⟩
  | 61 => ⟨S_, .f32⟩
  | 62 => ⟨S48x256x1024, .f32⟩
  | 63 => ⟨S48x256x1024, .f32⟩
  | 64 => ⟨S_, .f32⟩
  | 65 => ⟨S48x256x1024, .f32⟩
  | 66 => ⟨S48x256x1024, .f32⟩
  | 67 => ⟨S_, .f32⟩
  | 68 => ⟨S_, .f32⟩
  | 69 => ⟨S_, .f32⟩
  | 70 => ⟨S48x1x1024, .f32⟩
  | 71 => ⟨S48x1x1024, .f32⟩
  | 72 => ⟨S_, .f32⟩
  | 73 => ⟨S48x1x1024, .f32⟩
  | 74 => ⟨S48x1x1024, .f32⟩
  | 75 => ⟨S_, .f32⟩
  | 76 => ⟨S48x256x1024, .f32⟩
  | 77 => ⟨S48x256x1024, .f32⟩
  | 78 => ⟨S_, .f32⟩
  | 79 => ⟨S_, .f32⟩
  | 80 => ⟨S_, .f32⟩
  | 81 => ⟨S48x256x1024, .f32⟩
  | 82 => ⟨S48x256x1024, .f32⟩
  | 83 => ⟨S_, .f32⟩
  | 84 => ⟨S48x256x1024, .f32⟩
  | 85 => ⟨S48x256x1024, .f32⟩
  | 86 => ⟨S_, .f32⟩
  | 87 => ⟨S48x256x1024, .f32⟩
  | 88 => ⟨S48x256x1024, .f32⟩
  | 89 => ⟨S48x256x1024, .f32⟩
  | 90 => ⟨S_, .f32⟩
  | 91 => ⟨S48x256x1024, .f32⟩
  | 92 => ⟨S48x256x1024, .f32⟩
  | 93 => ⟨S_, .f32⟩
  | 94 => ⟨S48x256x1024, .f32⟩
  | 95 => ⟨S48x256x1024, .f32⟩
  | 96 => ⟨S_, .f32⟩
  | 97 => ⟨S48x1x1024, .f32⟩
  | 98 => ⟨S48x1x1024, .f32⟩
  | 99 => ⟨S_, .f32⟩
  | 100 => ⟨S_, .f32⟩
  | 101 => ⟨S_, .f32⟩
  | 102 => ⟨S48x1x1024, .f32⟩
  | 103 => ⟨S48x1x1024, .f32⟩
  | 104 => ⟨S_, .f32⟩
  | 105 => ⟨S48x1x1024, .f32⟩
  | 106 => ⟨S48x1x1024, .f32⟩
  | 107 => ⟨S_, .f32⟩
  | 108 => ⟨S48x1x1024, .f32⟩
  | 109 => ⟨S48x1x1024, .f32⟩
  | 110 => ⟨S48x1x1024, .f32⟩
  | 111 => ⟨S_, .f32⟩
  | 112 => ⟨S48x1x1024, .f32⟩
  | 113 => ⟨S48x1x1024, .f32⟩
  | 114 => ⟨S_, .f32⟩
  | 115 => ⟨S48x1x1024, .f32⟩
  | 116 => ⟨S48x1x1024, .f32⟩
  | 117 => ⟨S48x256x1024, .f32⟩
  | 118 => ⟨S48x256x1024, .f32⟩
  | 119 => ⟨S48x256x1024, .f32⟩
  | 120 => ⟨S48x256x1024, .f32⟩
  | 121 => ⟨S48x256x1024, .f32⟩
  | 122 => ⟨S48x256x1024, .f32⟩
  | 123 => ⟨S48x1x1, .f32⟩
  | 124 => ⟨S48x256x256, .f32⟩
  | 125 => ⟨S_, .f32⟩
  | 126 => ⟨S48x256x256, .f32⟩
  | 127 => ⟨S48x256x256, .f32⟩
  | _ => ⟨S48x256x256, .f32⟩

abbrev hbmTy0_1 (i : Nat) : BufTy := match i % 128 with
  | 0 => ⟨S48x256x256, .f32⟩
  | 1 => ⟨S48x256x256, .f32⟩
  | 2 => ⟨S48x256x256, .f32⟩
  | 3 => ⟨S48x256x256, .f32⟩
  | 4 => ⟨S48x256x256, .f32⟩
  | 5 => ⟨S48x256x256, .f32⟩
  | 6 => ⟨S48x256x256, .f32⟩
  | 7 => ⟨S48x256x256, .f32⟩
  | 8 => ⟨S48x256x256, .f32⟩
  | 9 => ⟨S48x1x1, .f32⟩
  | 10 => ⟨S48x256x256, .f32⟩
  | 11 => ⟨S48x256x256, .f32⟩
  | 12 => ⟨S_, .f32⟩
  | 13 => ⟨S_, .f32⟩
  | 14 => ⟨S_, .f32⟩
  | 15 => ⟨S48x256x256, .f32⟩
  | 16 => ⟨S48x256x256, .f32⟩
  | 17 => ⟨S_, .f32⟩
  | 18 => ⟨S48x256x256, .f32⟩
  | 19 => ⟨S48x256x256, .f32⟩
  | 20 => ⟨S_, .f32⟩
  | 21 => ⟨S48x256x256, .f32⟩
  | 22 => ⟨S48x256x256, .f32⟩
  | 23 => ⟨S48x256x256, .f32⟩
  | 24 => ⟨S_, .f32⟩
  | 25 => ⟨S48x256x256, .f32⟩
  | 26 => ⟨S48x256x256, .f32⟩
  | 27 => ⟨S48x256x256, .f32⟩
  | 28 => ⟨S48x256x256, .f32⟩
  | 29 => ⟨S48x256x1024, .f32⟩
  | 30 => ⟨S_, .f32⟩
  | 31 => ⟨S_, .f32⟩
  | 32 => ⟨S_, .f32⟩
  | 33 => ⟨S48x256x1024, .f32⟩
  | 34 => ⟨S48x256x1024, .f32⟩
  | 35 => ⟨S_, .f32⟩
  | 36 => ⟨S48x256x1024, .f32⟩
  | 37 => ⟨S48x256x1024, .f32⟩
  | 38 => ⟨S_, .f32⟩
  | 39 => ⟨S_, .f32⟩
  | 40 => ⟨S_, .f32⟩
  | 41 => ⟨S48x1x1024, .f32⟩
  | 42 => ⟨S48x1x1024, .f32⟩
  | 43 => ⟨S_, .f32⟩
  | 44 => ⟨S48x1x1024, .f32⟩
  | 45 => ⟨S48x1x1024, .f32⟩
  | 46 => ⟨S_, .f32⟩
  | 47 => ⟨S48x256x1024, .f32⟩
  | 48 => ⟨S48x256x1024, .f32⟩
  | 49 => ⟨S_, .f32⟩
  | 50 => ⟨S_, .f32⟩
  | 51 => ⟨S_, .f32⟩
  | 52 => ⟨S48x256x1024, .f32⟩
  | 53 => ⟨S48x256x1024, .f32⟩
  | 54 => ⟨S_, .f32⟩
  | 55 => ⟨S48x256x1024, .f32⟩
  | 56 => ⟨S48x256x1024, .f32⟩
  | 57 => ⟨S_, .f32⟩
  | 58 => ⟨S48x256x1024, .f32⟩
  | 59 => ⟨S48x256x1024, .f32⟩
  | 60 => ⟨S48x256x1024, .f32⟩
  | 61 => ⟨S_, .f32⟩
  | 62 => ⟨S48x256x1024, .f32⟩
  | 63 => ⟨S48x256x1024, .f32⟩
  | 64 => ⟨S_, .f32⟩
  | 65 => ⟨S48x256x1024, .f32⟩
  | 66 => ⟨S48x256x1024, .f32⟩
  | 67 => ⟨S_, .f32⟩
  | 68 => ⟨S48x1x1024, .f32⟩
  | 69 => ⟨S48x1x1024, .f32⟩
  | 70 => ⟨S_, .f32⟩
  | 71 => ⟨S_, .f32⟩
  | 72 => ⟨S_, .f32⟩
  | 73 => ⟨S48x1x1024, .f32⟩
  | 74 => ⟨S48x1x1024, .f32⟩
  | 75 => ⟨S_, .f32⟩
  | 76 => ⟨S48x1x1024, .f32⟩
  | 77 => ⟨S48x1x1024, .f32⟩
  | 78 => ⟨S_, .f32⟩
  | 79 => ⟨S48x1x1024, .f32⟩
  | 80 => ⟨S48x1x1024, .f32⟩
  | 81 => ⟨S48x1x1024, .f32⟩
  | 82 => ⟨S_, .f32⟩
  | 83 => ⟨S48x1x1024, .f32⟩
  | 84 => ⟨S48x1x1024, .f32⟩
  | 85 => ⟨S_, .f32⟩
  | 86 => ⟨S48x1x1024, .f32⟩
  | 87 => ⟨S48x1x1024, .f32⟩
  | 88 => ⟨S48x256x1024, .f32⟩
  | 89 => ⟨S48x256x1024, .f32⟩
  | 90 => ⟨S48x256x1024, .f32⟩
  | 91 => ⟨S48x256x1024, .f32⟩
  | 92 => ⟨S48x256x1024, .f32⟩
  | 93 => ⟨S48x256x1024, .f32⟩
  | 94 => ⟨S48x1x1, .f32⟩
  | 95 => ⟨S48x256x1024, .f32⟩
  | 96 => ⟨S_, .f32⟩
  | 97 => ⟨S48x256x1024, .f32⟩
  | 98 => ⟨S48x256x1024, .f32⟩
  | 99 => ⟨S48x256x1024, .f32⟩
  | 100 => ⟨S48x256x1024, .f32⟩
  | 101 => ⟨S48x256x1024, .f32⟩
  | 102 => ⟨S48x256x1024, .f32⟩
  | 103 => ⟨S48x256x1024, .f32⟩
  | 104 => ⟨S48x256x1024, .f32⟩
  | 105 => ⟨S48x256x1024, .f32⟩
  | 106 => ⟨S48x256x1024, .f32⟩
  | 107 => ⟨S48x256x1024, .f32⟩
  | 108 => ⟨S48x1x1, .f32⟩
  | 109 => ⟨S48x256x1024, .f32⟩
  | 110 => ⟨S_, .f32⟩
  | 111 => ⟨S48x256x1024, .f32⟩
  | 112 => ⟨S48x256x1024, .f32⟩
  | 113 => ⟨S48x256x1024, .f32⟩
  | 114 => ⟨S48x256x1024, .f32⟩
  | 115 => ⟨S48x256x1024, .f32⟩
  | 116 => ⟨S48x256x1024, .f32⟩
  | 117 => ⟨S48x256x1024, .f32⟩
  | 118 => ⟨S48x256x1024, .f32⟩
  | 119 => ⟨S48x256x1024, .f32⟩
  | 120 => ⟨S48x256x1024, .f32⟩
  | 121 => ⟨S48x256x1024, .f32⟩
  | 122 => ⟨S48x256x1024, .f32⟩
  | 123 => ⟨S48x1x1, .f32⟩
  | 124 => ⟨S48x256x1024, .f32⟩
  | 125 => ⟨S_, .f32⟩
  | 126 => ⟨S48x256x1024, .f32⟩
  | 127 => ⟨S48x256x1024, .f32⟩
  | _ => ⟨S48x256x256, .f32⟩

abbrev hbmTy0_2 (i : Nat) : BufTy := match i % 128 with
  | 0 => ⟨S48x256x1024, .f32⟩
  | 1 => ⟨S48x256x1024, .f32⟩
  | 2 => ⟨S48x256x1024, .f32⟩
  | 3 => ⟨S48x256x1024, .f32⟩
  | 4 => ⟨S48x256x1024, .f32⟩
  | 5 => ⟨S48x256x1024, .f32⟩
  | 6 => ⟨S48x256x1024, .f32⟩
  | 7 => ⟨S48x256x1024, .f32⟩
  | 8 => ⟨S48x256x1024, .f32⟩
  | 9 => ⟨S48x256x256, .f32⟩
  | 10 => ⟨S48x256x256, .f32⟩
  | 11 => ⟨S48x256x256, .f32⟩
  | 12 => ⟨S48x256x256, .f32⟩
  | 13 => ⟨S48x256x256, .f32⟩
  | 14 => ⟨S48x256x256, .f32⟩
  | 15 => ⟨S_, .f32⟩
  | 16 => ⟨S48x256x256, .f32⟩
  | 17 => ⟨S48x256x256, .f32⟩
  | 18 => ⟨S_, .f32⟩
  | 19 => ⟨S48x256x256, .f32⟩
  | 20 => ⟨S48x256x256, .f32⟩
  | 21 => ⟨S48x1x1, .f32⟩
  | 22 => ⟨S48x256x256, .f32⟩
  | 23 => ⟨S_, .f32⟩
  | 24 => ⟨S48x256x256, .f32⟩
  | 25 => ⟨S48x256x256, .f32⟩
  | 26 => ⟨S48x256x256, .f32⟩
  | 27 => ⟨S48x256x256, .f32⟩
  | 28 => ⟨S48x256x256, .f32⟩
  | 29 => ⟨S48x256x256, .f32⟩
  | 30 => ⟨S48x256x256, .f32⟩
  | 31 => ⟨S48x256x256, .f32⟩
  | 32 => ⟨S48x256x256, .f32⟩
  | 33 => ⟨S48x256x256, .f32⟩
  | 34 => ⟨S48x256x256, .f32⟩
  | 35 => ⟨S48x256x256, .f32⟩
  | 36 => ⟨S48x256x256, .f32⟩
  | 37 => ⟨S_, .f32⟩
  | 38 => ⟨S48x256x256, .f32⟩
  | 39 => ⟨S48x256x256, .f32⟩
  | 40 => ⟨S_, .f32⟩
  | 41 => ⟨S48x256x256, .f32⟩
  | 42 => ⟨S48x256x256, .f32⟩
  | 43 => ⟨S48x1x1, .f32⟩
  | 44 => ⟨S48x256x256, .f32⟩
  | 45 => ⟨S_, .f32⟩
  | 46 => ⟨S48x256x256, .f32⟩
  | 47 => ⟨S48x256x256, .f32⟩
  | 48 => ⟨S48x256x256, .f32⟩
  | 49 => ⟨S48x256x256, .f32⟩
  | 50 => ⟨S48x256x256, .f32⟩
  | 51 => ⟨S48x256x256, .f32⟩
  | 52 => ⟨S48x256x256, .f32⟩
  | 53 => ⟨S48x256x256, .f32⟩
  | 54 => ⟨S48x256x256, .f32⟩
  | 55 => ⟨S48x256x256, .f32⟩
  | 56 => ⟨S48x256x256, .f32⟩
  | 57 => ⟨S48x256x256, .f32⟩
  | 58 => ⟨S48x1x1, .f32⟩
  | 59 => ⟨S48x256x256, .f32⟩
  | 60 => ⟨S_, .f32⟩
  | 61 => ⟨S48x256x256, .f32⟩
  | 62 => ⟨S48x256x256, .f32⟩
  | 63 => ⟨S48x256x256, .f32⟩
  | 64 => ⟨S48x256x256, .f32⟩
  | 65 => ⟨S48x256x256, .f32⟩
  | 66 => ⟨S48x256x256, .f32⟩
  | 67 => ⟨S48x256x256, .f32⟩
  | 68 => ⟨S48x256x256, .f32⟩
  | 69 => ⟨S48x256x256, .f32⟩
  | 70 => ⟨S48x256x256, .f32⟩
  | 71 => ⟨S48x256x256, .f32⟩
  | 72 => ⟨S48x256x256, .f32⟩
  | 73 => ⟨S48x256x256, .f32⟩
  | 74 => ⟨S_, .f32⟩
  | 75 => ⟨S48x256x256, .f32⟩
  | 76 => ⟨S48x256x256, .f32⟩
  | 77 => ⟨S_, .f32⟩
  | 78 => ⟨S48x256x256, .f32⟩
  | 79 => ⟨S48x256x256, .f32⟩
  | 80 => ⟨S48x1x1, .f32⟩
  | 81 => ⟨S48x256x256, .f32⟩
  | 82 => ⟨S_, .f32⟩
  | 83 => ⟨S48x256x256, .f32⟩
  | 84 => ⟨S48x256x256, .f32⟩
  | 85 => ⟨S48x256x256, .f32⟩
  | 86 => ⟨S48x256x256, .f32⟩
  | 87 => ⟨S48x256x256, .f32⟩
  | 88 => ⟨S48x256x256, .f32⟩
  | 89 => ⟨S48x256x256, .f32⟩
  | 90 => ⟨S48x256x256, .f32⟩
  | 91 => ⟨S48x256x256, .f32⟩
  | 92 => ⟨S48x256x256, .f32⟩
  | 93 => ⟨S48x256x256, .f32⟩
  | 94 => ⟨S48x256x256, .f32⟩
  | 95 => ⟨S48x1x1, .f32⟩
  | 96 => ⟨S48x256x256, .f32⟩
  | 97 => ⟨S_, .f32⟩
  | 98 => ⟨S48x256x256, .f32⟩
  | 99 => ⟨S48x256x256, .f32⟩
  | 100 => ⟨S48x256x256, .f32⟩
  | 101 => ⟨S48x256x256, .f32⟩
  | 102 => ⟨S48x256x256, .f32⟩
  | 103 => ⟨S48x256x256, .f32⟩
  | 104 => ⟨S48x256x256, .f32⟩
  | 105 => ⟨S48x256x256, .f32⟩
  | 106 => ⟨S48x256x256, .f32⟩
  | 107 => ⟨S48x256x256, .f32⟩
  | 108 => ⟨S48x256x256, .f32⟩
  | 109 => ⟨S48x256x256, .f32⟩
  | 110 => ⟨S48x1x1, .f32⟩
  | 111 => ⟨S48x256x256, .f32⟩
  | 112 => ⟨S_, .f32⟩
  | 113 => ⟨S48x256x256, .f32⟩
  | 114 => ⟨S48x256x256, .f32⟩
  | 115 => ⟨S48x256x256, .f32⟩
  | 116 => ⟨S48x256x256, .f32⟩
  | 117 => ⟨S48x256x256, .f32⟩
  | 118 => ⟨S48x256x256, .f32⟩
  | 119 => ⟨S48x256x256, .f32⟩
  | 120 => ⟨S48x256x256, .f32⟩
  | 121 => ⟨S48x256x256, .f32⟩
  | 122 => ⟨S48x256x256, .f32⟩
  | 123 => ⟨S48x256x256, .f32⟩
  | 124 => ⟨S48x256x256, .f32⟩
  | 125 => ⟨S48x1x1, .f32⟩
  | 126 => ⟨S48x256x256, .f32⟩
  | 127 => ⟨S_, .f32⟩
  | _ => ⟨S48x256x256, .f32⟩

abbrev hbmTy0_3 (i : Nat) : BufTy := match i % 128 with
  | 0 => ⟨S48x256x256, .f32⟩
  | 1 => ⟨S48x256x256, .f32⟩
  | 2 => ⟨S48x256x256, .f32⟩
  | 3 => ⟨S48x256x256, .f32⟩
  | 4 => ⟨S48x256x256, .f32⟩
  | 5 => ⟨S48x256x256, .f32⟩
  | 6 => ⟨S48x256x256, .f32⟩
  | 7 => ⟨S48x256x256, .f32⟩
  | 8 => ⟨S48x256x256, .f32⟩
  | 9 => ⟨S48x256x256, .f32⟩
  | 10 => ⟨S48x256x256, .f32⟩
  | 11 => ⟨S48x256x256, .f32⟩
  | 12 => ⟨S48x1x1, .f32⟩
  | 13 => ⟨S48x256x256, .f32⟩
  | 14 => ⟨S_, .f32⟩
  | 15 => ⟨S48x256x256, .f32⟩
  | 16 => ⟨S48x256x256, .f32⟩
  | 17 => ⟨S48x256x256, .f32⟩
  | 18 => ⟨S48x256x256, .f32⟩
  | 19 => ⟨S48x256x256, .f32⟩
  | 20 => ⟨S48x256x256, .f32⟩
  | 21 => ⟨S48x256x256, .f32⟩
  | 22 => ⟨S48x256x256, .f32⟩
  | 23 => ⟨S48x256x256, .f32⟩
  | 24 => ⟨S48x256x256, .f32⟩
  | 25 => ⟨S48x256x256, .f32⟩
  | 26 => ⟨S48x256x256, .f32⟩
  | 27 => ⟨S48x1x1, .f32⟩
  | 28 => ⟨S48x256x256, .f32⟩
  | 29 => ⟨S_, .f32⟩
  | 30 => ⟨S48x256x256, .f32⟩
  | 31 => ⟨S48x256x256, .f32⟩
  | 32 => ⟨S48x256x256, .f32⟩
  | 33 => ⟨S48x256x256, .f32⟩
  | 34 => ⟨S48x256x256, .f32⟩
  | 35 => ⟨S48x256x256, .f32⟩
  | 36 => ⟨S48x256x256, .f32⟩
  | 37 => ⟨S48x256x256, .f32⟩
  | 38 => ⟨S48x256x256, .f32⟩
  | 39 => ⟨S48x256x256, .f32⟩
  | 40 => ⟨S48x256x256, .f32⟩
  | _ => ⟨S48x256x256, .f32⟩

abbrev hbmTy (i : Nat) : BufTy := match i / 128 with
  | 0 => hbmTy0_0 i
  | 1 => hbmTy0_1 i
  | 2 => hbmTy0_2 i
  | 3 => hbmTy0_3 i
  | _ => ⟨S48x256x256, .f32⟩

abbrev bufTy : (tb : Table) → Fin (tcTables nBuf tb) → BufTy
  | .hbm, ⟨i, _⟩ => hbmTy i
  | _, _ => ⟨S48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_0 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_4 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v24 : Ref sig .tc := ⟨.hbm, 66, rfl⟩
abbrev main_cst_6 : Ref sig .tc := ⟨.hbm, 67, rfl⟩
abbrev main_cst_7 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v25 : Ref sig .tc := ⟨.hbm, 74, rfl⟩
abbrev main_cst_8 : Ref sig .tc := ⟨.hbm, 75, rfl⟩
abbrev main_v26 : Ref sig .tc := ⟨.hbm, 76, rfl⟩
abbrev main_v27 : Ref sig .tc := ⟨.hbm, 77, rfl⟩
abbrev main_cst_9 : Ref sig .tc := ⟨.hbm, 78, rfl⟩
abbrev main_cst_10 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_v28 : Ref sig .tc := ⟨.hbm, 85, rfl⟩
abbrev main_cst_11 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_12 : Ref sig .tc := ⟨.hbm, 90, rfl⟩
abbrev main_v32 : Ref sig .tc := ⟨.hbm, 91, rfl⟩
abbrev main_v33 : Ref sig .tc := ⟨.hbm, 92, rfl⟩
abbrev main_cst_13 : Ref sig .tc := ⟨.hbm, 93, rfl⟩
abbrev main_v34 : Ref sig .tc := ⟨.hbm, 94, rfl⟩
abbrev main_v35 : Ref sig .tc := ⟨.hbm, 95, rfl⟩
abbrev main_cst_14 : Ref sig .tc := ⟨.hbm, 96, rfl⟩
abbrev main_v36 : Ref sig .tc := ⟨.hbm, 97, rfl⟩
abbrev main_v37 : Ref sig .tc := ⟨.hbm, 98, rfl⟩
abbrev main_cst_15 : Ref sig .tc := ⟨.hbm, 99, rfl⟩
abbrev main_cst_16 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_v38 : Ref sig .tc := ⟨.hbm, 106, rfl⟩
abbrev main_cst_17 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_18 : Ref sig .tc := ⟨.hbm, 111, rfl⟩
abbrev main_v42 : Ref sig .tc := ⟨.hbm, 112, rfl⟩
abbrev main_v43 : Ref sig .tc := ⟨.hbm, 113, rfl⟩
abbrev main_cst_19 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_20 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_cst_21 : Ref sig .tc := ⟨.hbm, 140, rfl⟩
abbrev main_cst_22 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_call8_v3 : Ref sig .tc := ⟨.hbm, 145, rfl⟩
abbrev main_call8_v4 : Ref sig .tc := ⟨.hbm, 146, rfl⟩
abbrev main_v68 : Ref sig .tc := ⟨.hbm, 147, rfl⟩
abbrev main_cst_23 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst_24 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_25 : Ref sig .tc := ⟨.hbm, 158, rfl⟩
abbrev main_cst_26 : Ref sig .tc := ⟨.hbm, 159, rfl⟩
abbrev main_call10_v0 : Ref sig .tc := ⟨.hbm, 160, rfl⟩
abbrev main_call10_v1 : Ref sig .tc := ⟨.hbm, 161, rfl⟩
abbrev main_call10_v2 : Ref sig .tc := ⟨.hbm, 162, rfl⟩
abbrev main_call10_v3 : Ref sig .tc := ⟨.hbm, 163, rfl⟩
abbrev main_call10_v4 : Ref sig .tc := ⟨.hbm, 164, rfl⟩
abbrev main_v77 : Ref sig .tc := ⟨.hbm, 165, rfl⟩
abbrev main_cst_27 : Ref sig .tc := ⟨.hbm, 166, rfl⟩
abbrev main_cst_28 : Ref sig .tc := ⟨.hbm, 167, rfl⟩
abbrev main_call11_v0 : Ref sig .tc := ⟨.hbm, 168, rfl⟩
abbrev main_call11_v1 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_v78 : Ref sig .tc := ⟨.hbm, 173, rfl⟩
abbrev main_cst_29 : Ref sig .tc := ⟨.hbm, 174, rfl⟩
abbrev main_v79 : Ref sig .tc := ⟨.hbm, 175, rfl⟩
abbrev main_v80 : Ref sig .tc := ⟨.hbm, 176, rfl⟩
abbrev main_cst_30 : Ref sig .tc := ⟨.hbm, 177, rfl⟩
abbrev main_cst_31 : Ref sig .tc := ⟨.hbm, 178, rfl⟩
abbrev main_call12_v0 : Ref sig .tc := ⟨.hbm, 179, rfl⟩
abbrev main_call12_v1 : Ref sig .tc := ⟨.hbm, 180, rfl⟩
abbrev main_call12_v2 : Ref sig .tc := ⟨.hbm, 181, rfl⟩
abbrev main_call12_v3 : Ref sig .tc := ⟨.hbm, 182, rfl⟩
abbrev main_call12_v4 : Ref sig .tc := ⟨.hbm, 183, rfl⟩
abbrev main_v81 : Ref sig .tc := ⟨.hbm, 184, rfl⟩
abbrev main_cst_32 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_cst_33 : Ref sig .tc := ⟨.hbm, 189, rfl⟩
abbrev main_v85 : Ref sig .tc := ⟨.hbm, 190, rfl⟩
abbrev main_v86 : Ref sig .tc := ⟨.hbm, 191, rfl⟩
abbrev main_cst_34 : Ref sig .tc := ⟨.hbm, 192, rfl⟩
abbrev main_v87 : Ref sig .tc := ⟨.hbm, 193, rfl⟩
abbrev main_v88 : Ref sig .tc := ⟨.hbm, 194, rfl⟩
abbrev main_cst_35 : Ref sig .tc := ⟨.hbm, 195, rfl⟩
abbrev main_v89 : Ref sig .tc := ⟨.hbm, 196, rfl⟩
abbrev main_v90 : Ref sig .tc := ⟨.hbm, 197, rfl⟩
abbrev main_cst_36 : Ref sig .tc := ⟨.hbm, 198, rfl⟩
abbrev main_cst_37 : Ref sig .tc := ⟨.hbm, 199, rfl⟩
abbrev main_call14_v0 : Ref sig .tc := ⟨.hbm, 200, rfl⟩
abbrev main_call14_v1 : Ref sig .tc := ⟨.hbm, 201, rfl⟩
abbrev main_call14_v2 : Ref sig .tc := ⟨.hbm, 202, rfl⟩
abbrev main_call14_v3 : Ref sig .tc := ⟨.hbm, 203, rfl⟩
abbrev main_call14_v4 : Ref sig .tc := ⟨.hbm, 204, rfl⟩
abbrev main_v91 : Ref sig .tc := ⟨.hbm, 205, rfl⟩
abbrev main_cst_38 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_cst_39 : Ref sig .tc := ⟨.hbm, 210, rfl⟩
abbrev main_v95 : Ref sig .tc := ⟨.hbm, 211, rfl⟩
abbrev main_v96 : Ref sig .tc := ⟨.hbm, 212, rfl⟩
abbrev main_cst_40 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_v105 : Ref sig .tc := ⟨.hbm, 222, rfl⟩
abbrev main_v106 : Ref sig .tc := ⟨.hbm, 223, rfl⟩
abbrev main_cst_41 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_cst_42 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_cst_43 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_cst_44 : Ref sig .tc := ⟨.hbm, 271, rfl⟩
abbrev main_v151 : Ref sig .tc := ⟨.hbm, 272, rfl⟩
abbrev main_v152 : Ref sig .tc := ⟨.hbm, 273, rfl⟩
abbrev main_cst_45 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_cst_46 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_cst_47 : Ref sig .tc := ⟨.hbm, 293, rfl⟩
abbrev main_v170 : Ref sig .tc := ⟨.hbm, 294, rfl⟩
abbrev main_v171 : Ref sig .tc := ⟨.hbm, 295, rfl⟩
abbrev main_cst_48 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_cst_49 : Ref sig .tc := ⟨.hbm, 301, rfl⟩
abbrev main_v176 : Ref sig .tc := ⟨.hbm, 302, rfl⟩
abbrev main_v177 : Ref sig .tc := ⟨.hbm, 303, rfl⟩
abbrev main_v178 : Ref sig .tc := ⟨.hbm, 304, rfl⟩
abbrev main_v179 : Ref sig .tc := ⟨.hbm, 305, rfl⟩
abbrev main_v180 : Ref sig .tc := ⟨.hbm, 306, rfl⟩
abbrev main_v181 : Ref sig .tc := ⟨.hbm, 307, rfl⟩
abbrev main_v182 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_cst_50 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_v193 : Ref sig .tc := ⟨.hbm, 320, rfl⟩
abbrev main_v194 : Ref sig .tc := ⟨.hbm, 321, rfl⟩
abbrev main_v195 : Ref sig .tc := ⟨.hbm, 322, rfl⟩
abbrev main_v196 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_cst_51 : Ref sig .tc := ⟨.hbm, 330, rfl⟩
abbrev main_v203 : Ref sig .tc := ⟨.hbm, 331, rfl⟩
abbrev main_v204 : Ref sig .tc := ⟨.hbm, 332, rfl⟩
abbrev main_cst_52 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_v208 : Ref sig .tc := ⟨.hbm, 337, rfl⟩
abbrev main_cst_53 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_cst_54 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_cst_55 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_v243 : Ref sig .tc := ⟨.hbm, 375, rfl⟩
abbrev main_v244 : Ref sig .tc := ⟨.hbm, 376, rfl⟩
abbrev main_v245 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_v249 : Ref sig .tc := ⟨.hbm, 381, rfl⟩
abbrev main_v250 : Ref sig .tc := ⟨.hbm, 382, rfl⟩
abbrev main_cst_56 : Ref sig .tc := ⟨.hbm, 383, rfl⟩
abbrev main_v251 : Ref sig .tc := ⟨.hbm, 384, rfl⟩
abbrev main_v252 : Ref sig .tc := ⟨.hbm, 385, rfl⟩
abbrev main_v253 : Ref sig .tc := ⟨.hbm, 386, rfl⟩
abbrev main_v254 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_v264 : Ref sig .tc := ⟨.hbm, 397, rfl⟩
abbrev main_cst_57 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_cst_58 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩

abbrev nD : Nat := 1
abbrev τ : Topo := Topo.v7x

variable {F : FTy → Type} [FloatOps F]

class Facts₀ : Prop where
  bcast_S48_S48x1x1_0 : S48.BroadcastsInDim S48x1x1 (![0] : Fin 1 → Fin S48x1x1.rank)
  bcast_S_S48x256x256 : S_.BroadcastsInDim S48x256x256 (![] : Fin 0 → Fin S48x256x256.rank)
  bcast_S48x1x1_S48x256x256_0_1_2 : S48x1x1.BroadcastsInDim S48x256x256 (![0, 1, 2] : Fin 3 → Fin S48x256x256.rank)
  bcast_S_S48x256x1024 : S_.BroadcastsInDim S48x256x1024 (![] : Fin 0 → Fin S48x256x1024.rank)
  bcast_S_S48x1x1024 : S_.BroadcastsInDim S48x1x1024 (![] : Fin 0 → Fin S48x1x1024.rank)
  bcast_S48x1x1024_S48x256x1024_0_1_2 : S48x1x1024.BroadcastsInDim S48x256x1024 (![0, 1, 2] : Fin 3 → Fin S48x256x1024.rank)
  bcast_S48x1x1_S48x256x1024_0_1_2 : S48x1x1.BroadcastsInDim S48x256x1024 (![0, 1, 2] : Fin 3 → Fin S48x256x1024.rank)
  slices_S48x256x1024_S48x256x256_0_0_0 : S48x256x1024.Slices ![0, 0, 0] S48x256x256
  slices_S48x256x1024_S48x256x256_0_0_256 : S48x256x1024.Slices ![0, 0, 256] S48x256x256
  slices_S48x256x1024_S48x256x256_0_0_512 : S48x256x1024.Slices ![0, 0, 512] S48x256x256
  slices_S48x256x1024_S48x256x256_0_0_768 : S48x256x1024.Slices ![0, 0, 768] S48x256x256
  dot_S48x256x256_S48x256x1024_S48x256x1024_2_1_1_2_0_0_wf : DotDims.WF S48x256x256 S48x256x1024 S48x256x1024 [2] [1] [1] [2] [0] [0]

variable [Facts₀]

def dot_S48x256x256_S48x256x1024_S48x256x1024_2_1_1_2_0_0 : DotDims S48x256x256 S48x256x1024 S48x256x1024 where
  lhsContracting := [2]
  rhsContracting := [1]
  lhsNonContracting := [1]
  rhsNonContracting := [2]
  lhsBatch := [0]
  rhsBatch := [0]
  wf := dot_S48x256x256_S48x256x1024_S48x256x1024_2_1_1_2_0_0_wf

class Facts : Prop extends Facts₀ where

variable [Facts]
-- ==== Proof.Spec.lean ====
/-
  The quantized LSTM cell as ONE function of a block's inputs, entry by entry, over the extended reals.

  A block is one of the 48 independent problems: a 256×256 input x, hidden state h and cell state c, three
  256×1024 weight-shaped arrays per matrix product (weight, additive noise, and a mask for the recurrent weight),
  1024-long bias and bias-noise rows, and thirteen clipping levels a₁, a₃ … a₁₄.

    pact x a      = (sign x · ½) · ((|x| − ||x| − a|) + a)            (a clip of x to [−a, a], spelt by absolute values)
    clip lo hi x  = min hi (max lo x)
    quant lo hi s x r = round(clip lo hi (x / r) · s) / s · r          (round = to nearest, ties to even)

  The activations are quantized with s = 128 (bounds ±(1 − 1/128)) at their own clipping level, the weights
  and biases with s = 8 (bounds ±(1 − 1/8)) at range 1 after a clip to ±1 (weights) or ±2 (biases). The four
  gate pre-activations are the four 256-wide column groups of
    gates = pact (pact (x_q · W_ih + b_ih + n_ih) a₁₂ + pact (h_q · W_hh + b_hh + n_hh) a₁₃) a₁₄,
  and the new cell and hidden states follow the usual LSTM recurrences with a pact after every step.
  Every float literal is kept as its f32 word.
-/
import Idealize.ShloMosaic.PureOps.Ideal
import Idealize.ShloMosaic.Lib.ValueIdx

noncomputable section

namespace Cert.LstmCell

open Idealize.ShloMosaic

/-- An f32 word as the extended real it denotes. -/
abbrev lit (b : BitVec 32) : Ideal .f32 := Ideal.ofBits .f32 b

/-- The clip of `x` to `[−a, a]` spelt by absolute values: `(sign x · ½) · ((|x| − ||x| − a|) + a)`. -/
def pact (x a : Ideal .f32) : Ideal .f32 :=
  FloatOps.mulf (FloatOps.mulf (Ideal.sign x) (lit 0x3F000000#32))
    (FloatOps.addf (FloatOps.subf (FloatOps.absf x) (FloatOps.absf (FloatOps.subf (FloatOps.absf x) a))) a)

/-- `min hi (max lo x)`. -/
def clip (lo hi x : Ideal .f32) : Ideal .f32 := FloatOps.minimumf hi (FloatOps.maximumf lo x)

/-- Fake quantization: `round(clip lo hi (x / r) · s) / s · r`, rounding to nearest with ties to even. -/
def quant (lo hi s x r : Ideal .f32) : Ideal .f32 :=
  FloatOps.mulf (FloatOps.divf (FloatOps.roundeven (FloatOps.mulf (clip lo hi (FloatOps.divf x r)) s)) s) r

/-- Activations: 8 bits, s = 128, bounds ±0.9921875, at the activation's own range. -/
def quantAct (x r : Ideal .f32) : Ideal .f32 :=
  quant (lit 0xBF7E0000#32) (lit 0x3F7E0000#32) (lit 0x43000000#32) x r

/-- Weights and biases: 4 bits, s = 8, bounds ±0.875, at range 1. -/
def quantWt (x : Ideal .f32) : Ideal .f32 :=
  quant (lit 0xBF600000#32) (lit 0x3F600000#32) (lit 0x41000000#32) x (lit 0x3F800000#32)

/-- A weight entry: clipped to ±1, then quantized. -/
def weightQ (w : Ideal .f32) : Ideal .f32 := quantWt (clip (lit 0xBF800000#32) (lit 0x3F800000#32) w)

/-- A bias entry: clipped to ±2, then quantized. -/
def biasQ (b : Ideal .f32) : Ideal .f32 := quantWt (clip (lit 0xC0000000#32) (lit 0x40000000#32) b)

/-- One block's inputs, read entry by entry. -/
structure Block where
  inp : Fin 256 → Fin 256 → Ideal .f32
  hx : Fin 256 → Fin 256 → Ideal .f32
  cx : Fin 256 → Fin 256 → Ideal .f32
  wmask : Fin 256 → Fin 1024 → Ideal .f32
  wih : Fin 256 → Fin 1024 → Ideal .f32
  whh : Fin 256 → Fin 1024 → Ideal .f32
  bih : Fin 1024 → Ideal .f32
  bhh : Fin 1024 → Ideal .f32
  nihw : Fin 256 → Fin 1024 → Ideal .f32
  nihb : Fin 1024 → Ideal .f32
  nhhw : Fin 256 → Fin 1024 → Ideal .f32
  nhhb : Fin 1024 → Ideal .f32
  a1 : Ideal .f32
  a3 : Ideal .f32
  a4 : Ideal .f32
  a5 : Ideal .f32
  a6 : Ideal .f32
  a7 : Ideal .f32
  a8 : Ideal .f32
  a9 : Ideal .f32
  a10 : Ideal .f32
  a11 : Ideal .f32
  a12 : Ideal .f32
  a13 : Ideal .f32
  a14 : Ideal .f32

namespace Block

variable (B : Block)

/-- The quantized input activation. -/
def xq (p k : Fin 256) : Ideal .f32 := quantAct (pact (B.inp p k) B.a1) B.a1

/-- The quantized hidden-state activation. -/
def hq (p k : Fin 256) : Ideal .f32 := quantAct (pact (B.hx p k) B.a11) B.a11

/-- The noisy quantized input weight. -/
def wI (k : Fin 256) (j : Fin 1024) : Ideal .f32 := FloatOps.addf (weightQ (B.wih k j)) (B.nihw k j)

/-- The noisy quantized recurrent weight, masked before the clip. -/
def wH (k : Fin 256) (j : Fin 1024) : Ideal .f32 :=
  FloatOps.addf (weightQ (FloatOps.mulf (B.whh k j) (B.wmask k j))) (B.nhhw k j)

/-- The input path: `x_q · W_ih + b_ih + n_ih`. -/
def part1 (p : Fin 256) (j : Fin 1024) : Ideal .f32 :=
  FloatOps.addf (FloatOps.addf (∑ k : Fin 256, B.xq p k * B.wI k j) (biasQ (B.bih j))) (B.nihb j)

/-- The recurrent path: `h_q · W_hh + b_hh + n_hh`. -/
def part2 (p : Fin 256) (j : Fin 1024) : Ideal .f32 :=
  FloatOps.addf (FloatOps.addf (∑ k : Fin 256, B.hq p k * B.wH k j) (biasQ (B.bhh j))) (B.nhhb j)

/-- The four gate pre-activations side by side. -/
def gates (p : Fin 256) (j : Fin 1024) : Ideal .f32 :=
  pact (FloatOps.addf (pact (B.part1 p j) B.a12) (pact (B.part2 p j) B.a13)) B.a14

/-- Column `q` of the `g`-th 256-wide group. -/
def col (g : Fin 4) (q : Fin 256) : Fin 1024 := ⟨g.val * 256 + q.val, by omega⟩

def inputGate (p q : Fin 256) : Ideal .f32 := pact (Ideal.logistic (B.gates p (col 0 q))) B.a4
def activation (p q : Fin 256) : Ideal .f32 := pact (Ideal.tanh (B.gates p (col 1 q))) B.a5
def forgetGate (p q : Fin 256) : Ideal .f32 := pact (Ideal.logistic (B.gates p (col 2 q))) B.a3
def outputGate (p q : Fin 256) : Ideal .f32 := pact (Ideal.logistic (B.gates p (col 3 q))) B.a6

/-- The new cell state. -/
def newC (p q : Fin 256) : Ideal .f32 :=
  pact (FloatOps.addf (pact (FloatOps.mulf (B.cx p q) (B.forgetGate p q)) B.a7)
    (pact (FloatOps.mulf (B.inputGate p q) (B.activation p q)) B.a8)) B.a9

/-- The new hidden state. -/
def newH (p q : Fin 256) : Ideal .f32 :=
  pact (FloatOps.mulf (pact (Ideal.tanh (B.newC p q)) B.a10) (B.outputGate p q)) B.a11

end Block

end Cert.LstmCell

end
-- ==== Proof.KernelPieces.lean ====
/-
  The kernel body's vector payloads read at an entry, over the extended reals.

  The body computes on one block: 256×256 activations, 256×1024 weights and gate pre-activations, 1×1024 bias
  rows. Every payload here is a pointwise expression of its operands, so at an entry it is the same scalar
  expression of the operands' entries. The body spells the sign of `x` by comparisons — `x` itself where |x| is
  not above zero, otherwise −1 below zero and 1 above — which on the extended reals is the sign function
  (−1 at −∞, 1 at +∞, 0 at 0); with that, each clipping step of the body is the specification's `pact`, and the
  steps in between are the specification's clip / quantization, literal for literal.
  Where the body's positional cut separates the factors of one clipping step, the lemma is stated for the
  factors together, as they occur in the stored value.
-/
import proofs.«155666_j28020366639341_1_alg».proof.Proof.Gen.KernelIdeal.Skeleton
import proofs.«155666_j28020366639341_1_alg».proof.Proof.Spec
import Idealize.ShloMosaic.PureOps.Ideal.Laws
import Idealize.ShloMosaic.Lib.ValueIdx

noncomputable section

namespace Cert.LstmCell

open Idealize.ShloMosaic Idealize.ShloMosaic.ValueIdx Cert.KernelIdeal Cert.KernelIdeal.Gen

/-- The sign of `x` spelt by comparisons with zero. -/
def signSel (x : Ideal .f32) : Ideal .f32 :=
  Scalar.select (FloatOps.cmpf .ogt (FloatOps.absf x) (Scalar.ofBits .f32 0x00000000#32))
    (Scalar.select (FloatOps.cmpf .olt x (Scalar.ofBits .f32 0x00000000#32)) (Scalar.ofBits .f32 0xBF800000#32)
      (Scalar.ofBits .f32 0x3F800000#32)) x

/-- The clipping step with the sign spelt by comparisons. -/
def pactSel (x a : Ideal .f32) : Ideal .f32 :=
  FloatOps.mulf (FloatOps.mulf (signSel x) (Scalar.ofBits .f32 0x3F000000#32))
    (FloatOps.addf (FloatOps.subf (FloatOps.absf x) (FloatOps.absf (FloatOps.subf (FloatOps.absf x) a))) a)

/-- On the extended reals the comparisons spell the sign function, so the two clipping steps are one. -/
theorem pactSel_eq (x a : Ideal .f32) : pactSel x a = pact x a := by
  unfold pactSel pact signSel
  rw [Ideal.jnp_sign_eq_sign_f32 x]
  rfl

/-- Rewrite every clipping step of the right-hand side to the spelling by comparisons; the two sides are then
    the same expression. -/
macro "pact_rfl" : tactic => `(tactic| ((repeat rw [← pactSel_eq]) <;> rfl))

/-! ## The activations -/

/-- The input activation: clipped at a₁ and quantized to 8 bits at range a₁. -/
theorem xq_at (a : Ideal .f32) (x : FVec Ideal S256x256 .f32) (i : S256x256.Idx) :
    k0_pay28 (F := Ideal) a x i = quantAct (pact (x i) a) a := by
  unfold quantAct quant clip; pact_rfl

/-- The hidden-state activation, the same at a₁₁ (its clipping step is cut in two by the body's positional cut). -/
theorem hq_at (a : Ideal .f32) (x : FVec Ideal S256x256 .f32) (i : S256x256.Idx) :
    k0_pay36 (F := Ideal) a (k0_pay32 x) (k0_pay33 x) (k0_pay34 x) (k0_pay35 a) i = quantAct (pact (x i) a) a := by
  unfold quantAct quant clip; pact_rfl

/-! ## Weights and biases -/

/-- A bias row clipped to ±2. -/
theorem biasClip_at (b : FVec Ideal S1x1024 .f32) (i : S1x1024.Idx) :
    k0_pay29 (F := Ideal) b i = clip (lit 0xC0000000#32) (lit 0x40000000#32) (b i) := rfl

/-- An input weight clipped to ±1 and divided by the range 1. -/
theorem weightClip_at (w : FVec Ideal S256x1024 .f32) (i : S256x1024.Idx) :
    k0_pay30 (F := Ideal) w i
      = FloatOps.divf (clip (lit 0xBF800000#32) (lit 0x3F800000#32) (w i)) (lit 0x3F800000#32) := rfl

/-- The recurrent weight: masked, clipped to ±1 and quantized to 4 bits. -/
theorem weightHH_at (mk w : FVec Ideal S256x1024 .f32) (i : S256x1024.Idx) :
    k0_pay37 (F := Ideal) mk w i = weightQ (FloatOps.mulf (w i) (mk i)) := rfl

/-- The recurrent bias row clipped to ±2 and divided by the range 1. -/
theorem biasHHClip_at (b : FVec Ideal S1x1024 .f32) (i : S1x1024.Idx) :
    k0_pay38 (F := Ideal) b i
      = FloatOps.divf (clip (lit 0xC0000000#32) (lit 0x40000000#32) (b i)) (lit 0x3F800000#32) := rfl

/-! ## The gate pre-activations -/

/-- The input path clipped at a₁₂. -/
theorem part1Clip_at (a : Ideal .f32) (x : FVec Ideal S256x1024 .f32) (i : S256x1024.Idx) :
    k0_pay40 (F := Ideal) a x i = pact (x i) a := by pact_rfl

/-- The four gate pre-activations: the two clipped paths added and clipped at a₁₄ (the recurrent path's
    clipping step is cut in three by the body's positional cut). -/
theorem gates_at (a12 a13 a14 : Ideal .f32) (P1 : FVec Ideal S256x1024 .f32)
    (nw : FVec Ideal S256x1024 .f32) (nb : FVec Ideal S1x1024 .f32) (h : FVec Ideal S256x256 .f32)
    (w : FVec Ideal S256x1024 .f32) (b : FVec Ideal S1x1024 .f32) (c1 c2 : Ideal .f32) (i : S256x1024.Idx) :
    k0_pay44 (F := Ideal) a13 a14 (k0_pay40 a12 P1) (k0_pay41 nw nb h w b c1 c2) (k0_pay42 nw nb h w b c1 c2)
        (k0_pay43 nw nb h w b c1 c2) i
      = pact (FloatOps.addf (pact (P1 i) a12) (pact (k0_pay39 (F := Ideal) nw nb h w b c1 c2 i) a13)) a14 := by
  pact_rfl

/-! ## The gates -/

/-- A gate value clipped at its level. -/
theorem gateClip_at (a : Ideal .f32) (v : FVec Ideal S256x256 .f32) (i : S256x256.Idx) :
    k0_pay49 (F := Ideal) a v i = pact (v i) a := by pact_rfl

/-- The cell candidate: tanh clipped at a₅. -/
theorem activation_at (a : Ideal .f32) (g : FVec Ideal S256x256 .f32) (i : S256x256.Idx) :
    k0_pay50 (F := Ideal) a g i = pact (Ideal.tanh (g i)) a := by pact_rfl

/-- The output gate: logistic clipped at a₆ (cut in two by the body's positional cut). -/
theorem outputGate_at (a : Ideal .f32) (g : FVec Ideal S256x256 .f32) (i : S256x256.Idx) :
    k0_pay56 (F := Ideal) a (k0_pay52 g) (k0_pay53 g) (k0_pay54 g) (k0_pay55 a) i = pact (Ideal.logistic (g i)) a := by
  pact_rfl

/-! ## The cell and hidden states -/

/-- The gated cell plus the activated input, each clipped. -/
theorem cellSum_at (a7 a8 : Ideal .f32) (cx F I A : FVec Ideal S256x256 .f32) (i : S256x256.Idx) :
    k0_pay57 (F := Ideal) a7 a8 cx F I A i
      = FloatOps.addf (pact (FloatOps.mulf (cx i) (F i)) a7) (pact (FloatOps.mulf (I i) (A i)) a8) := by
  pact_rfl

/-- The new cell state: that sum clipped at a₉ (cut in three by the body's positional cut). -/
theorem newC_at (a7 a8 a9 : Ideal .f32) (cx F I A : FVec Ideal S256x256 .f32) (i : S256x256.Idx) :
    k0_pay60 (F := Ideal) a9 (k0_pay57 a7 a8 cx F I A) (k0_pay58 a7 a8 cx F I A) (k0_pay59 a7 a8 cx F I A)
        (Scalar.ofBits .f32 0x00000000#32) i
      = pact (k0_pay57 (F := Ideal) a7 a8 cx F I A i) a9 := by
  pact_rfl

/-- tanh of the new cell state clipped at a₁₀, times the output gate. -/
theorem cellOut_at (a9 a10 : Ideal .f32) (O S s1 s2 : FVec Ideal S256x256 .f32) (z : Ideal .f32) (i : S256x256.Idx) :
    k0_pay61 (F := Ideal) a9 a10 O S s1 s2 z i
      = FloatOps.mulf (pact (Ideal.tanh (k0_pay60 (F := Ideal) a9 S s1 s2 z i)) a10) (O i) := by
  pact_rfl

/-- The new hidden state: that product clipped at a₁₁ (its two factors are separate payloads). -/
theorem newH_at (a9 a10 a11 : Ideal .f32) (O S s1 s2 : FVec Ideal S256x256 .f32) (z : Ideal .f32) (i : S256x256.Idx) :
    FloatOps.mulf (k0_pay62 (F := Ideal) a9 a10 O S s1 s2 z i) (k0_pay63 (F := Ideal) a9 a10 a11 O S s1 s2 z i)
      = pact (k0_pay61 (F := Ideal) a9 a10 O S s1 s2 z i) a11 := by
  pact_rfl

end Cert.LstmCell

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KernelLayout.lean ====
/-
  The kernel body's payloads that move entries, read at an entry, over the extended reals.

  A block arrives with a leading unit axis, which the body drops ([1,256,256] → [256,256], [1,256,1024] →
  [256,1024], [1,1,1024] → [1,1024]) and puts back before the store; the thirteen clipping levels arrive as
  [1,1,1] arrays and are read at their one entry. Each of the two matrix products is taken into a zero
  accumulator, so its entry (p, j) is the sum over k of the left entry (p, k) times the right entry (k, j) (the
  narrowing of the operands to bf16 is the identity on the extended reals), and the bias rows are spread over
  the 256 rows. The four gates are the 256-wide column groups 0, 1, 2, 3 of the 1024 gate columns.
-/
import proofs.«155666_j28020366639341_1_alg».proof.Proof.KernelPieces
import proofs.«155666_j28020366639341_1_alg».proof.Proof.LibMatmulNN
import Idealize.ShloMosaic.Lib.ValueLayout
import Idealize.ShloMosaic.Lib.Pipeline.Value

noncomputable section

namespace Cert.LstmCell

open Idealize.ShloMosaic Idealize.ShloMosaic.ValueIdx Cert.KernelIdeal Cert.KernelIdeal.Gen

/-! ## The loads -/

/-- The one entry of a [1,1,1] array. -/
theorem extract_unit {α : Type} (v : (⟨3, ![1, 1, 1]⟩ : Shape).Idx → α) (h : ∀ a, (![0, 0, 0] : Fin 3 → Nat) a < (⟨3, ![1, 1, 1]⟩ : Shape).size a) :
    extractAt ![0, 0, 0] v h = v (ix3 0 0 0) := by
  unfold extractAt
  congr 1
  funext a
  match a with
  | ⟨0, _⟩ => rfl
  | ⟨1, _⟩ => rfl
  | ⟨2, _⟩ => rfl

theorem level3 (v : Vec Ideal S1x1x1 .f32) : k0_pay3 (F := Ideal) v = v (ix3 0 0 0) := extract_unit v _
theorem level4 (v : Vec Ideal S1x1x1 .f32) : k0_pay4 (F := Ideal) v = v (ix3 0 0 0) := extract_unit v _
theorem level5 (v : Vec Ideal S1x1x1 .f32) : k0_pay5 (F := Ideal) v = v (ix3 0 0 0) := extract_unit v _
theorem level6 (v : Vec Ideal S1x1x1 .f32) : k0_pay6 (F := Ideal) v = v (ix3 0 0 0) := extract_unit v _
theorem level7 (v : Vec Ideal S1x1x1 .f32) : k0_pay7 (F := Ideal) v = v (ix3 0 0 0) := extract_unit v _
theorem level8 (v : Vec Ideal S1x1x1 .f32) : k0_pay8 (F := Ideal) v = v (ix3 0 0 0) := extract_unit v _
theorem level9 (v : Vec Ideal S1x1x1 .f32) : k0_pay9 (F := Ideal) v = v (ix3 0 0 0) := extract_unit v _
theorem level10 (v : Vec Ideal S1x1x1 .f32) : k0_pay10 (F := Ideal) v = v (ix3 0 0 0) := extract_unit v _
theorem level11 (v : Vec Ideal S1x1x1 .f32) : k0_pay11 (F := Ideal) v = v (ix3 0 0 0) := extract_unit v _
theorem level12 (v : Vec Ideal S1x1x1 .f32) : k0_pay12 (F := Ideal) v = v (ix3 0 0 0) := extract_unit v _
theorem level13 (v : Vec Ideal S1x1x1 .f32) : k0_pay13 (F := Ideal) v = v (ix3 0 0 0) := extract_unit v _
theorem level14 (v : Vec Ideal S1x1x1 .f32) : k0_pay14 (F := Ideal) v = v (ix3 0 0 0) := extract_unit v _
theorem level15 (v : Vec Ideal S1x1x1 .f32) : k0_pay15 (F := Ideal) v = v (ix3 0 0 0) := extract_unit v _

/-- A 256×256 block without its unit axis. -/
theorem load16 (v : Vec Ideal S1x256x256 .f32) (p k : Fin 256) : k0_pay16 (F := Ideal) v (ix2 p k) = v (ix3 0 p k) :=
  shapeCast_1ab_ab_apply v _ p k
theorem load17 (v : Vec Ideal S1x256x256 .f32) (p k : Fin 256) : k0_pay17 (F := Ideal) v (ix2 p k) = v (ix3 0 p k) :=
  shapeCast_1ab_ab_apply v _ p k
theorem load18 (v : Vec Ideal S1x256x256 .f32) (p k : Fin 256) : k0_pay18 (F := Ideal) v (ix2 p k) = v (ix3 0 p k) :=
  shapeCast_1ab_ab_apply v _ p k

/-- A 256×1024 block without its unit axis. -/
theorem load19 (v : Vec Ideal S1x256x1024 .f32) (k : Fin 256) (j : Fin 1024) : k0_pay19 (F := Ideal) v (ix2 k j) = v (ix3 0 k j) :=
  shapeCast_1ab_ab_apply v _ k j
theorem load20 (v : Vec Ideal S1x256x1024 .f32) (k : Fin 256) (j : Fin 1024) : k0_pay20 (F := Ideal) v (ix2 k j) = v (ix3 0 k j) :=
  shapeCast_1ab_ab_apply v _ k j
theorem load21 (v : Vec Ideal S1x256x1024 .f32) (k : Fin 256) (j : Fin 1024) : k0_pay21 (F := Ideal) v (ix2 k j) = v (ix3 0 k j) :=
  shapeCast_1ab_ab_apply v _ k j
theorem load24 (v : Vec Ideal S1x256x1024 .f32) (k : Fin 256) (j : Fin 1024) : k0_pay24 (F := Ideal) v (ix2 k j) = v (ix3 0 k j) :=
  shapeCast_1ab_ab_apply v _ k j
theorem load26 (v : Vec Ideal S1x256x1024 .f32) (k : Fin 256) (j : Fin 1024) : k0_pay26 (F := Ideal) v (ix2 k j) = v (ix3 0 k j) :=
  shapeCast_1ab_ab_apply v _ k j

/-- A 1×1024 row without its leading unit axis. -/
theorem load22 (v : Vec Ideal S1x1x1024 .f32) (j : Fin 1024) : k0_pay22 (F := Ideal) v (ix2 0 j) = v (ix3 0 0 j) :=
  shapeCast_1ab_ab_apply v _ 0 j
theorem load23 (v : Vec Ideal S1x1x1024 .f32) (j : Fin 1024) : k0_pay23 (F := Ideal) v (ix2 0 j) = v (ix3 0 0 j) :=
  shapeCast_1ab_ab_apply v _ 0 j
theorem load25 (v : Vec Ideal S1x1x1024 .f32) (j : Fin 1024) : k0_pay25 (F := Ideal) v (ix2 0 j) = v (ix3 0 0 j) :=
  shapeCast_1ab_ab_apply v _ 0 j
theorem load27 (v : Vec Ideal S1x1x1024 .f32) (j : Fin 1024) : k0_pay27 (F := Ideal) v (ix2 0 j) = v (ix3 0 0 j) :=
  shapeCast_1ab_ab_apply v _ 0 j

/-! ## The stores -/

/-- The stored hidden state: the product of the two factors, with the unit axis put back. -/
theorem store1 (u v : FVec Ideal S256x256 .f32) (p q : Fin 256) :
    k0_pay1 (F := Ideal) u v (ix3 0 p q) = FloatOps.mulf (u (ix2 p q)) (v (ix2 p q)) :=
  shapeCast_ab_1ab_apply (mulf u v) _ 0 p q

/-- The stored cell state, with the unit axis put back. -/
theorem store2 (v : FVec Ideal S256x256 .f32) (p q : Fin 256) : k0_pay2 (F := Ideal) v (ix3 0 p q) = v (ix2 p q) :=
  shapeCast_ab_1ab_apply v _ 0 p q

/-! ## The matrix products -/

/-- The body's product is the plain [256,256] by [256,1024] one. -/
theorem dot_plain : dot_S256x256_S256x1024_S256x1024_1_0_0_1_n_n = DotDims.plain 256 256 1024 := rfl

/-- The input path: the product of the quantized activations with the noisy quantized weights, plus the
    quantized bias row and the bias noise row. -/
theorem part1_at (nw : FVec Ideal S256x1024 .f32) (nb : FVec Ideal S1x1024 .f32) (xq : FVec Ideal S256x256 .f32)
    (b : FVec Ideal S1x1024 .f32) (w : FVec Ideal S256x1024 .f32) (p : Fin 256) (j : Fin 1024) :
    k0_pay31 (F := Ideal) nw nb xq (k0_pay29 b) (k0_pay30 w) (ix2 p j)
      = FloatOps.addf (FloatOps.addf (∑ k : Fin 256, xq (ix2 p k) * FloatOps.addf (weightQ (w (ix2 k j))) (nw (ix2 k j)))
          (biasQ (b (ix2 0 j)))) (nb (ix2 0 j)) := by
  show FloatOps.addf (FloatOps.addf (FloatOps.matmul _ _ _ _ _ (ix2 p j)) (broadcastTo _ _ _ (ix2 p j)))
    (broadcastTo _ _ _ (ix2 p j)) = _
  rw [Cert.MatmulNN.matmul_zero_apply _ dot_plain, broadcastTo_1b_ab_apply, broadcastTo_1b_ab_apply]
  rfl

/-- The recurrent path, the same with the recurrent operands (its weights arrive quantized, its bias row clipped). -/
theorem part2_at (nw : FVec Ideal S256x1024 .f32) (nb : FVec Ideal S1x1024 .f32) (hq : FVec Ideal S256x256 .f32)
    (wq : FVec Ideal S256x1024 .f32) (b : FVec Ideal S1x1024 .f32) (p : Fin 256) (j : Fin 1024) :
    k0_pay39 (F := Ideal) nw nb hq wq (k0_pay38 b) (Scalar.ofBits .f32 0xBF600000#32) (Scalar.ofBits .f32 0x3F600000#32) (ix2 p j)
      = FloatOps.addf (FloatOps.addf (∑ k : Fin 256, hq (ix2 p k) * FloatOps.addf (wq (ix2 k j)) (nw (ix2 k j)))
          (biasQ (b (ix2 0 j)))) (nb (ix2 0 j)) := by
  show FloatOps.addf (FloatOps.addf (FloatOps.matmul _ _ _ _ _ (ix2 p j)) (broadcastTo _ _ _ (ix2 p j)))
    (broadcastTo _ _ _ (ix2 p j)) = _
  rw [Cert.MatmulNN.matmul_zero_apply _ dot_plain, broadcastTo_1b_ab_apply, broadcastTo_1b_ab_apply]
  rfl

/-! ## The four column groups of the gates -/

section slices

variable (a13 a14 : Ideal .f32) (g1 g2 g3 g4 : FVec Ideal S256x1024 .f32) (p q : Fin 256)

/-- Column group 1 (the cell candidate's pre-activation). -/
theorem group1_at : k0_pay45 (F := Ideal) a13 a14 g1 g2 g3 g4 (ix2 p q) = k0_pay44 (F := Ideal) a13 a14 g1 g2 g3 g4 (ix2 p (Block.col 1 q)) := by
  unfold k0_pay45
  exact slice2_axis1_apply 256 _ _ p q (Block.col 1 q) (by show 1 * 256 + q.val = 256 + q.val; omega)

/-- Column group 3 (the output gate's pre-activation). -/
theorem group3_at : k0_pay46 (F := Ideal) a13 a14 g1 g2 g3 g4 (ix2 p q) = k0_pay44 (F := Ideal) a13 a14 g1 g2 g3 g4 (ix2 p (Block.col 3 q)) := by
  unfold k0_pay46
  exact slice2_axis1_apply 768 _ _ p q (Block.col 3 q) (by show 3 * 256 + q.val = 768 + q.val; omega)

/-- Column group 0 through the logistic function (the input gate before its clip). -/
theorem group0_logistic_at : k0_pay48 (F := Ideal) a13 a14 g1 g2 g3 g4 (ix2 p q)
    = Ideal.logistic (k0_pay44 (F := Ideal) a13 a14 g1 g2 g3 g4 (ix2 p (Block.col 0 q))) := by
  show FloatOps.logistic (extractStridedSlice _ _ _ _ (ix2 p q)) = _
  rw [slice2_axis1_apply 0 _ _ p q (Block.col 0 q) (by show 0 * 256 + q.val = 0 + q.val; omega)]
  rfl

/-- Column group 2 through the logistic function, clipped at a₃: the forget gate. -/
theorem forgetGate_at (a3 : Ideal .f32) : k0_pay47 (F := Ideal) a3 a13 a14 g1 g2 g3 g4 (ix2 p q)
    = pact (Ideal.logistic (k0_pay44 (F := Ideal) a13 a14 g1 g2 g3 g4 (ix2 p (Block.col 2 q)))) a3 := by
  rw [← pactSel_eq]
  show pactSel (FloatOps.logistic (extractStridedSlice _ _ _ _ (ix2 p q))) a3 = _
  rw [slice2_axis1_apply 512 _ _ p q (Block.col 2 q) (by show 2 * 256 + q.val = 512 + q.val; omega)]
  rfl

end slices

end Cert.LstmCell

end
-- ==== Proof.KernelBlock.lean ====
/-
  What the kernel body leaves in its two output blocks, as the specification's cell.

  The body stores each output block whole, so the block after the body is the stored value, and every load reads a
  whole input block. Read at an entry (0, p, q), the stored hidden state is the specification's `newH p q` and the
  stored cell state its `newC p q`, of the block whose readers are the 25 staged input blocks with their leading
  unit axis at 0.
-/
import proofs.«155666_j28020366639341_1_alg».proof.Proof.FrameKernelIdeal
import proofs.«155666_j28020366639341_1_alg».proof.Proof.KernelLayout

set_option maxRecDepth 16384

noncomputable section

namespace Cert.LstmCell

open Idealize.ShloMosaic Idealize.ShloMosaic.ValueIdx Cert.KernelIdeal Cert.KernelIdeal.Gen Cert.KernelIdeal.GenP

/-- The block whose readers are the staged input blocks. -/
def blkBlock (x0 x1 x2 : Vec Ideal S1x256x256 .f32) (x3 x4 x5 : Vec Ideal S1x256x1024 .f32)
    (x6 x7 : Vec Ideal S1x1x1024 .f32) (x8 : Vec Ideal S1x256x1024 .f32) (x9 : Vec Ideal S1x1x1024 .f32)
    (x10 : Vec Ideal S1x256x1024 .f32) (x11 : Vec Ideal S1x1x1024 .f32)
    (x12 x13 x14 x15 x16 x17 x18 x19 x20 x21 x22 x23 x24 : Vec Ideal S1x1x1 .f32) : Block where
  inp p k := x0 (ix3 0 p k)
  hx p k := x1 (ix3 0 p k)
  cx p k := x2 (ix3 0 p k)
  wmask k j := x3 (ix3 0 k j)
  wih k j := x4 (ix3 0 k j)
  whh k j := x5 (ix3 0 k j)
  bih j := x6 (ix3 0 0 j)
  bhh j := x7 (ix3 0 0 j)
  nihw k j := x8 (ix3 0 k j)
  nihb j := x9 (ix3 0 0 j)
  nhhw k j := x10 (ix3 0 k j)
  nhhb j := x11 (ix3 0 0 j)
  a1 := x12 (ix3 0 0 0)
  a3 := x13 (ix3 0 0 0)
  a4 := x14 (ix3 0 0 0)
  a5 := x15 (ix3 0 0 0)
  a6 := x16 (ix3 0 0 0)
  a7 := x17 (ix3 0 0 0)
  a8 := x18 (ix3 0 0 0)
  a9 := x19 (ix3 0 0 0)
  a10 := x20 (ix3 0 0 0)
  a11 := x21 (ix3 0 0 0)
  a12 := x22 (ix3 0 0 0)
  a13 := x23 (ix3 0 0 0)
  a14 := x24 (ix3 0 0 0)

theorem zeros3 : (![0, 0, 0] : Fin 3 → Nat) = fun _ => 0 := funext fun a => by fin_cases a <;> rfl

section

variable (x0 x1 x2 : Vec Ideal S1x256x256 .f32) (x3 x4 x5 : Vec Ideal S1x256x1024 .f32)
    (x6 x7 : Vec Ideal S1x1x1024 .f32) (x8 : Vec Ideal S1x256x1024 .f32) (x9 : Vec Ideal S1x1x1024 .f32)
    (x10 : Vec Ideal S1x256x1024 .f32) (x11 : Vec Ideal S1x1x1024 .f32)
    (x12 x13 x14 x15 x16 x17 x18 x19 x20 x21 x22 x23 x24 : Vec Ideal S1x1x1 .f32) (p q : Fin 256)

/-- The stored cell state at (0, p, q). -/
theorem out26_at : out0_26 (F := Ideal) x0 x1 x2 x3 x4 x5 x6 x7 x8 x9 x10 x11 x12 x13 x14 x15 x16 x17 x18 x19 x20 x21 x22 x23 x24 (ix3 0 p q)
    = (blkBlock x0 x1 x2 x3 x4 x5 x6 x7 x8 x9 x10 x11 x12 x13 x14 x15 x16 x17 x18 x19 x20 x21 x22 x23 x24).newC p q := by
  unfold out0_26
  rw [View.canon_unit_zero zeros3]
  simp only [View.ld_unit_zero (S := S1x256x256) zeros3, View.ld_unit_zero (S := S1x256x1024) zeros3,
    View.ld_unit_zero (S := S1x1x1024) zeros3, View.ld_unit_zero (S := S1x1x1) zeros3]
  simp only [store2, newC_at, cellSum_at, forgetGate_at, gateClip_at, group0_logistic_at, activation_at, group1_at,
    gates_at, part1_at, part2_at, xq_at, hq_at, weightHH_at, load16, load17, load18, load19, load20, load21, load22,
    load23, load24, load25, load26, load27, level3, level4, level5, level6, level7, level8, level9, level10, level11,
    level12, level13, level14, level15]
  rfl

/-- The stored hidden state at (0, p, q). -/
theorem out25_at : out0_25 (F := Ideal) x0 x1 x2 x3 x4 x5 x6 x7 x8 x9 x10 x11 x12 x13 x14 x15 x16 x17 x18 x19 x20 x21 x22 x23 x24 (ix3 0 p q)
    = (blkBlock x0 x1 x2 x3 x4 x5 x6 x7 x8 x9 x10 x11 x12 x13 x14 x15 x16 x17 x18 x19 x20 x21 x22 x23 x24).newH p q := by
  unfold out0_25
  rw [View.canon_unit_zero zeros3]
  simp only [View.ld_unit_zero (S := S1x256x256) zeros3, View.ld_unit_zero (S := S1x256x1024) zeros3,
    View.ld_unit_zero (S := S1x1x1024) zeros3, View.ld_unit_zero (S := S1x1x1) zeros3]
  simp only [store1, newH_at, cellOut_at, outputGate_at, group3_at, newC_at, cellSum_at, forgetGate_at, gateClip_at,
    group0_logistic_at, activation_at, group1_at, gates_at, part1_at, part2_at, xq_at, hq_at, weightHH_at, load16,
    load17, load18, load19, load20, load21, load22, load23, load24, load25, load26, load27, level3, level4, level5,
    level6, level7, level8, level9, level10, level11, level12, level13, level14, level15]
  rfl

end

end Cert.LstmCell

end
-- ==== Proof.Blocks.lean ====
/-
  Block `n` of the 48 read out of the twenty-five whole argument arrays: the three 48×256×256 arrays and the
  five 48×256×1024 ones give their `n`-th slab, the four 48×1×1024 ones their `n`-th row, and each of the
  thirteen 48-long vectors of clipping levels its `n`-th entry. The arrays come in the order of the programs'
  arguments: input, hidden state, cell state, mask, input weight, recurrent weight, the two biases, then
  noise of the input weight, of the input bias, of the recurrent weight, of the recurrent bias, then a₁, a₃ … a₁₄.
-/
import proofs.«155666_j28020366639341_1_alg».proof.Proof.Spec

noncomputable section

namespace Cert.LstmCell

open Idealize.ShloMosaic Idealize.ShloMosaic.ValueIdx

/-- Block `n` of the whole arrays. -/
def arrBlock
    (x0 x1 x2 : FVec Ideal ⟨3, ![48, 256, 256]⟩ .f32)
    (x3 x4 x5 : FVec Ideal ⟨3, ![48, 256, 1024]⟩ .f32)
    (x6 x7 : FVec Ideal ⟨3, ![48, 1, 1024]⟩ .f32)
    (x8 : FVec Ideal ⟨3, ![48, 256, 1024]⟩ .f32)
    (x9 : FVec Ideal ⟨3, ![48, 1, 1024]⟩ .f32)
    (x10 : FVec Ideal ⟨3, ![48, 256, 1024]⟩ .f32)
    (x11 : FVec Ideal ⟨3, ![48, 1, 1024]⟩ .f32)
    (x12 x13 x14 x15 x16 x17 x18 x19 x20 x21 x22 x23 x24 : FVec Ideal ⟨1, ![48]⟩ .f32)
    (n : Fin 48) : Block where
  inp p k := x0 (ix3 n p k)
  hx p k := x1 (ix3 n p k)
  cx p k := x2 (ix3 n p k)
  wmask k j := x3 (ix3 n k j)
  wih k j := x4 (ix3 n k j)
  whh k j := x5 (ix3 n k j)
  bih j := x6 (ix3 n 0 j)
  bhh j := x7 (ix3 n 0 j)
  nihw k j := x8 (ix3 n k j)
  nihb j := x9 (ix3 n 0 j)
  nhhw k j := x10 (ix3 n k j)
  nhhb j := x11 (ix3 n 0 j)
  a1 := x12 (ix1 n)
  a3 := x13 (ix1 n)
  a4 := x14 (ix1 n)
  a5 := x15 (ix1 n)
  a6 := x16 (ix1 n)
  a7 := x17 (ix1 n)
  a8 := x18 (ix1 n)
  a9 := x19 (ix1 n)
  a10 := x20 (ix1 n)
  a11 := x21 (ix1 n)
  a12 := x22 (ix1 n)
  a13 := x23 (ix1 n)
  a14 := x24 (ix1 n)

end Cert.LstmCell

end
-- ==== Proof.KernelArray.lean ====
/-
  From the kernel's blocks to its two result arrays.

  The grid has 48 points, one per block; at point t every window's block is slab t of its array — the index maps are
  all (t, 0, 0), decided over the grid —, so an entry y of a block is entry (t, y₁, y₂) of the array. The thirteen
  clipping-level windows stage [48,1,1] arrays that @main makes from the [48] arguments by a reshape before the
  region; entry (t, 0, 0) of such an array is entry t of the argument. Hence the block the body reads at point t is
  block t of the argument arrays, what point t writes back is slab t of the specification's new hidden / cell
  state of that block, the 48 slabs cover the result arrays, and the run ends with each result array at the
  specification's function of the arguments and the arguments unchanged (a staged input is never written back;
  an array no window stages is not touched).
-/
import proofs.«155666_j28020366639341_1_alg».proof.Proof.FrameKernelIdeal
import proofs.«155666_j28020366639341_1_alg».proof.Proof.KernelBlock
import proofs.«155666_j28020366639341_1_alg».proof.Proof.Blocks
import Idealize.ShloMosaic.Lib.StableHlo.Run
import Idealize.ShloMosaic.Lib.Pipeline.Value

set_option maxRecDepth 16384

noncomputable section

namespace Cert.LstmCell

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)

variable (m : (ℓ : Loc nD τ sig) → Buf (Elt Ideal) ℓ) (ρ : Dev nD → PrngReg)

/-- Grid point `t` as the number of its block. -/
def blockNo (t : Fin cfg0.N) : Fin 48 := ⟨t.val, t.isLt⟩

/-! ## Every window's block at point t is slab t of its array -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)
theorem idx20 : ∀ t : Fin cfg0.N, win0_20.index t (0 : Fin 3) = t.val ∧ win0_20.index t (1 : Fin 3) = 0 ∧ win0_20.index t (2 : Fin 3) = 0 :=
  (by decide +kernel : ∀ t : Fin grid0.N, _)
theorem idx21 : ∀ t : Fin cfg0.N, win0_21.index t (0 : Fin 3) = t.val ∧ win0_21.index t (1 : Fin 3) = 0 ∧ win0_21.index t (2 : Fin 3) = 0 :=
  (by decide +kernel : ∀ t : Fin grid0.N, _)
theorem idx22 : ∀ t : Fin cfg0.N, win0_22.index t (0 : Fin 3) = t.val ∧ win0_22.index t (1 : Fin 3) = 0 ∧ win0_22.index t (2 : Fin 3) = 0 :=
  (by decide +kernel : ∀ t : Fin grid0.N, _)
theorem idx23 : ∀ t : Fin cfg0.N, win0_23.index t (0 : Fin 3) = t.val ∧ win0_23.index t (1 : Fin 3) = 0 ∧ win0_23.index t (2 : Fin 3) = 0 :=
  (by decide +kernel : ∀ t : Fin grid0.N, _)
theorem idx24 : ∀ t : Fin cfg0.N, win0_24.index t (0 : Fin 3) = t.val ∧ win0_24.index t (1 : Fin 3) = 0 ∧ win0_24.index t (2 : Fin 3) = 0 :=
  (by decide +kernel : ∀ t : Fin grid0.N, _)
theorem idx25 : ∀ t : Fin cfg0.N, win0_25.index t (0 : Fin 3) = t.val ∧ win0_25.index t (1 : Fin 3) = 0 ∧ win0_25.index t (2 : Fin 3) = 0 :=
  (by decide +kernel : ∀ t : Fin grid0.N, _)
theorem idx26 : ∀ t : Fin cfg0.N, win0_26.index t (0 : Fin 3) = t.val ∧ win0_26.index t (1 : Fin 3) = 0 ∧ win0_26.index t (2 : Fin 3) = 0 :=
  (by decide +kernel : ∀ t : Fin grid0.N, _)

theorem emb0 (t : Fin cfg0.N) (y : S1x256x256.Idx) : ((cfg0.win 0).blk t).view.emb y = ix3 (blockNo t) (y 1) (y 2) := by
  obtain ⟨e0, e1, e2⟩ := idx0 t
  funext a; apply Fin.ext
  match a with
  | ⟨0, _⟩ => show win0_0.index t (0 : Fin 3) * 1 + 1 * (y 0).val = t.val; have h : (y 0).val < 1 := (y 0).isLt; omega
  | ⟨1, _⟩ => show win0_0.index t (1 : Fin 3) * 256 + 1 * (y 1).val = (y 1).val; omega
  | ⟨2, _⟩ => show win0_0.index t (2 : Fin 3) * 256 + 1 * (y 2).val = (y 2).val; omega
theorem emb1 (t : Fin cfg0.N) (y : S1x256x256.Idx) : ((cfg0.win 1).blk t).view.emb y = ix3 (blockNo t) (y 1) (y 2) := by
  obtain ⟨e0, e1, e2⟩ := idx1 t
  funext a; apply Fin.ext
  match a with
  | ⟨0, _⟩ => show win0_1.index t (0 : Fin 3) * 1 + 1 * (y 0).val = t.val; have h : (y 0).val < 1 := (y 0).isLt; omega
  | ⟨1, _⟩ => show win0_1.index t (1 : Fin 3) * 256 + 1 * (y 1).val = (y 1).val; omega
  | ⟨2, _⟩ => show win0_1.index t (2 : Fin 3) * 256 + 1 * (y 2).val = (y 2).val; omega
theorem emb2 (t : Fin cfg0.N) (y : S1x256x256.Idx) : ((cfg0.win 2).blk t).view.emb y = ix3 (blockNo t) (y 1) (y 2) := by
  obtain ⟨e0, e1, e2⟩ := idx2 t
  funext a; apply Fin.ext
  match a with
  | ⟨0, _⟩ => show win0_2.index t (0 : Fin 3) * 1 + 1 * (y 0).val = t.val; have h : (y 0).val < 1 := (y 0).isLt; omega
  | ⟨1, _⟩ => show win0_2.index t (1 : Fin 3) * 256 + 1 * (y 1).val = (y 1).val; omega
  | ⟨2, _⟩ => show win0_2.index t (2 : Fin 3) * 256 + 1 * (y 2).val = (y 2).val; omega
theorem emb3 (t : Fin cfg0.N) (y : S1x256x1024.Idx) : ((cfg0.win 3).blk t).view.emb y = ix3 (blockNo t) (y 1) (y 2) := by
  obtain ⟨e0, e1, e2⟩ := idx3 t
  funext a; apply Fin.ext
  match a with
  | ⟨0, _⟩ => show win0_3.index t (0 : Fin 3) * 1 + 1 * (y 0).val = t.val; have h : (y 0).val < 1 := (y 0).isLt; omega
  | ⟨1, _⟩ => show win0_3.index t (1 : Fin 3) * 256 + 1 * (y 1).val = (y 1).val; omega
  | ⟨2, _⟩ => show win0_3.index t (2 : Fin 3) * 1024 + 1 * (y 2).val = (y 2).val; omega
theorem emb4 (t : Fin cfg0.N) (y : S1x256x1024.Idx) : ((cfg0.win 4).blk t).view.emb y = ix3 (blockNo t) (y 1) (y 2) := by
  obtain ⟨e0, e1, e2⟩ := idx4 t
  funext a; apply Fin.ext
  match a with
  | ⟨0, _⟩ => show win0_4.index t (0 : Fin 3) * 1 + 1 * (y 0).val = t.val; have h : (y 0).val < 1 := (y 0).isLt; omega
  | ⟨1, _⟩ => show win0_4.index t (1 : Fin 3) * 256 + 1 * (y 1).val = (y 1).val; omega
  | ⟨2, _⟩ => show win0_4.index t (2 : Fin 3) * 1024 + 1 * (y 2).val = (y 2).val; omega
theorem emb5 (t : Fin cfg0.N) (y : S1x256x1024.Idx) : ((cfg0.win 5).blk t).view.emb y = ix3 (blockNo t) (y 1) (y 2) := by
  obtain ⟨e0, e1, e2⟩ := idx5 t
  funext a; apply Fin.ext
  match a with
  | ⟨0, _⟩ => show win0_5.index t (0 : Fin 3) * 1 + 1 * (y 0).val = t.val; have h : (y 0).val < 1 := (y 0).isLt; omega
  | ⟨1, _⟩ => show win0_5.index t (1 : Fin 3) * 256 + 1 * (y 1).val = (y 1).val; omega
  | ⟨2, _⟩ => show win0_5.index t (2 : Fin 3) * 1024 + 1 * (y 2).val = (y 2).val; omega
theorem emb6 (t : Fin cfg0.N) (y : S1x1x1024.Idx) : ((cfg0.win 6).blk t).view.emb y = ix3 (blockNo t) 0 (y 2) := by
  obtain ⟨e0, e1, e2⟩ := idx6 t
  funext a; apply Fin.ext
  match a with
  | ⟨0, _⟩ => show win0_6.index t (0 : Fin 3) * 1 + 1 * (y 0).val = t.val; have h : (y 0).val < 1 := (y 0).isLt; omega
  | ⟨1, _⟩ => show win0_6.index t (1 : Fin 3) * 1 + 1 * (y 1).val = 0; have h : (y 1).val < 1 := (y 1).isLt; omega
  | ⟨2, _⟩ => show win0_6.index t (2 : Fin 3) * 1024 + 1 * (y 2).val = (y 2).val; omega
theorem emb7 (t : Fin cfg0.N) (y : S1x1x1024.Idx) : ((cfg0.win 7).blk t).view.emb y = ix3 (blockNo t) 0 (y 2) := by
  obtain ⟨e0, e1, e2⟩ := idx7 t
  funext a; apply Fin.ext
  match a with
  | ⟨0, _⟩ => show win0_7.index t (0 : Fin 3) * 1 + 1 * (y 0).val = t.val; have h : (y 0).val < 1 := (y 0).isLt; omega
  | ⟨1, _⟩ => show win0_7.index t (1 : Fin 3) * 1 + 1 * (y 1).val = 0; have h : (y 1).val < 1 := (y 1).isLt; omega
  | ⟨2, _⟩ => show win0_7.index t (2 : Fin 3) * 1024 + 1 * (y 2).val = (y 2).val; omega
theorem emb8 (t : Fin cfg0.N) (y : S1x256x1024.Idx) : ((cfg0.win 8).blk t).view.emb y = ix3 (blockNo t) (y 1) (y 2) := by
  obtain ⟨e0, e1, e2⟩ := idx8 t
  funext a; apply Fin.ext
  match a with
  | ⟨0, _⟩ => show win0_8.index t (0 : Fin 3) * 1 + 1 * (y 0).val = t.val; have h : (y 0).val < 1 := (y 0).isLt; omega
  | ⟨1, _⟩ => show win0_8.index t (1 : Fin 3) * 256 + 1 * (y 1).val = (y 1).val; omega
  | ⟨2, _⟩ => show win0_8.index t (2 : Fin 3) * 1024 + 1 * (y 2).val = (y 2).val; omega
theorem emb9 (t : Fin cfg0.N) (y : S1x1x1024.Idx) : ((cfg0.win 9).blk t).view.emb y = ix3 (blockNo t) 0 (y 2) := by
  obtain ⟨e0, e1, e2⟩ := idx9 t
  funext a; apply Fin.ext
  match a with
  | ⟨0, _⟩ => show win0_9.index t (0 : Fin 3) * 1 + 1 * (y 0).val = t.val; have h : (y 0).val < 1 := (y 0).isLt; omega
  | ⟨1, _⟩ => show win0_9.index t (1 : Fin 3) * 1 + 1 * (y 1).val = 0; have h : (y 1).val < 1 := (y 1).isLt; omega
  | ⟨2, _⟩ => show win0_9.index t (2 : Fin 3) * 1024 + 1 * (y 2).val = (y 2).val; omega
theorem emb10 (t : Fin cfg0.N) (y : S1x256x1024.Idx) : ((cfg0.win 10).blk t).view.emb y = ix3 (blockNo t) (y 1) (y 2) := by
  obtain ⟨e0, e1, e2⟩ := idx10 t
  funext a; apply Fin.ext
  match a with
  | ⟨0, _⟩ => show win0_10.index t (0 : Fin 3) * 1 + 1 * (y 0).val = t.val; have h : (y 0).val < 1 := (y 0).isLt; omega
  | ⟨1, _⟩ => show win0_10.index t (1 : Fin 3) * 256 + 1 * (y 1).val = (y 1).val; omega
  | ⟨2, _⟩ => show win0_10.index t (2 : Fin 3) * 1024 + 1 * (y 2).val = (y 2).val; omega
theorem emb11 (t : Fin cfg0.N) (y : S1x1x1024.Idx) : ((cfg0.win 11).blk t).view.emb y = ix3 (blockNo t) 0 (y 2) := by
  obtain ⟨e0, e1, e2⟩ := idx11 t
  funext a; apply Fin.ext
  match a with
  | ⟨0, _⟩ => show win0_11.index t (0 : Fin 3) * 1 + 1 * (y 0).val = t.val; have h : (y 0).val < 1 := (y 0).isLt; omega
  | ⟨1, _⟩ => show win0_11.index t (1 : Fin 3) * 1 + 1 * (y 1).val = 0; have h : (y 1).val < 1 := (y 1).isLt; omega
  | ⟨2, _⟩ => show win0_11.index t (2 : Fin 3) * 1024 + 1 * (y 2).val = (y 2).val; omega
theorem emb12 (t : Fin cfg0.N) (y : S1x1x1.Idx) : ((cfg0.win 12).blk t).view.emb y = ix3 (blockNo t) 0 0 := by
  obtain ⟨e0, e1, e2⟩ := idx12 t
  funext a; apply Fin.ext
  match a with
  | ⟨0, _⟩ => show win0_12.index t (0 : Fin 3) * 1 + 1 * (y 0).val = t.val; have h : (y 0).val < 1 := (y 0).isLt; omega
  | ⟨1, _⟩ => show win0_12.index t (1 : Fin 3) * 1 + 1 * (y 1).val = 0; have h : (y 1).val < 1 := (y 1).isLt; omega
  | ⟨2, _⟩ => show win0_12.index t (2 : Fin 3) * 1 + 1 * (y 2).val = 0; have h : (y 2).val < 1 := (y 2).isLt; omega
theorem emb13 (t : Fin cfg0.N) (y : S1x1x1.Idx) : ((cfg0.win 13).blk t).view.emb y = ix3 (blockNo t) 0 0 := by
  obtain ⟨e0, e1, e2⟩ := idx13 t
  funext a; apply Fin.ext
  match a with
  | ⟨0, _⟩ => show win0_13.index t (0 : Fin 3) * 1 + 1 * (y 0).val = t.val; have h : (y 0).val < 1 := (y 0).isLt; omega
  | ⟨1, _⟩ => show win0_13.index t (1 : Fin 3) * 1 + 1 * (y 1).val = 0; have h : (y 1).val < 1 := (y 1).isLt; omega
  | ⟨2, _⟩ => show win0_13.index t (2 : Fin 3) * 1 + 1 * (y 2).val = 0; have h : (y 2).val < 1 := (y 2).isLt; omega
theorem emb14 (t : Fin cfg0.N) (y : S1x1x1.Idx) : ((cfg0.win 14).blk t).view.emb y = ix3 (blockNo t) 0 0 := by
  obtain ⟨e0, e1, e2⟩ := idx14 t
  funext a; apply Fin.ext
  match a with
  | ⟨0, _⟩ => show win0_14.index t (0 : Fin 3) * 1 + 1 * (y 0).val = t.val; have h : (y 0).val < 1 := (y 0).isLt; omega
  | ⟨1, _⟩ => show win0_14.index t (1 : Fin 3) * 1 + 1 * (y 1).val = 0; have h : (y 1).val < 1 := (y 1).isLt; omega
  | ⟨2, _⟩ => show win0_14.index t (2 : Fin 3) * 1 + 1 * (y 2).val = 0; have h : (y 2).val < 1 := (y 2).isLt; omega
theorem emb15 (t : Fin cfg0.N) (y : S1x1x1.Idx) : ((cfg0.win 15).blk t).view.emb y = ix3 (blockNo t) 0 0 := by
  obtain ⟨e0, e1, e2⟩ := idx15 t
  funext a; apply Fin.ext
  match a with
  | ⟨0, _⟩ => show win0_15.index t (0 : Fin 3) * 1 + 1 * (y 0).val = t.val; have h : (y 0).val < 1 := (y 0).isLt; omega
  | ⟨1, _⟩ => show win0_15.index t (1 : Fin 3) * 1 + 1 * (y 1).val = 0; have h : (y 1).val < 1 := (y 1).isLt; omega
  | ⟨2, _⟩ => show win0_15.index t (2 : Fin 3) * 1 + 1 * (y 2).val = 0; have h : (y 2).val < 1 := (y 2).isLt; omega
theorem emb16 (t : Fin cfg0.N) (y : S1x1x1.Idx) : ((cfg0.win 16).blk t).view.emb y = ix3 (blockNo t) 0 0 := by
  obtain ⟨e0, e1, e2⟩ := idx16 t
  funext a; apply Fin.ext
  match a with
  | ⟨0, _⟩ => show win0_16.index t (0 : Fin 3) * 1 + 1 * (y 0).val = t.val; have h : (y 0).val < 1 := (y 0).isLt; omega
  | ⟨1, _⟩ => show win0_16.index t (1 : Fin 3) * 1 + 1 * (y 1).val = 0; have h : (y 1).val < 1 := (y 1).isLt; omega
  | ⟨2, _⟩ => show win0_16.index t (2 : Fin 3) * 1 + 1 * (y 2).val = 0; have h : (y 2).val < 1 := (y 2).isLt; omega
theorem emb17 (t : Fin cfg0.N) (y : S1x1x1.Idx) : ((cfg0.win 17).blk t).view.emb y = ix3 (blockNo t) 0 0 := by
  obtain ⟨e0, e1, e2⟩ := idx17 t
  funext a; apply Fin.ext
  match a with
  | ⟨0, _⟩ => show win0_17.index t (0 : Fin 3) * 1 + 1 * (y 0).val = t.val; have h : (y 0).val < 1 := (y 0).isLt; omega
  | ⟨1, _⟩ => show win0_17.index t (1 : Fin 3) * 1 + 1 * (y 1).val = 0; have h : (y 1).val < 1 := (y 1).isLt; omega
  | ⟨2, _⟩ => show win0_17.index t (2 : Fin 3) * 1 + 1 * (y 2).val = 0; have h : (y 2).val < 1 := (y 2).isLt; omega
theorem emb18 (t : Fin cfg0.N) (y : S1x1x1.Idx) : ((cfg0.win 18).blk t).view.emb y = ix3 (blockNo t) 0 0 := by
  obtain ⟨e0, e1, e2⟩ := idx18 t
  funext a; apply Fin.ext
  match a with
  | ⟨0, _⟩ => show win0_18.index t (0 : Fin 3) * 1 + 1 * (y 0).val = t.val; have h : (y 0).val < 1 := (y 0).isLt; omega
  | ⟨1, _⟩ => show win0_18.index t (1 : Fin 3) * 1 + 1 * (y 1).val = 0; have h : (y 1).val < 1 := (y 1).isLt; omega
  | ⟨2, _⟩ => show win0_18.index t (2 : Fin 3) * 1 + 1 * (y 2).val = 0; have h : (y 2).val < 1 := (y 2).isLt; omega
theorem emb19 (t : Fin cfg0.N) (y : S1x1x1.Idx) : ((cfg0.win 19).blk t).view.emb y = ix3 (blockNo t) 0 0 := by
  obtain ⟨e0, e1, e2⟩ := idx19 t
  funext a; apply Fin.ext
  match a with
  | ⟨0, _⟩ => show win0_19.index t (0 : Fin 3) * 1 + 1 * (y 0).val = t.val; have h : (y 0).val < 1 := (y 0).isLt; omega
  | ⟨1, _⟩ => show win0_19.index t (1 : Fin 3) * 1 + 1 * (y 1).val = 0; have h : (y 1).val < 1 := (y 1).isLt; omega
  | ⟨2, _⟩ => show win0_19.index t (2 : Fin 3) * 1 + 1 * (y 2).val = 0; have h : (y 2).val < 1 := (y 2).isLt; omega
theorem emb20 (t : Fin cfg0.N) (y : S1x1x1.Idx) : ((cfg0.win 20).blk t).view.emb y = ix3 (blockNo t) 0 0 := by
  obtain ⟨e0, e1, e2⟩ := idx20 t
  funext a; apply Fin.ext
  match a with
  | ⟨0, _⟩ => show win0_20.index t (0 : Fin 3) * 1 + 1 * (y 0).val = t.val; have h : (y 0).val < 1 := (y 0).isLt; omega
  | ⟨1, _⟩ => show win0_20.index t (1 : Fin 3) * 1 + 1 * (y 1).val = 0; have h : (y 1).val < 1 := (y 1).isLt; omega
  | ⟨2, _⟩ => show win0_20.index t (2 : Fin 3) * 1 + 1 * (y 2).val = 0; have h : (y 2).val < 1 := (y 2).isLt; omega
theorem emb21 (t : Fin cfg0.N) (y : S1x1x1.Idx) : ((cfg0.win 21).blk t).view.emb y = ix3 (blockNo t) 0 0 := by
  obtain ⟨e0, e1, e2⟩ := idx21 t
  funext a; apply Fin.ext
  match a with
  | ⟨0, _⟩ => show win0_21.index t (0 : Fin 3) * 1 + 1 * (y 0).val = t.val; have h : (y 0).val < 1 := (y 0).isLt; omega
  | ⟨1, _⟩ => show win0_21.index t (1 : Fin 3) * 1 + 1 * (y 1).val = 0; have h : (y 1).val < 1 := (y 1).isLt; omega
  | ⟨2, _⟩ => show win0_21.index t (2 : Fin 3) * 1 + 1 * (y 2).val = 0; have h : (y 2).val < 1 := (y 2).isLt; omega
theorem emb22 (t : Fin cfg0.N) (y : S1x1x1.Idx) : ((cfg0.win 22).blk t).view.emb y = ix3 (blockNo t) 0 0 := by
  obtain ⟨e0, e1, e2⟩ := idx22 t
  funext a; apply Fin.ext
  match a with
  | ⟨0, _⟩ => show win0_22.index t (0 : Fin 3) * 1 + 1 * (y 0).val = t.val; have h : (y 0).val < 1 := (y 0).isLt; omega
  | ⟨1, _⟩ => show win0_22.index t (1 : Fin 3) * 1 + 1 * (y 1).val = 0; have h : (y 1).val < 1 := (y 1).isLt; omega
  | ⟨2, _⟩ => show win0_22.index t (2 : Fin 3) * 1 + 1 * (y 2).val = 0; have h : (y 2).val < 1 := (y 2).isLt; omega
theorem emb23 (t : Fin cfg0.N) (y : S1x1x1.Idx) : ((cfg0.win 23).blk t).view.emb y = ix3 (blockNo t) 0 0 := by
  obtain ⟨e0, e1, e2⟩ := idx23 t
  funext a; apply Fin.ext
  match a with
  | ⟨0, _⟩ => show win0_23.index t (0 : Fin 3) * 1 + 1 * (y 0).val = t.val; have h : (y 0).val < 1 := (y 0).isLt; omega
  | ⟨1, _⟩ => show win0_23.index t (1 : Fin 3) * 1 + 1 * (y 1).val = 0; have h : (y 1).val < 1 := (y 1).isLt; omega
  | ⟨2, _⟩ => show win0_23.index t (2 : Fin 3) * 1 + 1 * (y 2).val = 0; have h : (y 2).val < 1 := (y 2).isLt; omega
theorem emb24 (t : Fin cfg0.N) (y : S1x1x1.Idx) : ((cfg0.win 24).blk t).view.emb y = ix3 (blockNo t) 0 0 := by
  obtain ⟨e0, e1, e2⟩ := idx24 t
  funext a; apply Fin.ext
  match a with
  | ⟨0, _⟩ => show win0_24.index t (0 : Fin 3) * 1 + 1 * (y 0).val = t.val; have h : (y 0).val < 1 := (y 0).isLt; omega
  | ⟨1, _⟩ => show win0_24.index t (1 : Fin 3) * 1 + 1 * (y 1).val = 0; have h : (y 1).val < 1 := (y 1).isLt; omega
  | ⟨2, _⟩ => show win0_24.index t (2 : Fin 3) * 1 + 1 * (y 2).val = 0; have h : (y 2).val < 1 := (y 2).isLt; omega
theorem emb25 (t : Fin cfg0.N) (y : S1x256x256.Idx) : ((cfg0.win 25).blk t).view.emb y = ix3 (blockNo t) (y 1) (y 2) := by
  obtain ⟨e0, e1, e2⟩ := idx25 t
  funext a; apply Fin.ext
  match a with
  | ⟨0, _⟩ => show win0_25.index t (0 : Fin 3) * 1 + 1 * (y 0).val = t.val; have h : (y 0).val < 1 := (y 0).isLt; omega
  | ⟨1, _⟩ => show win0_25.index t (1 : Fin 3) * 256 + 1 * (y 1).val = (y 1).val; omega
  | ⟨2, _⟩ => show win0_25.index t (2 : Fin 3) * 256 + 1 * (y 2).val = (y 2).val; omega
theorem emb26 (t : Fin cfg0.N) (y : S1x256x256.Idx) : ((cfg0.win 26).blk t).view.emb y = ix3 (blockNo t) (y 1) (y 2) := by
  obtain ⟨e0, e1, e2⟩ := idx26 t
  funext a; apply Fin.ext
  match a with
  | ⟨0, _⟩ => show win0_26.index t (0 : Fin 3) * 1 + 1 * (y 0).val = t.val; have h : (y 0).val < 1 := (y 0).isLt; omega
  | ⟨1, _⟩ => show win0_26.index t (1 : Fin 3) * 256 + 1 * (y 1).val = (y 1).val; omega
  | ⟨2, _⟩ => show win0_26.index t (2 : Fin 3) * 256 + 1 * (y 2).val = (y 2).val; omega

/-! ## The clipping levels: entry (n, 0, 0) of the reshaped array is entry n of the argument -/

theorem level_v0 (c : Dev nD) (n : Fin 48) : V m c main_v0 (ix3 n 0 0) = (m ((c : Thread nD τ).loc main_arg12)) (ix1 n) := by
  have e : (V m c main_v0 : S48x1x1.Idx → Ideal .f32) = shapeCast S48x1x1 (m ((c : Thread nD τ).loc main_arg12)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v1 (c : Dev nD) (n : Fin 48) : V m c main_v1 (ix3 n 0 0) = (m ((c : Thread nD τ).loc main_arg13)) (ix1 n) := by
  have e : (V m c main_v1 : S48x1x1.Idx → Ideal .f32) = shapeCast S48x1x1 (m ((c : Thread nD τ).loc main_arg13)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v2 (c : Dev nD) (n : Fin 48) : V m c main_v2 (ix3 n 0 0) = (m ((c : Thread nD τ).loc main_arg14)) (ix1 n) := by
  have e : (V m c main_v2 : S48x1x1.Idx → Ideal .f32) = shapeCast S48x1x1 (m ((c : Thread nD τ).loc main_arg14)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v3 (c : Dev nD) (n : Fin 48) : V m c main_v3 (ix3 n 0 0) = (m ((c : Thread nD τ).loc main_arg15)) (ix1 n) := by
  have e : (V m c main_v3 : S48x1x1.Idx → Ideal .f32) = shapeCast S48x1x1 (m ((c : Thread nD τ).loc main_arg15)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v4 (c : Dev nD) (n : Fin 48) : V m c main_v4 (ix3 n 0 0) = (m ((c : Thread nD τ).loc main_arg16)) (ix1 n) := by
  have e : (V m c main_v4 : S48x1x1.Idx → Ideal .f32) = shapeCast S48x1x1 (m ((c : Thread nD τ).loc main_arg16)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v5 (c : Dev nD) (n : Fin 48) : V m c main_v5 (ix3 n 0 0) = (m ((c : Thread nD τ).loc main_arg17)) (ix1 n) := by
  have e : (V m c main_v5 : S48x1x1.Idx → Ideal .f32) = shapeCast S48x1x1 (m ((c : Thread nD τ).loc main_arg17)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v6 (c : Dev nD) (n : Fin 48) : V m c main_v6 (ix3 n 0 0) = (m ((c : Thread nD τ).loc main_arg18)) (ix1 n) := by
  have e : (V m c main_v6 : S48x1x1.Idx → Ideal .f32) = shapeCast S48x1x1 (m ((c : Thread nD τ).loc main_arg18)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v7 (c : Dev nD) (n : Fin 48) : V m c main_v7 (ix3 n 0 0) = (m ((c : Thread nD τ).loc main_arg19)) (ix1 n) := by
  have e : (V m c main_v7 : S48x1x1.Idx → Ideal .f32) = shapeCast S48x1x1 (m ((c : Thread nD τ).loc main_arg19)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v8 (c : Dev nD) (n : Fin 48) : V m c main_v8 (ix3 n 0 0) = (m ((c : Thread nD τ).loc main_arg20)) (ix1 n) := by
  have e : (V m c main_v8 : S48x1x1.Idx → Ideal .f32) = shapeCast S48x1x1 (m ((c : Thread nD τ).loc main_arg20)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v9 (c : Dev nD) (n : Fin 48) : V m c main_v9 (ix3 n 0 0) = (m ((c : Thread nD τ).loc main_arg21)) (ix1 n) := by
  have e : (V m c main_v9 : S48x1x1.Idx → Ideal .f32) = shapeCast S48x1x1 (m ((c : Thread nD τ).loc main_arg21)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v10 (c : Dev nD) (n : Fin 48) : V m c main_v10 (ix3 n 0 0) = (m ((c : Thread nD τ).loc main_arg22)) (ix1 n) := by
  have e : (V m c main_v10 : S48x1x1.Idx → Ideal .f32) = shapeCast S48x1x1 (m ((c : Thread nD τ).loc main_arg22)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v11 (c : Dev nD) (n : Fin 48) : V m c main_v11 (ix3 n 0 0) = (m ((c : Thread nD τ).loc main_arg23)) (ix1 n) := by
  have e : (V m c main_v11 : S48x1x1.Idx → Ideal .f32) = shapeCast S48x1x1 (m ((c : Thread nD τ).loc main_arg23)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)
theorem level_v12 (c : Dev nD) (n : Fin 48) : V m c main_v12 (ix3 n 0 0) = (m ((c : Thread nD τ).loc main_arg24)) (ix1 n) := by
  have e : (V m c main_v12 : S48x1x1.Idx → Ideal .f32) = shapeCast S48x1x1 (m ((c : Thread nD τ).loc main_arg24)) shapeCasts_S48_S48x1x1 := by
    dsimp only [V, hostOps0]; after_results; rfl
  rw [e]
  exact shapeCast_apply _ _ _ _ (by
    show ((⟨1, ![48]⟩ : Shape).rowMajor (ix1 n)).val = ((⟨3, ![48, 1, 1]⟩ : Shape).rowMajor (ix3 n 0 0)).val
    rw [Shape.rowMajor_val_one, Shape.rowMajor_val_three]; show n.val = (n.val * 1 + 0) * 1 + 0; omega)

/-! ## The blocks the body reads -/

theorem read0 (c : Dev nD) (t : Fin cfg0.N) (y : S1x256x256.Idx) : iblk m c 0 t y = (m ((c : Thread nD τ).loc main_arg0)) (ix3 (blockNo t) (y 1) (y 2)) := by
  show V m c main_arg0 (((cfg0.win 0).blk t).view.emb y) = _
  rw [emb0, V_main_arg0]
  rfl
theorem read1 (c : Dev nD) (t : Fin cfg0.N) (y : S1x256x256.Idx) : iblk m c 1 t y = (m ((c : Thread nD τ).loc main_arg1)) (ix3 (blockNo t) (y 1) (y 2)) := by
  show V m c main_arg1 (((cfg0.win 1).blk t).view.emb y) = _
  rw [emb1, V_main_arg1]
  rfl
theorem read2 (c : Dev nD) (t : Fin cfg0.N) (y : S1x256x256.Idx) : iblk m c 2 t y = (m ((c : Thread nD τ).loc main_arg2)) (ix3 (blockNo t) (y 1) (y 2)) := by
  show V m c main_arg2 (((cfg0.win 2).blk t).view.emb y) = _
  rw [emb2, V_main_arg2]
  rfl
theorem read3 (c : Dev nD) (t : Fin cfg0.N) (y : S1x256x1024.Idx) : iblk m c 3 t y = (m ((c : Thread nD τ).loc main_arg3)) (ix3 (blockNo t) (y 1) (y 2)) := by
  show V m c main_arg3 (((cfg0.win 3).blk t).view.emb y) = _
  rw [emb3, V_main_arg3]
  rfl
theorem read4 (c : Dev nD) (t : Fin cfg0.N) (y : S1x256x1024.Idx) : iblk m c 4 t y = (m ((c : Thread nD τ).loc main_arg4)) (ix3 (blockNo t) (y 1) (y 2)) := by
  show V m c main_arg4 (((cfg0.win 4).blk t).view.emb y) = _
  rw [emb4, V_main_arg4]
  rfl
theorem read5 (c : Dev nD) (t : Fin cfg0.N) (y : S1x256x1024.Idx) : iblk m c 5 t y = (m ((c : Thread nD τ).loc main_arg5)) (ix3 (blockNo t) (y 1) (y 2)) := by
  show V m c main_arg5 (((cfg0.win 5).blk t).view.emb y) = _
  rw [emb5, V_main_arg5]
  rfl
theorem read6 (c : Dev nD) (t : Fin cfg0.N) (y : S1x1x1024.Idx) : iblk m c 6 t y = (m ((c : Thread nD τ).loc main_arg6)) (ix3 (blockNo t) 0 (y 2)) := by
  show V m c main_arg6 (((cfg0.win 6).blk t).view.emb y) = _
  rw [emb6, V_main_arg6]
  rfl
theorem read7 (c : Dev nD) (t : Fin cfg0.N) (y : S1x1x1024.Idx) : iblk m c 7 t y = (m ((c : Thread nD τ).loc main_arg7)) (ix3 (blockNo t) 0 (y 2)) := by
  show V m c main_arg7 (((cfg0.win 7).blk t).view.emb y) = _
  rw [emb7, V_main_arg7]
  rfl
theorem read8 (c : Dev nD) (t : Fin cfg0.N) (y : S1x256x1024.Idx) : iblk m c 8 t y = (m ((c : Thread nD τ).loc main_arg8)) (ix3 (blockNo t) (y 1) (y 2)) := by
  show V m c main_arg8 (((cfg0.win 8).blk t).view.emb y) = _
  rw [emb8, V_main_arg8]
  rfl
theorem read9 (c : Dev nD) (t : Fin cfg0.N) (y : S1x1x1024.Idx) : iblk m c 9 t y = (m ((c : Thread nD τ).loc main_arg9)) (ix3 (blockNo t) 0 (y 2)) := by
  show V m c main_arg9 (((cfg0.win 9).blk t).view.emb y) = _
  rw [emb9, V_main_arg9]
  rfl
theorem read10 (c : Dev nD) (t : Fin cfg0.N) (y : S1x256x1024.Idx) : iblk m c 10 t y = (m ((c : Thread nD τ).loc main_arg10)) (ix3 (blockNo t) (y 1) (y 2)) := by
  show V m c main_arg10 (((cfg0.win 10).blk t).view.emb y) = _
  rw [emb10, V_main_arg10]
  rfl
theorem read11 (c : Dev nD) (t : Fin cfg0.N) (y : S1x1x1024.Idx) : iblk m c 11 t y = (m ((c : Thread nD τ).loc main_arg11)) (ix3 (blockNo t) 0 (y 2)) := by
  show V m c main_arg11 (((cfg0.win 11).blk t).view.emb y) = _
  rw [emb11, V_main_arg11]
  rfl
theorem read12 (c : Dev nD) (t : Fin cfg0.N) (y : S1x1x1.Idx) : iblk m c 12 t y = (m ((c : Thread nD τ).loc main_arg12)) (ix1 (blockNo t)) := by
  show V m c main_v0 (((cfg0.win 12).blk t).view.emb y) = _
  rw [emb12, level_v0]
theorem read13 (c : Dev nD) (t : Fin cfg0.N) (y : S1x1x1.Idx) : iblk m c 13 t y = (m ((c : Thread nD τ).loc main_arg13)) (ix1 (blockNo t)) := by
  show V m c main_v1 (((cfg0.win 13).blk t).view.emb y) = _
  rw [emb13, level_v1]
theorem read14 (c : Dev nD) (t : Fin cfg0.N) (y : S1x1x1.Idx) : iblk m c 14 t y = (m ((c : Thread nD τ).loc main_arg14)) (ix1 (blockNo t)) := by
  show V m c main_v2 (((cfg0.win 14).blk t).view.emb y) = _
  rw [emb14, level_v2]
theorem read15 (c : Dev nD) (t : Fin cfg0.N) (y : S1x1x1.Idx) : iblk m c 15 t y = (m ((c : Thread nD τ).loc main_arg15)) (ix1 (blockNo t)) := by
  show V m c main_v3 (((cfg0.win 15).blk t).view.emb y) = _
  rw [emb15, level_v3]
theorem read16 (c : Dev nD) (t : Fin cfg0.N) (y : S1x1x1.Idx) : iblk m c 16 t y = (m ((c : Thread nD τ).loc main_arg16)) (ix1 (blockNo t)) := by
  show V m c main_v4 (((cfg0.win 16).blk t).view.emb y) = _
  rw [emb16, level_v4]
theorem read17 (c : Dev nD) (t : Fin cfg0.N) (y : S1x1x1.Idx) : iblk m c 17 t y = (m ((c : Thread nD τ).loc main_arg17)) (ix1 (blockNo t)) := by
  show V m c main_v5 (((cfg0.win 17).blk t).view.emb y) = _
  rw [emb17, level_v5]
theorem read18 (c : Dev nD) (t : Fin cfg0.N) (y : S1x1x1.Idx) : iblk m c 18 t y = (m ((c : Thread nD τ).loc main_arg18)) (ix1 (blockNo t)) := by
  show V m c main_v6 (((cfg0.win 18).blk t).view.emb y) = _
  rw [emb18, level_v6]
theorem read19 (c : Dev nD) (t : Fin cfg0.N) (y : S1x1x1.Idx) : iblk m c 19 t y = (m ((c : Thread nD τ).loc main_arg19)) (ix1 (blockNo t)) := by
  show V m c main_v7 (((cfg0.win 19).blk t).view.emb y) = _
  rw [emb19, level_v7]
theorem read20 (c : Dev nD) (t : Fin cfg0.N) (y : S1x1x1.Idx) : iblk m c 20 t y = (m ((c : Thread nD τ).loc main_arg20)) (ix1 (blockNo t)) := by
  show V m c main_v8 (((cfg0.win 20).blk t).view.emb y) = _
  rw [emb20, level_v8]
theorem read21 (c : Dev nD) (t : Fin cfg0.N) (y : S1x1x1.Idx) : iblk m c 21 t y = (m ((c : Thread nD τ).loc main_arg21)) (ix1 (blockNo t)) := by
  show V m c main_v9 (((cfg0.win 21).blk t).view.emb y) = _
  rw [emb21, level_v9]
theorem read22 (c : Dev nD) (t : Fin cfg0.N) (y : S1x1x1.Idx) : iblk m c 22 t y = (m ((c : Thread nD τ).loc main_arg22)) (ix1 (blockNo t)) := by
  show V m c main_v10 (((cfg0.win 22).blk t).view.emb y) = _
  rw [emb22, level_v10]
theorem read23 (c : Dev nD) (t : Fin cfg0.N) (y : S1x1x1.Idx) : iblk m c 23 t y = (m ((c : Thread nD τ).loc main_arg23)) (ix1 (blockNo t)) := by
  show V m c main_v11 (((cfg0.win 23).blk t).view.emb y) = _
  rw [emb23, level_v11]
theorem read24 (c : Dev nD) (t : Fin cfg0.N) (y : S1x1x1.Idx) : iblk m c 24 t y = (m ((c : Thread nD τ).loc main_arg24)) (ix1 (blockNo t)) := by
  show V m c main_v12 (((cfg0.win 24).blk t).view.emb y) = _
  rw [emb24, level_v12]

/-- The block the body reads at point `t` is block `t` of the argument arrays. -/
theorem blk_eq (c : Dev nD) (t : Fin cfg0.N) :
    blkBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
      = arrBlock (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (blockNo t) := by
  simp only [blkBlock, arrBlock, Block.mk.injEq]
  exact ⟨funext fun a => funext fun b => read0 m c t (ix3 0 a b),
    funext fun a => funext fun b => read1 m c t (ix3 0 a b),
    funext fun a => funext fun b => read2 m c t (ix3 0 a b),
    funext fun a => funext fun b => read3 m c t (ix3 0 a b),
    funext fun a => funext fun b => read4 m c t (ix3 0 a b),
    funext fun a => funext fun b => read5 m c t (ix3 0 a b),
    funext fun j => read6 m c t (ix3 0 0 j),
    funext fun j => read7 m c t (ix3 0 0 j),
    funext fun a => funext fun b => read8 m c t (ix3 0 a b),
    funext fun j => read9 m c t (ix3 0 0 j),
    funext fun a => funext fun b => read10 m c t (ix3 0 a b),
    funext fun j => read11 m c t (ix3 0 0 j),
    read12 m c t (ix3 0 0 0),
    read13 m c t (ix3 0 0 0),
    read14 m c t (ix3 0 0 0),
    read15 m c t (ix3 0 0 0),
    read16 m c t (ix3 0 0 0),
    read17 m c t (ix3 0 0 0),
    read18 m c t (ix3 0 0 0),
    read19 m c t (ix3 0 0 0),
    read20 m c t (ix3 0 0 0),
    read21 m c t (ix3 0 0 0),
    read22 m c t (ix3 0 0 0),
    read23 m c t (ix3 0 0 0),
    read24 m c t (ix3 0 0 0)⟩

/-! ## The result arrays -/

/-- The new hidden state of every block, as one function of the argument arrays. -/
def newHArr (c : Dev nD) : S48x256x256.Idx → Ideal .f32 := fun i =>
  (arrBlock (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (i 0)).newH (i 1) (i 2)

/-- The new cell state of every block, as one function of the argument arrays. -/
def newCArr (c : Dev nD) : S48x256x256.Idx → Ideal .f32 := fun i =>
  (arrBlock (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (i 0)).newC (i 1) (i 2)

theorem blockIdx (j : S1x256x256.Idx) : j = ix3 (0 : Fin 1) (j 1) (j 2) := by
  funext a
  match a with
  | ⟨0, _⟩ => exact Fin.ext (by have h : (j 0).val < 1 := (j 0).isLt; show (j 0).val = 0; omega)
  | ⟨1, _⟩ => rfl
  | ⟨2, _⟩ => rfl

/-- What point `t` writes back to the hidden-state array is slab `t` of `newHArr`. -/
theorem flushedH_eq (c : Dev nD) (t : Fin cfg0.N) :
    (dats m 0 c).flushed 25 t = ((cfg0.win 25).blk t).view.read (Elt Ideal) (newHArr m c) := by
  show (cfg0.win 25).cut (grid0.coords t) ((dats m 0 c).after 25 t) = _
  rw [after0_25]
  funext j
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) j = newHArr m c (((cfg0.win 25).blk t).view.emb j)
  obtain ⟨p, q, rfl⟩ : ∃ p q : Fin 256, j = ix3 (0 : Fin 1) p q := ⟨j 1, j 2, blockIdx j⟩
  rw [out25_at, emb25, blk_eq]
  rfl

/-- What point `t` writes back to the cell-state array is slab `t` of `newCArr`. -/
theorem flushedC_eq (c : Dev nD) (t : Fin cfg0.N) :
    (dats m 0 c).flushed 26 t = ((cfg0.win 26).blk t).view.read (Elt Ideal) (newCArr m c) := by
  show (cfg0.win 26).cut (grid0.coords t) ((dats m 0 c).after 26 t) = _
  rw [after0_26]
  funext j
  show out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) j = newCArr m c (((cfg0.win 26).blk t).view.emb j)
  obtain ⟨p, q, rfl⟩ : ∃ p q : Fin 256, j = ix3 (0 : Fin 1) p q := ⟨j 1, j 2, blockIdx j⟩
  rw [out26_at, emb26, blk_eq]
  rfl

/-- An entry of the array is in point `t`'s block iff each coordinate is in the block's range on its axis. -/
theorem mem_blk25 (t : Fin cfg0.N) (i : S48x256x256.Idx) :
    i ∈ ((cfg0.win 25).blk t).view.set ↔ ∀ a : Fin 3, win0_25.index t a * S1x256x256.size a ≤ (i a).val ∧ (i a).val < win0_25.index t a * S1x256x256.size a + S1x256x256.size a := by
  show i ∈ ((View.whole main_v13_0).slice (win0_25.rect t)).set ↔ _
  rw [View.set_slice_whole, Rect.mem_set_unit]
  exact Iff.rfl

/-- The 48 slabs cover the array: entry `i` is in the block of point `i₀`. -/
theorem cover25 (i : S48x256x256.Idx) : ∃ t : Fin cfg0.N, (cfg0.win 25).flush t = true ∧ i ∈ ((cfg0.win 25).blk t).view.set := by
  have h0 : (i 0).val < 48 := (i 0).isLt
  have h1 : (i 1).val < 256 := (i 1).isLt
  have h2 : (i 2).val < 256 := (i 2).isLt
  refine ⟨⟨(i 0).val, h0⟩, flush0_25 _, ?_⟩
  rw [mem_blk25]
  obtain ⟨e0, e1, e2⟩ := idx25 ⟨(i 0).val, h0⟩
  intro a
  match a with
  | ⟨0, _⟩ => show win0_25.index ⟨(i 0).val, h0⟩ (0 : Fin 3) * 1 ≤ (i 0).val ∧ (i 0).val < win0_25.index ⟨(i 0).val, h0⟩ (0 : Fin 3) * 1 + 1; rw [e0]; show (i 0).val * 1 ≤ (i 0).val ∧ (i 0).val < (i 0).val * 1 + 1; omega
  | ⟨1, _⟩ => show win0_25.index ⟨(i 0).val, h0⟩ (1 : Fin 3) * 256 ≤ (i 1).val ∧ (i 1).val < win0_25.index ⟨(i 0).val, h0⟩ (1 : Fin 3) * 256 + 256; omega
  | ⟨2, _⟩ => show win0_25.index ⟨(i 0).val, h0⟩ (2 : Fin 3) * 256 ≤ (i 2).val ∧ (i 2).val < win0_25.index ⟨(i 0).val, h0⟩ (2 : Fin 3) * 256 + 256; omega

/-- An entry of the array is in point `t`'s block iff each coordinate is in the block's range on its axis. -/
theorem mem_blk26 (t : Fin cfg0.N) (i : S48x256x256.Idx) :
    i ∈ ((cfg0.win 26).blk t).view.set ↔ ∀ a : Fin 3, win0_26.index t a * S1x256x256.size a ≤ (i a).val ∧ (i a).val < win0_26.index t a * S1x256x256.size a + S1x256x256.size a := by
  show i ∈ ((View.whole main_v13_1).slice (win0_26.rect t)).set ↔ _
  rw [View.set_slice_whole, Rect.mem_set_unit]
  exact Iff.rfl

/-- The 48 slabs cover the array: entry `i` is in the block of point `i₀`. -/
theorem cover26 (i : S48x256x256.Idx) : ∃ t : Fin cfg0.N, (cfg0.win 26).flush t = true ∧ i ∈ ((cfg0.win 26).blk t).view.set := by
  have h0 : (i 0).val < 48 := (i 0).isLt
  have h1 : (i 1).val < 256 := (i 1).isLt
  have h2 : (i 2).val < 256 := (i 2).isLt
  refine ⟨⟨(i 0).val, h0⟩, flush0_26 _, ?_⟩
  rw [mem_blk26]
  obtain ⟨e0, e1, e2⟩ := idx26 ⟨(i 0).val, h0⟩
  intro a
  match a with
  | ⟨0, _⟩ => show win0_26.index ⟨(i 0).val, h0⟩ (0 : Fin 3) * 1 ≤ (i 0).val ∧ (i 0).val < win0_26.index ⟨(i 0).val, h0⟩ (0 : Fin 3) * 1 + 1; rw [e0]; show (i 0).val * 1 ≤ (i 0).val ∧ (i 0).val < (i 0).val * 1 + 1; omega
  | ⟨1, _⟩ => show win0_26.index ⟨(i 0).val, h0⟩ (1 : Fin 3) * 256 ≤ (i 1).val ∧ (i 1).val < win0_26.index ⟨(i 0).val, h0⟩ (1 : Fin 3) * 256 + 256; omega
  | ⟨2, _⟩ => show win0_26.index ⟨(i 0).val, h0⟩ (2 : Fin 3) * 256 ≤ (i 2).val ∧ (i 2).val < win0_26.index ⟨(i 0).val, h0⟩ (2 : Fin 3) * 256 + 256; omega

/-- The hidden-state array after the run. -/
theorem finalH (c : Dev nD) : (dats m 0 c).arrAt 25 cfg0.N = newHArr m c :=
  (dats m 0 c).arrAt_eq_of_cover 25 (newHArr m c) (fun t _ => flushedH_eq m c t) cover25

/-- The cell-state array after the run. -/
theorem finalC (c : Dev nD) : (dats m 0 c).arrAt 26 cfg0.N = newCArr m c :=
  (dats m 0 c).arrAt_eq_of_cover 26 (newCArr m c) (fun t _ => flushedC_eq m c t) cover26

/-! ## The run -/

set_option maxHeartbeats 4000000 in
/-- Every weakly fair execution of the idealized kernel terminates with the two result arrays at the specification's
    functions of the arguments, and the arguments unchanged. -/
theorem kernel_run : θ_run defs (onTc (τ := τ) (main (F := Ideal))) ⟨m, fun _ => 0, ρ⟩ fun r => ∀ c : Dev nD,
      r.2.mem ((c : Thread nD τ).loc main_v13_0) = newHArr m c
      ∧ r.2.mem ((c : Thread nD τ).loc main_v13_1) = newCArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨((h c).1 25).trans (finalH m c),
      ((h c).1 26).trans (finalC m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c)⟩)
    (run_main m ρ)

end Cert.LstmCell

end
-- ==== Proof.RefRun.lean ====
/-
  The reference's run, with its two results at their stages.

  The reference is a straight line of 400 host operations, each writing one buffer that nothing writes again. So every
  weakly fair execution terminates, and each buffer ends at the fold of the operations' results over the launch
  contents. Read back at the two result buffers, that fold is the last stage of the new hidden state and of the new cell
  state as functions of the 25 argument arrays; read back at an argument buffer it is the argument, which no operation
  writes. The fold is evaluated in one pass that visits each intermediate buffer once: a clipping step reads its operand
  six times, and the steps nest eight deep, so the stages are compared as they are named, never written out.
-/
import proofs.«155666_j28020366639341_1_alg».proof.Proof.RunOpsReferenceIdeal
import proofs.«155666_j28020366639341_1_alg».proof.Proof.ReadReferenceIdeal

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 160000000 in
/-- On every device, from any memory with zero counters: every weakly fair execution of the reference terminates with the
    two results at their last stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v289) = val_main_v289 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v261) = val_main_v261 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg17)) (m ((c.tc : Thread nD τ).loc main_arg18)) (m ((c.tc : Thread nD τ).loc main_arg19)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v289).trans (by after_results_simp <;> rfl),
      (h c main_v261).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl),
      (h c main_arg21).trans (by after_results_simp <;> rfl),
      (h c main_arg22).trans (by after_results_simp <;> rfl),
      (h c main_arg23).trans (by after_results_simp <;> rfl),
      (h c main_arg24).trans (by after_results_simp <;> rfl)⟩)
    (run_seq scopedRefs_eq scopedSems_eq defs main (fun _ => ops) main_eq (fun _ => ops_sub) m ρ)

end Cert.ReferenceIdeal.RefRun

end
-- ==== Proof.RefIn.lean ====
/-
  The two activations entering the matrix products, read at an entry (n, p, k) of the reference's arrays.

  The input x is first clipped to [-a₁, a₁] (the clip spelt by absolute values), then divided by a₁, clamped to
  ±0.9921875, scaled by 128, rounded to the nearest integer (ties to even), divided by 128 and multiplied by a₁
  again: this is the block's quantized input activation. The hidden state h goes the same way at the level a₁₁.
  A clipping level is a 48-vector stretched to the array's shape in two steps, so at entry (n, p, k) it is read
  at its n-th entry.
-/
import proofs.«155666_j28020366639341_1_alg».proof.Proof.ReadReferenceIdeal
import proofs.«155666_j28020366639341_1_alg».proof.Proof.Blocks

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- Two rank-1 index functions are equal when their one coordinate is. -/
macro "idx1" : tactic => `(tactic| (funext a; match a with | ⟨0, _⟩ => rfl))
/-- Two rank-3 index functions are equal when their three coordinates are. -/
macro "idx3" : tactic => `(tactic| (funext a; match a with | ⟨0, _⟩ => rfl | ⟨1, _⟩ => rfl | ⟨2, _⟩ => rfl))

/-- The clipped input: entry `(n, p, q)` of the first clip is `pact` of the input entry at the level `a₁ n`. -/
theorem ref_pact_input (n : Fin 48) (p : Fin 256) (q : Fin 256) :
    val_main_v12 (F := Ideal) x0 x12 (ix3 n p q) = pact (x0 (ix3 n p q)) (x12 (ix1 n)) := by
  have e1 : idx_main_v0 (idx_main_v6 (ix3 n p q)) = ix1 n := by idx1
  simp only [val_main_v12_apply, val_main_v3_apply, val_main_v1_apply, val_main_v2_apply, val_main_cst_apply, val_main_v11_apply, val_main_v9_apply, val_main_v4_apply, val_main_v8_apply, val_main_v7_apply, val_main_v5_apply, val_main_v6_apply, val_main_v0_apply, val_main_v10_apply]
  rw [e1]
  rfl

/-- The quantized input activation of block `n`. -/
theorem ref_xq (n : Fin 48) (p q : Fin 256) :
    val_main_v23 (F := Ideal) x0 x12 (ix3 n p q) = (arrBlock x0 x1 x2 x3 x4 x5 x6 x7 x8 x9 x10 x11 x12 x13 x14 x15 x16 x17 x18 x19 x20 x21 x22 x23 x24 n).xq p q := by
  have e1 : idx_main_v13 (idx_main_v14 (ix3 n p q)) = ix1 n := by idx1
  simp only [val_main_v23_apply, val_main_v21_apply, val_main_v19_apply, val_main_v18_apply, val_main_v16_apply, val_main_call0_v4_apply, val_main_call0_v3_apply, val_main_cst_1_apply, val_main_call0_v2_apply, val_main_call0_v1_apply, val_main_call0_v0_apply, val_main_cst_0_apply, val_main_v15_apply, val_main_v14_apply, val_main_v13_apply, val_main_v17_apply, val_main_cst_2_apply, val_main_v20_apply, val_main_cst_3_apply, val_main_v22_apply]
  rw [e1, ref_pact_input]
  rfl

/-- The clipped hidden state: `pact` of the hidden-state entry at the level `a₁₁ n`. -/
theorem ref_pact_hidden (n : Fin 48) (p : Fin 256) (q : Fin 256) :
    val_main_v64 (F := Ideal) x1 x21 (ix3 n p q) = pact (x1 (ix3 n p q)) (x21 (ix1 n)) := by
  have e1 : idx_main_v52 (idx_main_v58 (ix3 n p q)) = ix1 n := by idx1
  simp only [val_main_v64_apply, val_main_v55_apply, val_main_v53_apply, val_main_v54_apply, val_main_cst_20_apply, val_main_v63_apply, val_main_v61_apply, val_main_v56_apply, val_main_v60_apply, val_main_v59_apply, val_main_v57_apply, val_main_v58_apply, val_main_v52_apply, val_main_v62_apply]
  rw [e1]
  rfl

/-- The quantized hidden-state activation of block `n`. -/
theorem ref_hq (n : Fin 48) (p q : Fin 256) :
    val_main_v75 (F := Ideal) x1 x21 (ix3 n p q) = (arrBlock x0 x1 x2 x3 x4 x5 x6 x7 x8 x9 x10 x11 x12 x13 x14 x15 x16 x17 x18 x19 x20 x21 x22 x23 x24 n).hq p q := by
  have e1 : idx_main_v65 (idx_main_v66 (ix3 n p q)) = ix1 n := by idx1
  simp only [val_main_v75_apply, val_main_v73_apply, val_main_v71_apply, val_main_v70_apply, val_main_v68_apply, val_main_call8_v4_apply, val_main_call8_v3_apply, val_main_cst_22_apply, val_main_call8_v2_apply, val_main_call8_v1_apply, val_main_call8_v0_apply, val_main_cst_21_apply, val_main_v67_apply, val_main_v66_apply, val_main_v65_apply, val_main_v69_apply, val_main_cst_23_apply, val_main_v72_apply, val_main_cst_24_apply, val_main_v74_apply]
  rw [e1, ref_pact_hidden]
  rfl

end Cert.LstmCell

end
-- ==== Proof.RefWt.lean ====
/-
  The weights and biases entering the matrix products, read at an entry of the reference's arrays.

  A weight entry is clamped to [-1, 1], divided by the range 1, clamped to ±0.875, scaled by 8, rounded to the
  nearest integer (ties to even), divided by 8 and multiplied by the range 1; a bias entry goes the same way after
  a clamp to [-2, 2]. The recurrent weight is multiplied by its mask before the clamp. The additive noise is
  added after the quantization. All of this is entrywise, so every stage at (n, k, j) reads its operands at
  (n, k, j).
-/
import proofs.«155666_j28020366639341_1_alg».proof.Proof.ReadReferenceIdeal
import proofs.«155666_j28020366639341_1_alg».proof.Proof.Blocks

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- The quantized input weight at `(n, k, j)`. -/
theorem ref_weightQ_ih (n : Fin 48) (k : Fin 256) (j : Fin 1024) :
    val_main_v35 (F := Ideal) x4 (ix3 n k j) = weightQ (x4 (ix3 n k j)) := by
  simp only [val_main_v35_apply, val_main_v33_apply, val_main_v31_apply, val_main_v30_apply, val_main_v28_apply, val_main_call4_v4_apply, val_main_call4_v3_apply, val_main_cst_10_apply, val_main_call4_v2_apply, val_main_call4_v1_apply, val_main_call4_v0_apply, val_main_cst_9_apply, val_main_v27_apply, val_main_v24_apply, val_main_call2_v4_apply, val_main_call2_v3_apply, val_main_cst_5_apply, val_main_call2_v2_apply, val_main_call2_v1_apply, val_main_call2_v0_apply, val_main_cst_4_apply, val_main_v26_apply, val_main_cst_8_apply, val_main_v29_apply, val_main_cst_11_apply, val_main_v32_apply, val_main_cst_12_apply, val_main_v34_apply, val_main_cst_13_apply]
  rfl

/-- The noisy quantized input weight of block `n`. -/
theorem ref_wI (n : Fin 48) (k : Fin 256) (j : Fin 1024) :
    val_main_v46 (F := Ideal) x4 x8 (ix3 n k j) = (arrBlock x0 x1 x2 x3 x4 x5 x6 x7 x8 x9 x10 x11 x12 x13 x14 x15 x16 x17 x18 x19 x20 x21 x22 x23 x24 n).wI k j := by
  simp only [val_main_v46_apply]
  rw [ref_weightQ_ih]
  rfl

/-- The quantized input bias at `(n, r, j)` (the middle axis has one entry). -/
theorem ref_biasQ_ih (n : Fin 48) (r : Fin 1) (j : Fin 1024) :
    val_main_v45 (F := Ideal) x6 (ix3 n r j) = biasQ (x6 (ix3 n r j)) := by
  simp only [val_main_v45_apply, val_main_v43_apply, val_main_v41_apply, val_main_v40_apply, val_main_v38_apply, val_main_call6_v4_apply, val_main_call6_v3_apply, val_main_cst_16_apply, val_main_call6_v2_apply, val_main_call6_v1_apply, val_main_call6_v0_apply, val_main_cst_15_apply, val_main_v37_apply, val_main_v25_apply, val_main_call3_v4_apply, val_main_call3_v3_apply, val_main_cst_7_apply, val_main_call3_v2_apply, val_main_call3_v1_apply, val_main_call3_v0_apply, val_main_cst_6_apply, val_main_v36_apply, val_main_cst_14_apply, val_main_v39_apply, val_main_cst_17_apply, val_main_v42_apply, val_main_cst_18_apply, val_main_v44_apply, val_main_cst_19_apply]
  rfl

/-- The quantized masked recurrent weight at `(n, k, j)`. -/
theorem ref_weightQ_hh (n : Fin 48) (k : Fin 256) (j : Fin 1024) :
    val_main_v88 (F := Ideal) x3 x5 (ix3 n k j) = weightQ (FloatOps.mulf (x5 (ix3 n k j)) (x3 (ix3 n k j))) := by
  simp only [val_main_v88_apply, val_main_v86_apply, val_main_v84_apply, val_main_v83_apply, val_main_v81_apply, val_main_call12_v4_apply, val_main_call12_v3_apply, val_main_cst_31_apply, val_main_call12_v2_apply, val_main_call12_v1_apply, val_main_call12_v0_apply, val_main_cst_30_apply, val_main_v80_apply, val_main_v77_apply, val_main_call10_v4_apply, val_main_call10_v3_apply, val_main_cst_26_apply, val_main_call10_v2_apply, val_main_call10_v1_apply, val_main_call10_v0_apply, val_main_cst_25_apply, val_main_v76_apply, val_main_v79_apply, val_main_cst_29_apply, val_main_v82_apply, val_main_cst_32_apply, val_main_v85_apply, val_main_cst_33_apply, val_main_v87_apply, val_main_cst_34_apply]
  rfl

/-- The noisy quantized recurrent weight of block `n`. -/
theorem ref_wH (n : Fin 48) (k : Fin 256) (j : Fin 1024) :
    val_main_v99 (F := Ideal) x3 x5 x10 (ix3 n k j) = (arrBlock x0 x1 x2 x3 x4 x5 x6 x7 x8 x9 x10 x11 x12 x13 x14 x15 x16 x17 x18 x19 x20 x21 x22 x23 x24 n).wH k j := by
  simp only [val_main_v99_apply]
  rw [ref_weightQ_hh]
  rfl

/-- The quantized recurrent bias at `(n, r, j)`. -/
theorem ref_biasQ_hh (n : Fin 48) (r : Fin 1) (j : Fin 1024) :
    val_main_v98 (F := Ideal) x7 (ix3 n r j) = biasQ (x7 (ix3 n r j)) := by
  simp only [val_main_v98_apply, val_main_v96_apply, val_main_v94_apply, val_main_v93_apply, val_main_v91_apply, val_main_call14_v4_apply, val_main_call14_v3_apply, val_main_cst_37_apply, val_main_call14_v2_apply, val_main_call14_v1_apply, val_main_call14_v0_apply, val_main_cst_36_apply, val_main_v90_apply, val_main_v78_apply, val_main_call11_v4_apply, val_main_call11_v3_apply, val_main_cst_28_apply, val_main_call11_v2_apply, val_main_call11_v1_apply, val_main_call11_v0_apply, val_main_cst_27_apply, val_main_v89_apply, val_main_cst_35_apply, val_main_v92_apply, val_main_cst_38_apply, val_main_v95_apply, val_main_cst_39_apply, val_main_v97_apply, val_main_cst_40_apply]
  rfl

end Cert.LstmCell

end
-- ==== Proof.RefMM.lean ====
/-
  The two matrix products with their biases, read at an entry (n, p, j) of the reference's arrays.

  The batched product contracts the last axis of the quantized activation with the middle axis of the noisy
  quantized weight: entry (n, p, j) is the sum over k of activation (n, p, k) times weight (n, k, j). The
  quantized bias row and the bias-noise row, both of shape 48 × 1 × 1024, are stretched along the middle axis, so
  at (n, p, j) they are read at (n, 0, j).
-/
import proofs.«155666_j28020366639341_1_alg».proof.Proof.RefIn
import proofs.«155666_j28020366639341_1_alg».proof.Proof.RefWt

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- The input path of block `n`: `x_q · W_ih + b_ih + n_ih`. -/
theorem ref_part1 (n : Fin 48) (p : Fin 256) (j : Fin 1024) :
    val_main_v51 (F := Ideal) x0 x4 x6 x8 x9 x12 (ix3 n p j) = (arrBlock x0 x1 x2 x3 x4 x5 x6 x7 x8 x9 x10 x11 x12 x13 x14 x15 x16 x17 x18 x19 x20 x21 x22 x23 x24 n).part1 p j := by
  have el : ∀ k : Fin 256, lidx_main_v47 (ix3 n p j) k = ix3 n p k := fun k => by idx3
  have er : ∀ k : Fin 256, ridx_main_v47 (ix3 n p j) k = ix3 n k j := fun k => by idx3
  have eb : idx_main_v48 (ix3 n p j) = ix3 n 0 j := by idx3
  have en : idx_main_v50 (ix3 n p j) = ix3 n 0 j := by idx3
  simp only [val_main_v51_apply, val_main_v49_apply, val_main_v47_apply, val_main_v48_apply, val_main_v50_apply]
  rw [eb, en, ref_biasQ_ih]
  simp only [el, er, ref_xq x0 x1 x2 x3 x4 x5 x6 x7 x8 x9 x10 x11 x12 x13 x14 x15 x16 x17 x18 x19 x20 x21 x22 x23 x24, ref_wI x0 x1 x2 x3 x4 x5 x6 x7 x8 x9 x10 x11 x12 x13 x14 x15 x16 x17 x18 x19 x20 x21 x22 x23 x24]
  rfl

/-- The recurrent path of block `n`: `h_q · W_hh + b_hh + n_hh`. -/
theorem ref_part2 (n : Fin 48) (p : Fin 256) (j : Fin 1024) :
    val_main_v104 (F := Ideal) x1 x3 x5 x7 x10 x11 x21 (ix3 n p j) = (arrBlock x0 x1 x2 x3 x4 x5 x6 x7 x8 x9 x10 x11 x12 x13 x14 x15 x16 x17 x18 x19 x20 x21 x22 x23 x24 n).part2 p j := by
  have el : ∀ k : Fin 256, lidx_main_v100 (ix3 n p j) k = ix3 n p k := fun k => by idx3
  have er : ∀ k : Fin 256, ridx_main_v100 (ix3 n p j) k = ix3 n k j := fun k => by idx3
  have eb : idx_main_v101 (ix3 n p j) = ix3 n 0 j := by idx3
  have en : idx_main_v103 (ix3 n p j) = ix3 n 0 j := by idx3
  simp only [val_main_v104_apply, val_main_v102_apply, val_main_v100_apply, val_main_v101_apply, val_main_v103_apply]
  rw [eb, en, ref_biasQ_hh]
  simp only [el, er, ref_hq x0 x1 x2 x3 x4 x5 x6 x7 x8 x9 x10 x11 x12 x13 x14 x15 x16 x17 x18 x19 x20 x21 x22 x23 x24, ref_wH x0 x1 x2 x3 x4 x5 x6 x7 x8 x9 x10 x11 x12 x13 x14 x15 x16 x17 x18 x19 x20 x21 x22 x23 x24]
  rfl

end Cert.LstmCell

end
-- ==== Proof.RefGates.lean ====
/-
  The gate pre-activations, read at an entry (n, p, j) of the reference's 48 × 256 × 1024 array.

  Each of the two paths is clipped at its own level (a₁₂ for the input path, a₁₃ for the recurrent one), the two
  clipped paths are added, and the sum is clipped at a₁₄. The clipping levels are read at the block number n.
-/
import proofs.«155666_j28020366639341_1_alg».proof.Proof.RefMM

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- The clipped input path: `pact` of the input path's entry at the level `a₁₂ n`. -/
theorem ref_pact_part1 (n : Fin 48) (p : Fin 256) (q : Fin 1024) :
    val_main_v117 (F := Ideal) x0 x4 x6 x8 x9 x12 x22 (ix3 n p q) = pact (val_main_v51 (F := Ideal) x0 x4 x6 x8 x9 x12 (ix3 n p q)) (x22 (ix1 n)) := by
  have e1 : idx_main_v105 (idx_main_v111 (ix3 n p q)) = ix1 n := by idx1
  simp only [val_main_v117_apply, val_main_v108_apply, val_main_v106_apply, val_main_v107_apply, val_main_cst_41_apply, val_main_v116_apply, val_main_v114_apply, val_main_v109_apply, val_main_v113_apply, val_main_v112_apply, val_main_v110_apply, val_main_v111_apply, val_main_v105_apply, val_main_v115_apply]
  rw [e1]
  rfl

/-- The clipped recurrent path: `pact` of the recurrent path's entry at the level `a₁₃ n`. -/
theorem ref_pact_part2 (n : Fin 48) (p : Fin 256) (q : Fin 1024) :
    val_main_v130 (F := Ideal) x1 x3 x5 x7 x10 x11 x21 x23 (ix3 n p q) = pact (val_main_v104 (F := Ideal) x1 x3 x5 x7 x10 x11 x21 (ix3 n p q)) (x23 (ix1 n)) := by
  have e1 : idx_main_v118 (idx_main_v124 (ix3 n p q)) = ix1 n := by idx1
  simp only [val_main_v130_apply, val_main_v121_apply, val_main_v119_apply, val_main_v120_apply, val_main_cst_42_apply, val_main_v129_apply, val_main_v127_apply, val_main_v122_apply, val_main_v126_apply, val_main_v125_apply, val_main_v123_apply, val_main_v124_apply, val_main_v118_apply, val_main_v128_apply]
  rw [e1]
  rfl

/-- The four gate pre-activations of block `n` side by side. -/
theorem ref_gates (n : Fin 48) (p : Fin 256) (j : Fin 1024) :
    val_main_v144 (F := Ideal) x0 x1 x3 x4 x5 x6 x7 x8 x9 x10 x11 x12 x21 x22 x23 x24 (ix3 n p j) = (arrBlock x0 x1 x2 x3 x4 x5 x6 x7 x8 x9 x10 x11 x12 x13 x14 x15 x16 x17 x18 x19 x20 x21 x22 x23 x24 n).gates p j := by
  have e1 : idx_main_v132 (idx_main_v138 (ix3 n p j)) = ix1 n := by idx1
  simp only [val_main_v144_apply, val_main_v135_apply, val_main_v133_apply, val_main_v131_apply, val_main_v134_apply, val_main_cst_43_apply, val_main_v143_apply, val_main_v141_apply, val_main_v136_apply, val_main_v140_apply, val_main_v139_apply, val_main_v137_apply, val_main_v138_apply, val_main_v132_apply, val_main_v142_apply]
  rw [e1, ref_pact_part1, ref_pact_part2, ref_part1 x0 x1 x2 x3 x4 x5 x6 x7 x8 x9 x10 x11 x12 x13 x14 x15 x16 x17 x18 x19 x20 x21 x22 x23 x24, ref_part2 x0 x1 x2 x3 x4 x5 x6 x7 x8 x9 x10 x11 x12 x13 x14 x15 x16 x17 x18 x19 x20 x21 x22 x23 x24]
  rfl

end Cert.LstmCell

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefNl.lean ====
/-
  The four gates, read at an entry (n, p, q) of the reference's 48 × 256 × 256 arrays.

  The 1024 columns of the gate pre-activations are cut into four groups of 256: entry (n, p, q) of group g is
  entry (n, p, g·256 + q) of the whole. Groups 0, 2 and 3 go through the logistic function, which the reference
  spells 1 / (1 + exp (-v)) with the f32 word of 1.0 in both places, group 1 through the hyperbolic tangent; each
  result is then clipped at its own level (a₄, a₅, a₃, a₆ for groups 0, 1, 2, 3).
-/
import proofs.«155666_j28020366639341_1_alg».proof.Proof.RefGates
import proofs.«155666_j28020366639341_1_alg».proof.Proof.LibLogistic

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- Column group 0 of the gate pre-activations: entry `(n, p, q)` of the slice is entry `(n, p, 0·256 + q)`. -/
theorem ref_slice_i (n : Fin 48) (p q : Fin 256) :
    val_main_v145 (F := Ideal) x0 x1 x3 x4 x5 x6 x7 x8 x9 x10 x11 x12 x21 x22 x23 x24 (ix3 n p q) = (arrBlock x0 x1 x2 x3 x4 x5 x6 x7 x8 x9 x10 x11 x12 x13 x14 x15 x16 x17 x18 x19 x20 x21 x22 x23 x24 n).gates p (Block.col 0 q) := by
  have es : idx_main_v145 (ix3 n p q) = ix3 n p (Block.col 0 q) := by
    funext a
    match a with
    | ⟨0, _⟩ => rfl
    | ⟨1, _⟩ => rfl
    | ⟨2, _⟩ => exact Fin.ext (show (q.val : Nat) = 0 * 256 + q.val by omega)
  rw [val_main_v145_apply, es, ref_gates x0 x1 x2 x3 x4 x5 x6 x7 x8 x9 x10 x11 x12 x13 x14 x15 x16 x17 x18 x19 x20 x21 x22 x23 x24]

/-- The input gate's sigmoid, spelt `1 / (1 + exp (-v))` with the word of 1.0, is the logistic function of the slice's entry. -/
theorem ref_sigmoid_i (n : Fin 48) (p q : Fin 256) :
    val_main_v173 (F := Ideal) x0 x1 x3 x4 x5 x6 x7 x8 x9 x10 x11 x12 x21 x22 x23 x24 (ix3 n p q) = Ideal.logistic (val_main_v145 (F := Ideal) x0 x1 x3 x4 x5 x6 x7 x8 x9 x10 x11 x12 x21 x22 x23 x24 (ix3 n p q)) := by
  simp only [val_main_v173_apply, val_main_v172_apply, val_main_cst_48_apply, val_main_v171_apply, val_main_v170_apply, val_main_cst_47_apply, val_main_v169_apply, val_main_v168_apply]
  exact Cert.Logistic.one_div_one_add_exp_neg _

/-- The clip of the input gate at the level `a₄ n`. -/
theorem ref_pact_i (n : Fin 48) (p : Fin 256) (q : Fin 256) :
    val_main_v186 (F := Ideal) x0 x1 x3 x4 x5 x6 x7 x8 x9 x10 x11 x12 x14 x21 x22 x23 x24 (ix3 n p q) = pact (val_main_v173 (F := Ideal) x0 x1 x3 x4 x5 x6 x7 x8 x9 x10 x11 x12 x21 x22 x23 x24 (ix3 n p q)) (x14 (ix1 n)) := by
  have e1 : idx_main_v174 (idx_main_v180 (ix3 n p q)) = ix1 n := by idx1
  simp only [val_main_v186_apply, val_main_v177_apply, val_main_v175_apply, val_main_v176_apply, val_main_cst_49_apply, val_main_v185_apply, val_main_v183_apply, val_main_v178_apply, val_main_v182_apply, val_main_v181_apply, val_main_v179_apply, val_main_v180_apply, val_main_v174_apply, val_main_v184_apply]
  rw [e1]
  rfl

/-- The input gate of block `n`. -/
theorem ref_inputGate (n : Fin 48) (p q : Fin 256) :
    val_main_v186 (F := Ideal) x0 x1 x3 x4 x5 x6 x7 x8 x9 x10 x11 x12 x14 x21 x22 x23 x24 (ix3 n p q) = (arrBlock x0 x1 x2 x3 x4 x5 x6 x7 x8 x9 x10 x11 x12 x13 x14 x15 x16 x17 x18 x19 x20 x21 x22 x23 x24 n).inputGate p q := by
  rw [ref_pact_i, ref_sigmoid_i, ref_slice_i x0 x1 x2 x3 x4 x5 x6 x7 x8 x9 x10 x11 x12 x13 x14 x15 x16 x17 x18 x19 x20 x21 x22 x23 x24]
  rfl

/-- Column group 1 of the gate pre-activations: entry `(n, p, q)` of the slice is entry `(n, p, 1·256 + q)`. -/
theorem ref_slice_j (n : Fin 48) (p q : Fin 256) :
    val_main_v146 (F := Ideal) x0 x1 x3 x4 x5 x6 x7 x8 x9 x10 x11 x12 x21 x22 x23 x24 (ix3 n p q) = (arrBlock x0 x1 x2 x3 x4 x5 x6 x7 x8 x9 x10 x11 x12 x13 x14 x15 x16 x17 x18 x19 x20 x21 x22 x23 x24 n).gates p (Block.col 1 q) := by
  have es : idx_main_v146 (ix3 n p q) = ix3 n p (Block.col 1 q) := by
    funext a
    match a with
    | ⟨0, _⟩ => rfl
    | ⟨1, _⟩ => rfl
    | ⟨2, _⟩ => exact Fin.ext (show (256 + q.val : Nat) = 1 * 256 + q.val by omega)
  rw [val_main_v146_apply, es, ref_gates x0 x1 x2 x3 x4 x5 x6 x7 x8 x9 x10 x11 x12 x13 x14 x15 x16 x17 x18 x19 x20 x21 x22 x23 x24]

/-- The candidate activation's hyperbolic tangent of the slice's entry. -/
theorem ref_tanh_j (n : Fin 48) (p q : Fin 256) :
    val_main_v187 (F := Ideal) x0 x1 x3 x4 x5 x6 x7 x8 x9 x10 x11 x12 x21 x22 x23 x24 (ix3 n p q) = Ideal.tanh (val_main_v146 (F := Ideal) x0 x1 x3 x4 x5 x6 x7 x8 x9 x10 x11 x12 x21 x22 x23 x24 (ix3 n p q)) := by
  simp only [val_main_v187_apply]
  rfl

/-- The clip of the candidate activation at the level `a₅ n`. -/
theorem ref_pact_j (n : Fin 48) (p : Fin 256) (q : Fin 256) :
    val_main_v200 (F := Ideal) x0 x1 x3 x4 x5 x6 x7 x8 x9 x10 x11 x12 x15 x21 x22 x23 x24 (ix3 n p q) = pact (val_main_v187 (F := Ideal) x0 x1 x3 x4 x5 x6 x7 x8 x9 x10 x11 x12 x21 x22 x23 x24 (ix3 n p q)) (x15 (ix1 n)) := by
  have e1 : idx_main_v188 (idx_main_v194 (ix3 n p q)) = ix1 n := by idx1
  simp only [val_main_v200_apply, val_main_v191_apply, val_main_v189_apply, val_main_v190_apply, val_main_cst_50_apply, val_main_v199_apply, val_main_v197_apply, val_main_v192_apply, val_main_v196_apply, val_main_v195_apply, val_main_v193_apply, val_main_v194_apply, val_main_v188_apply, val_main_v198_apply]
  rw [e1]
  rfl

/-- The candidate activation of block `n`. -/
theorem ref_activation (n : Fin 48) (p q : Fin 256) :
    val_main_v200 (F := Ideal) x0 x1 x3 x4 x5 x6 x7 x8 x9 x10 x11 x12 x15 x21 x22 x23 x24 (ix3 n p q) = (arrBlock x0 x1 x2 x3 x4 x5 x6 x7 x8 x9 x10 x11 x12 x13 x14 x15 x16 x17 x18 x19 x20 x21 x22 x23 x24 n).activation p q := by
  rw [ref_pact_j, ref_tanh_j, ref_slice_j x0 x1 x2 x3 x4 x5 x6 x7 x8 x9 x10 x11 x12 x13 x14 x15 x16 x17 x18 x19 x20 x21 x22 x23 x24]
  rfl

/-- Column group 2 of the gate pre-activations: entry `(n, p, q)` of the slice is entry `(n, p, 2·256 + q)`. -/
theorem ref_slice_f (n : Fin 48) (p q : Fin 256) :
    val_main_v147 (F := Ideal) x0 x1 x3 x4 x5 x6 x7 x8 x9 x10 x11 x12 x21 x22 x23 x24 (ix3 n p q) = (arrBlock x0 x1 x2 x3 x4 x5 x6 x7 x8 x9 x10 x11 x12 x13 x14 x15 x16 x17 x18 x19 x20 x21 x22 x23 x24 n).gates p (Block.col 2 q) := by
  have es : idx_main_v147 (ix3 n p q) = ix3 n p (Block.col 2 q) := by
    funext a
    match a with
    | ⟨0, _⟩ => rfl
    | ⟨1, _⟩ => rfl
    | ⟨2, _⟩ => exact Fin.ext (show (512 + q.val : Nat) = 2 * 256 + q.val by omega)
  rw [val_main_v147_apply, es, ref_gates x0 x1 x2 x3 x4 x5 x6 x7 x8 x9 x10 x11 x12 x13 x14 x15 x16 x17 x18 x19 x20 x21 x22 x23 x24]

/-- The forget gate's sigmoid, spelt `1 / (1 + exp (-v))` with the word of 1.0, is the logistic function of the slice's entry. -/
theorem ref_sigmoid_f (n : Fin 48) (p q : Fin 256) :
    val_main_v154 (F := Ideal) x0 x1 x3 x4 x5 x6 x7 x8 x9 x10 x11 x12 x21 x22 x23 x24 (ix3 n p q) = Ideal.logistic (val_main_v147 (F := Ideal) x0 x1 x3 x4 x5 x6 x7 x8 x9 x10 x11 x12 x21 x22 x23 x24 (ix3 n p q)) := by
  simp only [val_main_v154_apply, val_main_v153_apply, val_main_cst_45_apply, val_main_v152_apply, val_main_v151_apply, val_main_cst_44_apply, val_main_v150_apply, val_main_v149_apply]
  exact Cert.Logistic.one_div_one_add_exp_neg _

/-- The clip of the forget gate at the level `a₃ n`. -/
theorem ref_pact_f (n : Fin 48) (p : Fin 256) (q : Fin 256) :
    val_main_v167 (F := Ideal) x0 x1 x3 x4 x5 x6 x7 x8 x9 x10 x11 x12 x13 x21 x22 x23 x24 (ix3 n p q) = pact (val_main_v154 (F := Ideal) x0 x1 x3 x4 x5 x6 x7 x8 x9 x10 x11 x12 x21 x22 x23 x24 (ix3 n p q)) (x13 (ix1 n)) := by
  have e1 : idx_main_v155 (idx_main_v161 (ix3 n p q)) = ix1 n := by idx1
  simp only [val_main_v167_apply, val_main_v158_apply, val_main_v156_apply, val_main_v157_apply, val_main_cst_46_apply, val_main_v166_apply, val_main_v164_apply, val_main_v159_apply, val_main_v163_apply, val_main_v162_apply, val_main_v160_apply, val_main_v161_apply, val_main_v155_apply, val_main_v165_apply]
  rw [e1]
  rfl

/-- The forget gate of block `n`. -/
theorem ref_forgetGate (n : Fin 48) (p q : Fin 256) :
    val_main_v167 (F := Ideal) x0 x1 x3 x4 x5 x6 x7 x8 x9 x10 x11 x12 x13 x21 x22 x23 x24 (ix3 n p q) = (arrBlock x0 x1 x2 x3 x4 x5 x6 x7 x8 x9 x10 x11 x12 x13 x14 x15 x16 x17 x18 x19 x20 x21 x22 x23 x24 n).forgetGate p q := by
  rw [ref_pact_f, ref_sigmoid_f, ref_slice_f x0 x1 x2 x3 x4 x5 x6 x7 x8 x9 x10 x11 x12 x13 x14 x15 x16 x17 x18 x19 x20 x21 x22 x23 x24]
  rfl

/-- Column group 3 of the gate pre-activations: entry `(n, p, q)` of the slice is entry `(n, p, 3·256 + q)`. -/
theorem ref_slice_o (n : Fin 48) (p q : Fin 256) :
    val_main_v148 (F := Ideal) x0 x1 x3 x4 x5 x6 x7 x8 x9 x10 x11 x12 x21 x22 x23 x24 (ix3 n p q) = (arrBlock x0 x1 x2 x3 x4 x5 x6 x7 x8 x9 x10 x11 x12 x13 x14 x15 x16 x17 x18 x19 x20 x21 x22 x23 x24 n).gates p (Block.col 3 q) := by
  have es : idx_main_v148 (ix3 n p q) = ix3 n p (Block.col 3 q) := by
    funext a
    match a with
    | ⟨0, _⟩ => rfl
    | ⟨1, _⟩ => rfl
    | ⟨2, _⟩ => exact Fin.ext (show (768 + q.val : Nat) = 3 * 256 + q.val by omega)
  rw [val_main_v148_apply, es, ref_gates x0 x1 x2 x3 x4 x5 x6 x7 x8 x9 x10 x11 x12 x13 x14 x15 x16 x17 x18 x19 x20 x21 x22 x23 x24]

/-- The output gate's sigmoid, spelt `1 / (1 + exp (-v))` with the word of 1.0, is the logistic function of the slice's entry. -/
theorem ref_sigmoid_o (n : Fin 48) (p q : Fin 256) :
    val_main_v206 (F := Ideal) x0 x1 x3 x4 x5 x6 x7 x8 x9 x10 x11 x12 x21 x22 x23 x24 (ix3 n p q) = Ideal.logistic (val_main_v148 (F := Ideal) x0 x1 x3 x4 x5 x6 x7 x8 x9 x10 x11 x12 x21 x22 x23 x24 (ix3 n p q)) := by
  simp only [val_main_v206_apply, val_main_v205_apply, val_main_cst_52_apply, val_main_v204_apply, val_main_v203_apply, val_main_cst_51_apply, val_main_v202_apply, val_main_v201_apply]
  exact Cert.Logistic.one_div_one_add_exp_neg _

/-- The clip of the output gate at the level `a₆ n`. -/
theorem ref_pact_o (n : Fin 48) (p : Fin 256) (q : Fin 256) :
    val_main_v219 (F := Ideal) x0 x1 x3 x4 x5 x6 x7 x8 x9 x10 x11 x12 x16 x21 x22 x23 x24 (ix3 n p q) = pact (val_main_v206 (F := Ideal) x0 x1 x3 x4 x5 x6 x7 x8 x9 x10 x11 x12 x21 x22 x23 x24 (ix3 n p q)) (x16 (ix1 n)) := by
  have e1 : idx_main_v207 (idx_main_v213 (ix3 n p q)) = ix1 n := by idx1
  simp only [val_main_v219_apply, val_main_v210_apply, val_main_v208_apply, val_main_v209_apply, val_main_cst_53_apply, val_main_v218_apply, val_main_v216_apply, val_main_v211_apply, val_main_v215_apply, val_main_v214_apply, val_main_v212_apply, val_main_v213_apply, val_main_v207_apply, val_main_v217_apply]
  rw [e1]
  rfl

/-- The output gate of block `n`. -/
theorem ref_outputGate (n : Fin 48) (p q : Fin 256) :
    val_main_v219 (F := Ideal) x0 x1 x3 x4 x5 x6 x7 x8 x9 x10 x11 x12 x16 x21 x22 x23 x24 (ix3 n p q) = (arrBlock x0 x1 x2 x3 x4 x5 x6 x7 x8 x9 x10 x11 x12 x13 x14 x15 x16 x17 x18 x19 x20 x21 x22 x23 x24 n).outputGate p q := by
  rw [ref_pact_o, ref_sigmoid_o, ref_slice_o x0 x1 x2 x3 x4 x5 x6 x7 x8 x9 x10 x11 x12 x13 x14 x15 x16 x17 x18 x19 x20 x21 x22 x23 x24]
  rfl

end Cert.LstmCell

end
-- ==== Proof.RefCell.lean ====
/-
  The new cell state and the new hidden state, read at an entry of the reference's two results.

  The old cell state times the forget gate is clipped at a₇; the input gate times the candidate activation is
  clipped at a₈; their sum, clipped at a₉, is the new cell state. Its hyperbolic tangent, clipped at a₁₀, times
  the output gate, clipped at a₁₁, is the new hidden state. Read at (n, p, q) these are the specification's
  functions of block n; an arbitrary index i of a 48 × 256 × 256 array is (i 0, i 1, i 2).
-/
import proofs.«155666_j28020366639341_1_alg».proof.Proof.RefNl

noncomputable section

namespace Cert.LstmCell

open Idealize.ShloMosaic Idealize.ShloMosaic.ValueIdx Cert.ReferenceIdeal Cert.ReferenceIdeal.ReadP

variable (x0 x1 x2 : FVec Ideal ⟨3, ![48, 256, 256]⟩ .f32) (x3 x4 x5 : FVec Ideal ⟨3, ![48, 256, 1024]⟩ .f32)
  (x6 x7 : FVec Ideal ⟨3, ![48, 1, 1024]⟩ .f32) (x8 : FVec Ideal ⟨3, ![48, 256, 1024]⟩ .f32) (x9 : FVec Ideal ⟨3, ![48, 1, 1024]⟩ .f32)
  (x10 : FVec Ideal ⟨3, ![48, 256, 1024]⟩ .f32) (x11 : FVec Ideal ⟨3, ![48, 1, 1024]⟩ .f32)
  (x12 x13 x14 x15 x16 x17 x18 x19 x20 x21 x22 x23 x24 : FVec Ideal ⟨1, ![48]⟩ .f32)

/-- The old cell state times the forget gate, clipped at the level `a₇ n`. -/
theorem ref_gated_cell (n : Fin 48) (p q : Fin 256) :
    val_main_v233 (F := Ideal) x0 x1 x2 x3 x4 x5 x6 x7 x8 x9 x10 x11 x12 x13 x17 x21 x22 x23 x24 (ix3 n p q) = pact (FloatOps.mulf (x2 (ix3 n p q)) ((arrBlock x0 x1 x2 x3 x4 x5 x6 x7 x8 x9 x10 x11 x12 x13 x14 x15 x16 x17 x18 x19 x20 x21 x22 x23 x24 n).forgetGate p q)) (x17 (ix1 n)) := by
  have e1 : idx_main_v221 (idx_main_v227 (ix3 n p q)) = ix1 n := by idx1
  simp only [val_main_v233_apply, val_main_v224_apply, val_main_v222_apply, val_main_v220_apply, val_main_v223_apply, val_main_cst_54_apply, val_main_v232_apply, val_main_v230_apply, val_main_v225_apply, val_main_v229_apply, val_main_v228_apply, val_main_v226_apply, val_main_v227_apply, val_main_v221_apply, val_main_v231_apply]
  rw [e1, ref_forgetGate x0 x1 x2 x3 x4 x5 x6 x7 x8 x9 x10 x11 x12 x13 x14 x15 x16 x17 x18 x19 x20 x21 x22 x23 x24]
  rfl

/-- The input gate times the candidate activation, clipped at the level `a₈ n`. -/
theorem ref_activated_input (n : Fin 48) (p q : Fin 256) :
    val_main_v247 (F := Ideal) x0 x1 x3 x4 x5 x6 x7 x8 x9 x10 x11 x12 x14 x15 x18 x21 x22 x23 x24 (ix3 n p q) = pact (FloatOps.mulf ((arrBlock x0 x1 x2 x3 x4 x5 x6 x7 x8 x9 x10 x11 x12 x13 x14 x15 x16 x17 x18 x19 x20 x21 x22 x23 x24 n).inputGate p q) ((arrBlock x0 x1 x2 x3 x4 x5 x6 x7 x8 x9 x10 x11 x12 x13 x14 x15 x16 x17 x18 x19 x20 x21 x22 x23 x24 n).activation p q)) (x18 (ix1 n)) := by
  have e1 : idx_main_v235 (idx_main_v241 (ix3 n p q)) = ix1 n := by idx1
  simp only [val_main_v247_apply, val_main_v238_apply, val_main_v236_apply, val_main_v234_apply, val_main_v237_apply, val_main_cst_55_apply, val_main_v246_apply, val_main_v244_apply, val_main_v239_apply, val_main_v243_apply, val_main_v242_apply, val_main_v240_apply, val_main_v241_apply, val_main_v235_apply, val_main_v245_apply]
  rw [e1, ref_inputGate x0 x1 x2 x3 x4 x5 x6 x7 x8 x9 x10 x11 x12 x13 x14 x15 x16 x17 x18 x19 x20 x21 x22 x23 x24, ref_activation x0 x1 x2 x3 x4 x5 x6 x7 x8 x9 x10 x11 x12 x13 x14 x15 x16 x17 x18 x19 x20 x21 x22 x23 x24]
  rfl

/-- The new cell state of block `n`. -/
theorem ref_newC_entry (n : Fin 48) (p q : Fin 256) :
    val_main_v261 (F := Ideal) x0 x1 x2 x3 x4 x5 x6 x7 x8 x9 x10 x11 x12 x13 x14 x15 x17 x18 x19 x21 x22 x23 x24 (ix3 n p q) = (arrBlock x0 x1 x2 x3 x4 x5 x6 x7 x8 x9 x10 x11 x12 x13 x14 x15 x16 x17 x18 x19 x20 x21 x22 x23 x24 n).newC p q := by
  have e1 : idx_main_v249 (idx_main_v255 (ix3 n p q)) = ix1 n := by idx1
  simp only [val_main_v261_apply, val_main_v252_apply, val_main_v250_apply, val_main_v248_apply, val_main_v251_apply, val_main_cst_56_apply, val_main_v260_apply, val_main_v258_apply, val_main_v253_apply, val_main_v257_apply, val_main_v256_apply, val_main_v254_apply, val_main_v255_apply, val_main_v249_apply, val_main_v259_apply]
  rw [e1, ref_gated_cell x0 x1 x2 x3 x4 x5 x6 x7 x8 x9 x10 x11 x12 x13 x14 x15 x16 x17 x18 x19 x20 x21 x22 x23 x24, ref_activated_input x0 x1 x2 x3 x4 x5 x6 x7 x8 x9 x10 x11 x12 x13 x14 x15 x16 x17 x18 x19 x20 x21 x22 x23 x24]
  rfl

/-- The hyperbolic tangent of the new cell state, clipped at the level `a₁₀ n`. -/
theorem ref_activated_cell (n : Fin 48) (p q : Fin 256) :
    val_main_v275 (F := Ideal) x0 x1 x2 x3 x4 x5 x6 x7 x8 x9 x10 x11 x12 x13 x14 x15 x17 x18 x19 x20 x21 x22 x23 x24 (ix3 n p q) = pact (Ideal.tanh ((arrBlock x0 x1 x2 x3 x4 x5 x6 x7 x8 x9 x10 x11 x12 x13 x14 x15 x16 x17 x18 x19 x20 x21 x22 x23 x24 n).newC p q)) (x20 (ix1 n)) := by
  have e1 : idx_main_v263 (idx_main_v269 (ix3 n p q)) = ix1 n := by idx1
  simp only [val_main_v275_apply, val_main_v266_apply, val_main_v264_apply, val_main_v262_apply, val_main_v265_apply, val_main_cst_57_apply, val_main_v274_apply, val_main_v272_apply, val_main_v267_apply, val_main_v271_apply, val_main_v270_apply, val_main_v268_apply, val_main_v269_apply, val_main_v263_apply, val_main_v273_apply]
  rw [e1, ref_newC_entry x0 x1 x2 x3 x4 x5 x6 x7 x8 x9 x10 x11 x12 x13 x14 x15 x16 x17 x18 x19 x20 x21 x22 x23 x24]
  rfl

/-- The new hidden state of block `n`. -/
theorem ref_newH_entry (n : Fin 48) (p q : Fin 256) :
    val_main_v289 (F := Ideal) x0 x1 x2 x3 x4 x5 x6 x7 x8 x9 x10 x11 x12 x13 x14 x15 x16 x17 x18 x19 x20 x21 x22 x23 x24 (ix3 n p q) = (arrBlock x0 x1 x2 x3 x4 x5 x6 x7 x8 x9 x10 x11 x12 x13 x14 x15 x16 x17 x18 x19 x20 x21 x22 x23 x24 n).newH p q := by
  have e1 : idx_main_v277 (idx_main_v283 (ix3 n p q)) = ix1 n := by idx1
  simp only [val_main_v289_apply, val_main_v280_apply, val_main_v278_apply, val_main_v276_apply, val_main_v279_apply, val_main_cst_58_apply, val_main_v288_apply, val_main_v286_apply, val_main_v281_apply, val_main_v285_apply, val_main_v284_apply, val_main_v282_apply, val_main_v283_apply, val_main_v277_apply, val_main_v287_apply]
  rw [e1, ref_activated_cell x0 x1 x2 x3 x4 x5 x6 x7 x8 x9 x10 x11 x12 x13 x14 x15 x16 x17 x18 x19 x20 x21 x22 x23 x24, ref_outputGate x0 x1 x2 x3 x4 x5 x6 x7 x8 x9 x10 x11 x12 x13 x14 x15 x16 x17 x18 x19 x20 x21 x22 x23 x24]
  rfl

/-- The reference's first result at an index is the specification's new hidden state of the index's block. -/
theorem ref_newH (i : Cert.ReferenceIdeal.S48x256x256.Idx) :
    val_main_v289 (F := Ideal) x0 x1 x2 x3 x4 x5 x6 x7 x8 x9 x10 x11 x12 x13 x14 x15 x16 x17 x18 x19 x20 x21 x22 x23 x24 i
      = (arrBlock x0 x1 x2 x3 x4 x5 x6 x7 x8 x9 x10 x11 x12 x13 x14 x15 x16 x17 x18 x19 x20 x21 x22 x23 x24 (i 0)).newH (i 1) (i 2) := by
  exact (congrArg (val_main_v289 (F := Ideal) x0 x1 x2 x3 x4 x5 x6 x7 x8 x9 x10 x11 x12 x13 x14 x15 x16 x17 x18 x19 x20 x21 x22 x23 x24) (eq_ix3 i)).trans
    (ref_newH_entry x0 x1 x2 x3 x4 x5 x6 x7 x8 x9 x10 x11 x12 x13 x14 x15 x16 x17 x18 x19 x20 x21 x22 x23 x24 (i 0) (i 1) (i 2))

/-- The reference's second result at an index is the specification's new cell state of the index's block. -/
theorem ref_newC (i : Cert.ReferenceIdeal.S48x256x256.Idx) :
    val_main_v261 (F := Ideal) x0 x1 x2 x3 x4 x5 x6 x7 x8 x9 x10 x11 x12 x13 x14 x15 x17 x18 x19 x21 x22 x23 x24 i
      = (arrBlock x0 x1 x2 x3 x4 x5 x6 x7 x8 x9 x10 x11 x12 x13 x14 x15 x16 x17 x18 x19 x20 x21 x22 x23 x24 (i 0)).newC (i 1) (i 2) := by
  exact (congrArg (val_main_v261 (F := Ideal) x0 x1 x2 x3 x4 x5 x6 x7 x8 x9 x10 x11 x12 x13 x14 x15 x17 x18 x19 x21 x22 x23 x24) (eq_ix3 i)).trans
    (ref_newC_entry x0 x1 x2 x3 x4 x5 x6 x7 x8 x9 x10 x11 x12 x13 x14 x15 x16 x17 x18 x19 x20 x21 x22 x23 x24 (i 0) (i 1) (i 2))

end Cert.LstmCell

end
-- ==== Proof.lean ====
/-
  The certificate of a quantized LSTM cell: 48 independent blocks, each a 256×256 input, hidden state and cell
  state, two 256×1024 weight matrices with additive noise and a mask, bias rows, and thirteen clipping levels.

  The kernel handles one block per grid point: it clips and quantizes the activations (8 bits) and the weights and
  biases (4 bits), takes the two matrix products, clips, splits the 1024 gate columns into four groups, applies the
  logistic function or tanh, and runs the LSTM recurrences with a clipping step after every operation. The
  reference does the same arithmetic on the whole 48-block arrays with one batched product per path.

  Over the extended reals the two are one function of the arguments (Proof/Spec.lean): the kernel's narrowing of the
  matrix operands to bf16 is the identity; its product into a zero accumulator and the reference's batched product
  are both the sum over k of the products of entries; the kernel's sign spelt by comparisons and the reference's sign
  function agree on every extended real; the kernel's logistic function is by definition 1 / (1 + exp (−x)), which the
  reference spells out. All literals are shared and kept as their f32 words. No step needs the inputs to be finite.

  Proof/KernelPieces, KernelLayout, KernelBlock and KernelArray read the kernel's two result arrays after its run;
  Proof/RefRun is the reference's run with its two results at their stages, and Proof/RefIn … RefCell read those stages
  at an entry; here the claims are assembled. The kernel's
  frames come from Proof/FrameKernel and Proof/FrameKernelIdeal. Each entry of the idealization's ledger (one per
  clipping step: the word "1.0 with x's sign bit" read as −1 below zero and 1 otherwise) is the rule's own statement.
-/
import proofs.«155666_j28020366639341_1_alg».proof.Defs
import proofs.«155666_j28020366639341_1_alg».proof.Proof.Gen.Kernel
import proofs.«155666_j28020366639341_1_alg».proof.Proof.Gen.KernelIdeal
import proofs.«155666_j28020366639341_1_alg».proof.Proof.Gen.ReferenceIdeal
import proofs.«155666_j28020366639341_1_alg».proof.Proof.Gen.Pre_finite_inputs
import proofs.«155666_j28020366639341_1_alg».proof.Proof.FrameKernel
import proofs.«155666_j28020366639341_1_alg».proof.Proof.FrameKernelIdeal
import proofs.«155666_j28020366639341_1_alg».proof.Proof.KernelArray
import proofs.«155666_j28020366639341_1_alg».proof.Proof.RefRun
import proofs.«155666_j28020366639341_1_alg».proof.Proof.RefCell
import Idealize.ShloMosaic.PureOps.IdealRules
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the idealized reference: its run, with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The ledger: fourteen clipping steps, each with the sign word read as −1 below zero and 1 otherwise. -/
theorem preserves : Cert.preserves_Kernel_KernelIdeal :=
  ⟨IdealRules.sign_bit.statement Cert.KernelIdeal.S256x256 .f32,
   IdealRules.sign_bit.statement Cert.KernelIdeal.S256x256 .f32,
   IdealRules.sign_bit.statement Cert.KernelIdeal.S256x1024 .f32,
   IdealRules.sign_bit.statement Cert.KernelIdeal.S256x1024 .f32,
   IdealRules.sign_bit.statement Cert.KernelIdeal.S256x1024 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32,
   IdealRules.sign_bit.statement Cert.KernelIdeal.S256x256 .f32⟩

/-- From memories agreeing on the arguments both idealized programs end with the same two arrays: the new hidden
    state and the new cell state of every block, as the specification computes them from the arguments. -/
theorem algebraic : Cert.algebraic_KernelIdeal_ReferenceIdeal := by
  intro m ρ m' ρ' _ hagree
  refine ⟨fun c => Cert.LstmCell.newHArr m c, fun c => Cert.LstmCell.newCArr m c, Cert.LstmCell.kernel_run m ρ, ?_⟩
  refine (θ_run Cert.ReferenceIdeal.defs _ _).mono (fun r h c => ?_) (Cert.ReferenceIdeal.RefRun.run (F := Ideal) m' ρ')
  obtain ⟨hH, hC, hkept⟩ := h c
  obtain ⟨a0, a1, a2, a3, a4, a5, a6, a7, a8, a9, a10, a11, a12, a13, a14, a15, a16, a17, a18, a19, a20, a21, a22, a23, a24⟩ := hagree c
  refine ⟨hH.trans ?_, hC.trans ?_, hkept⟩
  · rw [a0, a1, a2, a3, a4, a5, a6, a7, a8, a9, a10, a11, a12, a13, a14, a15, a16, a17, a18, a19, a20, a21, a22, a23, a24]
    funext i
    exact Cert.LstmCell.ref_newH _ _ _ _ _ _ _ _ _ _ _ _ _ _ _ _ _ _ _ _ _ _ _ _ _ i
  · rw [a0, a1, a2, a3, a4, a5, a6, a7, a8, a9, a10, a11, a12, a13, a14, a15, a17, a18, a19, a21, a22, a23, a24]
    funext i
    exact Cert.LstmCell.ref_newC _ _ _ _ _ _ _ _ _ _ _ _ _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
